-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v101)) (v1 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_v110) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v129) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S2x800000 : Shape := ⟨2, ![2, 800000]⟩
abbrev S200000 : Shape := ⟨1, ![200000]⟩
abbrev S100000x256 : Shape := ⟨2, ![100000, 256]⟩
abbrev S1024 : Shape := ⟨1, ![1024]⟩
abbrev S128x256 : Shape := ⟨2, ![128, 256]⟩
abbrev S256 : Shape := ⟨1, ![256]⟩
abbrev S256x256 : Shape := ⟨2, ![256, 256]⟩
abbrev S512x256 : Shape := ⟨2, ![512, 256]⟩
abbrev S256x128 : Shape := ⟨2, ![256, 128]⟩
abbrev S128 : Shape := ⟨1, ![128]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S100000x256 : S_.BroadcastsInDim S100000x256 (![] : Fin 0 → Fin S100000x256.rank)
  reducesTo_S100000x256_S_d0_1 : S100000x256.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S512x256 : S_.BroadcastsInDim S512x256 (![] : Fin 0 → Fin S512x256.rank)
  reducesTo_S512x256_S_d0_1 : S512x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  reducesTo_S_S_d : S_.ReducesTo [] S_

variable [Facts]

def fn_part3 {F : FTy → Type} [FloatOps F] (main_arg14 : FVec F S128 .f32) (main_arg15 : FVec F S_ .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S_ .f32 := Host.absf main_arg15
  let main_cst_22 : FVec F S_ .f32 := constant S_ .f32 0x7F800000#32
  let main_v60 : IVec S_ 1 := cmpf .olt main_v59 main_cst_22
  let main_c_23 : IVec S_ 1 := constantI S_ 1 1#1
  let main_v61 : IVec S_ 1 := (fun x v => Host.reduce IntOp.andi x v reducesTo_S_S_d h_S_) main_v60 main_c_23
  let main_v62 : IVec S_ 1 := andi main_v58 main_v61
  main_v62

def fn_part2 {F : FTy → Type} [FloatOps F] (main_arg10 : FVec F S256 .f32) (main_arg11 : FVec F S512x256 .f32) (main_arg12 : FVec F S256 .f32) (main_arg13 : FVec F S256x128 .f32) (main_arg14 : FVec F S128 .f32) (main_arg15 : FVec F S_ .f32) (main_v33 : IVec S_ 1) : IVec S_ 1 :=
  let main_v34 : FVec F S256 .f32 := Host.absf main_arg10
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S512x256 .f32 := Host.absf main_arg11
  let main_cst_14 : FVec F S_ .f32 := constant S_ .f32 0x7F800000#32
  let main_v40 : FVec F S512x256 .f32 := broadcastInDim S512x256 ![] bcast_S_S512x256 main_cst_14
  let main_v41 : IVec S512x256 1 := cmpf .olt main_v39 main_v40
  let main_c_15 : IVec S_ 1 := constantI S_ 1 1#1
  let main_v42 : IVec S_ 1 := (fun x v => Host.reduce IntOp.andi x v reducesTo_S512x256_S_d0_1 h_S_) main_v41 main_c_15
  let main_v43 : IVec S_ 1 := andi main_v38 main_v42
  let main_v44 : FVec F S256 .f32 := Host.absf main_arg12
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x128 .f32 := Host.absf main_arg13
  let main_cst_18 : FVec F S_ .f32 := constant S_ .f32 0x7F800000#32
  let main_v50 : FVec F S256x128 .f32 := broadcastInDim S256x128 ![] bcast_S_S256x128 main_cst_18
  fn_part3 (F := F) main_arg14 main_arg15 main_v48 main_v49 main_v50

def fn_part1 {F : FTy → Type} [FloatOps F] (main_arg7 : FVec F S256x256 .f32) (main_arg8 : FVec F S256 .f32) (main_arg9 : FVec F S256x256 .f32) (main_arg10 : FVec F S256 .f32) (main_arg11 : FVec F S512x256 .f32) (main_arg12 : FVec F S256 .f32) (main_arg13 : FVec F S256x128 .f32) (main_arg14 : FVec F S128 .f32) (main_arg15 : FVec F S_ .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg7
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg8
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg9
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg10 main_arg11 main_arg12 main_arg13 main_arg14 main_arg15 main_v33

def fn {F : FTy → Type} [FloatOps F] (main_arg0 : FVec F S200000x128 .f32) (main_arg1 : IVec S2x800000 32) (main_arg2 : IVec S200000 32) (main_arg3 : FVec F S100000x256 .f32) (main_arg4 : IVec S1024 32) (main_arg5 : FVec F S128x256 .f32) (main_arg6 : FVec F S256 .f32) (main_arg7 : FVec F S256x256 .f32) (main_arg8 : FVec F S256 .f32) (main_arg9 : FVec F S256x256 .f32) (main_arg10 : FVec F S256 .f32) (main_arg11 : FVec F S512x256 .f32) (main_arg12 : FVec F S256 .f32) (main_arg13 : FVec F S256x128 .f32) (main_arg14 : FVec F S128 .f32) (main_arg15 : FVec F S_ .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S100000x256 .f32 := Host.absf main_arg3
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S128x256 .f32 := Host.absf main_arg5
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg6
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg7 main_arg8 main_arg9 main_arg10 main_arg11 main_arg12 main_arg13 main_arg14 main_arg15 main_v13 main_v16
-- ==== Kernel.lean ====
abbrev S200000x128 : Shape := ⟨2, ![200000, 128]⟩
abbrev S2x800000 : Shape := ⟨2, ![2, 800000]⟩
abbrev S200000 : Shape := ⟨1, ![200000]⟩
abbrev S100000x256 : Shape := ⟨2, ![100000, 256]⟩
abbrev S1024 : Shape := ⟨1, ![1024]⟩
abbrev S128x256 : Shape := ⟨2, ![128, 256]⟩
abbrev S256 : Shape := ⟨1, ![256]⟩
abbrev S256x256 : Shape := ⟨2, ![256, 256]⟩
abbrev S512x256 : Shape := ⟨2, ![512, 256]⟩
abbrev S256x128 : Shape := ⟨2, ![256, 128]⟩
abbrev S128 : Shape := ⟨1, ![128]⟩
abbrev S_ : Shape := ⟨0, ![]⟩
abbrev S1x800000 : Shape := ⟨2, ![1, 800000]⟩
abbrev S800000 : Shape := ⟨1, ![800000]⟩
abbrev S1000000 : Shape := ⟨1, ![1000000]⟩
abbrev S1000000x1 : Shape := ⟨2, ![1000000, 1]⟩
abbrev S200000x256 : Shape := ⟨2, ![200000, 256]⟩
abbrev S4000x128 : Shape := ⟨2, ![4000, 128]⟩
abbrev S4000x256 : Shape := ⟨2, ![4000, 256]⟩
abbrev S200000x1 : Shape := ⟨2, ![200000, 1]⟩
abbrev S1000000x256 : Shape := ⟨2, ![1000000, 256]⟩
abbrev S1x256 : Shape := ⟨2, ![1, 256]⟩
abbrev S1024x256 : Shape := ⟨2, ![1024, 256]⟩
abbrev S1024x1 : Shape := ⟨2, ![1024, 1]⟩
abbrev S102400x256 : Shape := ⟨2, ![102400, 256]⟩
abbrev S1024x100000 : Shape := ⟨2, ![1024, 100000]⟩
abbrev S2560x256 : Shape := ⟨2, ![2560, 256]⟩
abbrev S1024x2560 : Shape := ⟨2, ![1024, 2560]⟩
abbrev S2560 : Shape := ⟨1, ![2560]⟩
abbrev S2560x1 : Shape := ⟨2, ![2560, 1]⟩
abbrev S1024x512 : Shape := ⟨2, ![1024, 512]⟩
abbrev S1024x128 : Shape := ⟨2, ![1024, 128]⟩
abbrev S1x128 : Shape := ⟨2, ![1, 128]⟩

abbrev nBuf : Space → Nat
  | .hbm => 163
  | .vmem => 26
  | .smem => 0
  | _ => 0

abbrev hbmTy0_0 (i : Nat) : BufTy := match i % 128 with
  | 0 => ⟨S200000x128, .f32⟩
  | 1 => ⟨S2x800000, .i32⟩
  | 2 => ⟨S200000, .i32⟩
  | 3 => ⟨S100000x256, .f32⟩
  | 4 => ⟨S1024, .i32⟩
  | 5 => ⟨S128x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S512x256, .f32⟩
  | 12 => ⟨S256, .f32⟩
  | 13 => ⟨S256x128, .f32⟩
  | 14 => ⟨S128, .f32⟩
  | 15 => ⟨S_, .f32⟩
  | 16 => ⟨S1x800000, .i32⟩
  | 17 => ⟨S800000, .i32⟩
  | 18 => ⟨S1x800000, .i32⟩
  | 19 => ⟨S800000, .i32⟩
  | 20 => ⟨S200000, .i32⟩
  | 21 => ⟨S1000000, .i32⟩
  | 22 => ⟨S1000000, .i32⟩
  | 23 => ⟨S_, .f32⟩
  | 24 => ⟨S1000000, .f32⟩
  | 25 => ⟨S_, .f32⟩
  | 26 => ⟨S200000, .f32⟩
  | 27 => ⟨S1000000x1, .i32⟩
  | 28 => ⟨S200000, .f32⟩
  | 29 => ⟨S_, .f32⟩
  | 30 => ⟨S200000, .f32⟩
  | 31 => ⟨S200000, .i1⟩
  | 32 => ⟨S_, .f32⟩
  | 33 => ⟨S200000, .f32⟩
  | 34 => ⟨S200000, .f32⟩
  | 35 => ⟨S200000, .f32⟩
  | 36 => ⟨S_, .f32⟩
  | 37 => ⟨S_, .f32⟩
  | 38 => ⟨S200000, .f32⟩
  | 39 => ⟨S200000, .f32⟩
  | 40 => ⟨S200000x256, .f32⟩
  | 41 => ⟨S200000x1, .f32⟩
  | 42 => ⟨S200000x256, .f32⟩
  | 43 => ⟨S200000x256, .f32⟩
  | 44 => ⟨S_, .i32⟩
  | 45 => ⟨S1000000, .i32⟩
  | 46 => ⟨S1000000, .i1⟩
  | 47 => ⟨S_, .i32⟩
  | 48 => ⟨S1000000, .i32⟩
  | 49 => ⟨S1000000, .i32⟩
  | 50 => ⟨S1000000, .i32⟩
  | 51 => ⟨S1000000x1, .i32⟩
  | 52 => ⟨S1000000x256, .f32⟩
  | 53 => ⟨S_, .f32⟩
  | 54 => ⟨S200000x256, .f32⟩
  | 55 => ⟨S1000000x1, .i32⟩
  | 56 => ⟨S200000x256, .f32⟩
  | 57 => ⟨S200000x1, .f32⟩
  | 58 => ⟨S200000x256, .f32⟩
  | 59 => ⟨S200000x256, .f32⟩
  | 60 => ⟨S1x256, .f32⟩
  | 61 => ⟨S200000x256, .f32⟩
  | 62 => ⟨S200000x256, .f32⟩
  | 63 => ⟨S_, .f32⟩
  | 64 => ⟨S200000x256, .f32⟩
  | 65 => ⟨S200000x256, .f32⟩
  | 66 => ⟨S200000x256, .f32⟩
  | 67 => ⟨S200000x1, .f32⟩
  | 68 => ⟨S200000x256, .f32⟩
  | 69 => ⟨S200000x256, .f32⟩
  | 70 => ⟨S_, .i32⟩
  | 71 => ⟨S1000000, .i32⟩
  | 72 => ⟨S1000000, .i1⟩
  | 73 => ⟨S_, .i32⟩
  | 74 => ⟨S1000000, .i32⟩
  | 75 => ⟨S1000000, .i32⟩
  | 76 => ⟨S1000000, .i32⟩
  | 77 => ⟨S1000000x1, .i32⟩
  | 78 => ⟨S1000000x256, .f32⟩
  | 79 => ⟨S_, .f32⟩
  | 80 => ⟨S200000x256, .f32⟩
  | 81 => ⟨S1000000x1, .i32⟩
  | 82 => ⟨S200000x256, .f32⟩
  | 83 => ⟨S200000x1, .f32⟩
  | 84 => ⟨S200000x256, .f32⟩
  | 85 => ⟨S200000x256, .f32⟩
  | 86 => ⟨S1x256, .f32⟩
  | 87 => ⟨S200000x256, .f32⟩
  | 88 => ⟨S200000x256, .f32⟩
  | 89 => ⟨S_, .f32⟩
  | 90 => ⟨S200000x256, .f32⟩
  | 91 => ⟨S200000x256, .f32⟩
  | 92 => ⟨S200000x256, .f32⟩
  | 93 => ⟨S200000x1, .f32⟩
  | 94 => ⟨S200000x256, .f32⟩
  | 95 => ⟨S200000x256, .f32⟩
  | 96 => ⟨S_, .i32⟩
  | 97 => ⟨S1000000, .i32⟩
  | 98 => ⟨S1000000, .i1⟩
  | 99 => ⟨S_, .i32⟩
  | 100 => ⟨S1000000, .i32⟩
  | 101 => ⟨S1000000, .i32⟩
  | 102 => ⟨S1000000, .i32⟩
  | 103 => ⟨S1000000x1, .i32⟩
  | 104 => ⟨S1000000x256, .f32⟩
  | 105 => ⟨S_, .f32⟩
  | 106 => ⟨S200000x256, .f32⟩
  | 107 => ⟨S1000000x1, .i32⟩
  | 108 => ⟨S200000x256, .f32⟩
  | 109 => ⟨S200000x1, .f32⟩
  | 110 => ⟨S200000x256, .f32⟩
  | 111 => ⟨S200000x256, .f32⟩
  | 112 => ⟨S1x256, .f32⟩
  | 113 => ⟨S200000x256, .f32⟩
  | 114 => ⟨S200000x256, .f32⟩
  | 115 => ⟨S_, .f32⟩
  | 116 => ⟨S200000x256, .f32⟩
  | 117 => ⟨S200000x256, .f32⟩
  | 118 => ⟨S_, .f32⟩
  | 119 => ⟨S1024x256, .f32⟩
  | 120 => ⟨S200000x1, .i32⟩
  | 121 => ⟨S1024x256, .f32⟩
  | 122 => ⟨S_, .f32⟩
  | 123 => ⟨S200000, .f32⟩
  | 124 => ⟨S_, .f32⟩
  | 125 => ⟨S1024, .f32⟩
  | 126 => ⟨S200000x1, .i32⟩
  | 127 => ⟨S1024, .f32⟩
  | _ => ⟨S200000x128, .f32⟩

abbrev hbmTy0_1 (i : Nat) : BufTy := match i % 128 with
  | 0 => ⟨S_, .f32⟩
  | 1 => ⟨S1024, .f32⟩
  | 2 => ⟨S1024, .f32⟩
  | 3 => ⟨S1024x1, .f32⟩
  | 4 => ⟨S1024x256, .f32⟩
  | 5 => ⟨S1024x256, .f32⟩
  | 6 => ⟨S1024x256, .f32⟩
  | 7 => ⟨S_, .f32⟩
  | 8 => ⟨S1024, .f32⟩
  | 9 => ⟨S1024x1, .f32⟩
  | 10 => ⟨S1024x1, .f32⟩
  | 11 => ⟨S_, .f32⟩
  | 12 => ⟨S1024x1, .f32⟩
  | 13 => ⟨S1024x1, .f32⟩
  | 14 => ⟨S1024x256, .f32⟩
  | 15 => ⟨S1024x256, .f32⟩
  | 16 => ⟨S_, .f32⟩
  | 17 => ⟨S_, .f32⟩
  | 18 => ⟨S1024x256, .f32⟩
  | 19 => ⟨S1024x256, .f32⟩
  | 20 => ⟨S_, .i32⟩
  | 21 => ⟨S_, .f32⟩
  | 22 => ⟨S102400x256, .f32⟩
  | 23 => ⟨S1024x100000, .f32⟩
  | 24 => ⟨S_, .i32⟩
  | 25 => ⟨S1024, .i32⟩
  | 26 => ⟨S1024, .i1⟩
  | 27 => ⟨S_, .i32⟩
  | 28 => ⟨S1024, .i32⟩
  | 29 => ⟨S1024, .i32⟩
  | 30 => ⟨S1024, .i32⟩
  | 31 => ⟨S1024x1, .i32⟩
  | 32 => ⟨S1024x256, .f32⟩
  | 33 => ⟨S1024x512, .f32⟩
  | 34 => ⟨S1024x128, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S128x256, .f32⟩
  | .local _ .vmem, ⟨3, _⟩ => ⟨S4000x256, .f32⟩
  | .local _ .vmem, ⟨4, _⟩ => ⟨S4000x256, .f32⟩
  | .local _ .vmem, ⟨5, _⟩ => ⟨S4000x256, .f32⟩
  | .local _ .vmem, ⟨6, _⟩ => ⟨S4000x256, .f32⟩
  | .local _ .vmem, ⟨7, _⟩ => ⟨S256x256, .f32⟩
  | .local _ .vmem, ⟨8, _⟩ => ⟨S4000x256, .f32⟩
  | .local _ .vmem, ⟨9, _⟩ => ⟨S4000x256, .f32⟩
  | .local _ .vmem, ⟨10, _⟩ => ⟨S4000x256, .f32⟩
  | .local _ .vmem, ⟨11, _⟩ => ⟨S4000x256, .f32⟩
  | .local _ .vmem, ⟨12, _⟩ => ⟨S256x256, .f32⟩
  | .local _ .vmem, ⟨13, _⟩ => ⟨S4000x256, .f32⟩
  | .local _ .vmem, ⟨14, _⟩ => ⟨S4000x256, .f32⟩
  | .local _ .vmem, ⟨15, _⟩ => ⟨S1024x256, .f32⟩
  | .local _ .vmem, ⟨16, _⟩ => ⟨S2560x256, .f32⟩
  | .local _ .vmem, ⟨17, _⟩ => ⟨S2560x256, .f32⟩
  | .local _ .vmem, ⟨18, _⟩ => ⟨S1024x2560, .f32⟩
  | .local _ .vmem, ⟨19, _⟩ => ⟨S1024x2560, .f32⟩
  | .local _ .vmem, ⟨20, _⟩ => ⟨S1024x512, .f32⟩
  | .local _ .vmem, ⟨21, _⟩ => ⟨S512x256, .f32⟩
  | .local _ .vmem, ⟨22, _⟩ => ⟨S256, .f32⟩
  | .local _ .vmem, ⟨23, _⟩ => ⟨S256x128, .f32⟩
  | .local _ .vmem, ⟨24, _⟩ => ⟨S128, .f32⟩
  | .local _ .vmem, ⟨25, _⟩ => ⟨S1024x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c : Ref sig .tc := ⟨.hbm, 44, rfl⟩
abbrev main_v21 : Ref sig .tc := ⟨.hbm, 45, rfl⟩
abbrev main_v22 : Ref sig .tc := ⟨.hbm, 46, rfl⟩
abbrev main_c_4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_5 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_call1_cst : Ref sig .tc := ⟨.hbm, 63, rfl⟩
abbrev main_call1_v0 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_6 : Ref sig .tc := ⟨.hbm, 70, rfl⟩
abbrev main_v42 : Ref sig .tc := ⟨.hbm, 71, rfl⟩
abbrev main_v43 : Ref sig .tc := ⟨.hbm, 72, rfl⟩
abbrev main_c_7 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_8 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_call2_cst : Ref sig .tc := ⟨.hbm, 89, rfl⟩
abbrev main_call2_v0 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_c_9 : Ref sig .tc := ⟨.hbm, 96, rfl⟩
abbrev main_v63 : Ref sig .tc := ⟨.hbm, 97, rfl⟩
abbrev main_v64 : Ref sig .tc := ⟨.hbm, 98, rfl⟩
abbrev main_c_10 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_11 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_call3_cst : Ref sig .tc := ⟨.hbm, 115, rfl⟩
abbrev main_call3_v0 : Ref sig .tc := ⟨.hbm, 116, rfl⟩
abbrev main_v79 : Ref sig .tc := ⟨.hbm, 117, rfl⟩
abbrev main_cst_12 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_13 : Ref sig .tc := ⟨.hbm, 122, rfl⟩
abbrev main_v83 : Ref sig .tc := ⟨.hbm, 123, rfl⟩
abbrev main_cst_14 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_cst_15 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_call4_v0 : Ref sig .tc := ⟨.hbm, 134, rfl⟩
abbrev main_call4_cst : Ref sig .tc := ⟨.hbm, 135, rfl⟩
abbrev main_call4_v1 : Ref sig .tc := ⟨.hbm, 136, rfl⟩
abbrev main_call4_v2 : Ref sig .tc := ⟨.hbm, 137, rfl⟩
abbrev main_v92 : Ref sig .tc := ⟨.hbm, 138, rfl⟩
abbrev main_cst_16 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_cst_17 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_c_18 : Ref sig .tc := ⟨.hbm, 148, rfl⟩
abbrev main_call5_v0 : Ref sig .tc := ⟨.hbm, 149, rfl⟩
abbrev main_v100 : Ref sig .tc := ⟨.hbm, 150, rfl⟩
abbrev main_v101 : Ref sig .tc := ⟨.hbm, 151, rfl⟩
abbrev main_c_19 : Ref sig .tc := ⟨.hbm, 152, rfl⟩
abbrev main_v102 : Ref sig .tc := ⟨.hbm, 153, rfl⟩
abbrev main_v103 : Ref sig .tc := ⟨.hbm, 154, rfl⟩
abbrev main_c_20 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc4_stg4_0 : Ref sig .tc := ⟨.vmem, 24, rfl⟩
abbrev cc4_stg5_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem1_1 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc4_sem3_0 : DmaSem sig := 23
abbrev cc4_sem4_0 : DmaSem sig := 24
abbrev cc4_sem5_0 : DmaSem sig := 25

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S1024x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S2560x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1024x2560 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S1024x512 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S512x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1024x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S200000_S1000000_d0 : Shape.Concatenates [S800000, S200000] S1000000 0
  bcast_S_S1000000 : S_.BroadcastsInDim S1000000 (![] : Fin 0 → Fin S1000000.rank)
  bcast_S_S200000 : S_.BroadcastsInDim S200000 (![] : Fin 0 → Fin S200000.rank)
  bcast_S1000000_S1000000x1_0 : S1000000.BroadcastsInDim S1000000x1 (![0] : Fin 1 → Fin S1000000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S4000x256_S4000x256_0_0 : ∀ a, (![0, 0] : Fin 2 → Nat) a + S4000x256.size a ≤ S4000x256.size a
  h_S4000x256 : 0 < S4000x256.numel
  bcast_S200000_S200000x1_0 : S200000.BroadcastsInDim S200000x1 (![0] : Fin 1 → Fin S200000x1.rank)
  bcast_S200000x1_S200000x256_0_1 : S200000x1.BroadcastsInDim S200000x256 (![0, 1] : Fin 2 → Fin S200000x256.rank)
  bcast_S_S200000x256 : S_.BroadcastsInDim S200000x256 (![] : Fin 0 → Fin S200000x256.rank)
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  shapeCasts_S4000x256_S4000x256 : S4000x256.ShapeCasts S4000x256
  inb_S256x256_S256x256_0_0 : ∀ a, (![0, 0] : Fin 2 → Nat) a + S256x256.size a ≤ S256x256.size a
  h_S256x256 : 0 < S256x256.numel
  bcast_S_S1024x256 : S_.BroadcastsInDim S1024x256 (![] : Fin 0 → Fin S1024x256.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  reducesTo_S1024x256_S1024_d1 : S1024x256.ReducesTo [1] S1024
  h_S_ : 0 < S_.numel
  bcast_S_S1024x1 : S_.BroadcastsInDim S1024x1 (![] : Fin 0 → Fin S1024x1.rank)
  pads_S100000x256_S102400x256_024000_000 : S100000x256.Pads (![0, 0] : Fin 2 → Nat) ![2400, 0] ![0, 0] S102400x256
  inb_S2560x256_S2560x256_0_0 : ∀ a, (![0, 0] : Fin 2 → Nat) a + S2560x256.size a ≤ S2560x256.size a
  h_S2560x256 : 0 < S2560x256.numel
  shapeCasts_S2560x256_S2560x256 : S2560x256.ShapeCasts S2560x256
  reduces_S2560x256_S2560 : S2560x256.Reduces [1] S2560
  shapeCasts_S2560_S2560x1 : S2560.ShapeCasts S2560x1
  broadcasts_S2560x1_S2560x256 : S2560x1.Broadcasts S2560x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x2560_S1024x2560_0_0 : ∀ a, (![0, 0] : Fin 2 → Nat) a + S1024x2560.size a ≤ S1024x2560.size a
  h_S1024x2560 : 0 < S1024x2560.numel
  concatenates_S1024x256_S1024x256_S1024x512_d1 : Shape.Concatenates [S1024x256, S1024x256] S1024x512 1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  scatter_S200000_S1000000x1_S1000000_n_0_0_1_wf : ScatterDims.WF S200000 S1000000x1 S1000000 [] [0] [0] 1
  dot_S4000x128_S128x256_S4000x256_1_0_0_1_n_n_wf : DotDims.WF S4000x128 S128x256 S4000x256 [1] [0] [0] [1] [] []
  gather_S200000x256_S1000000x1_S1000000x256_1_0_n_n_0_1_1256_wf : GatherDims.WF S200000x256 S1000000x1 S1000000x256 [1] [0] [] [0] [] 1 ![1, 256]
  scatter_S200000x256_S1000000x1_S1000000x256_1_0_0_1_wf : ScatterDims.WF S200000x256 S1000000x1 S1000000x256 [1] [0] [0] 1
  dot_S4000x256_S256x256_S4000x256_1_0_0_1_n_n_wf : DotDims.WF S4000x256 S256x256 S4000x256 [1] [0] [0] [1] [] []
  scatter_S1024x256_S200000x1_S200000x256_1_0_0_1_wf : ScatterDims.WF S1024x256 S200000x1 S200000x256 [1] [0] [0] 1
  scatter_S1024_S200000x1_S200000_n_0_0_1_wf : ScatterDims.WF S1024 S200000x1 S200000 [] [0] [0] 1
  dot_S1024x256_S2560x256_S1024x2560_1_1_0_0_n_n_wf : DotDims.WF S1024x256 S2560x256 S1024x2560 [1] [1] [0] [0] [] []
  gather_S100000x256_S1024x1_S1024x256_1_0_n_n_0_1_1256_wf : GatherDims.WF S100000x256 S1024x1 S1024x256 [1] [0] [] [0] [] 1 ![1, 256]
  dot_S1024x512_S512x256_S1024x256_1_0_0_1_n_n_wf : DotDims.WF S1024x512 S512x256 S1024x256 [1] [0] [0] [1] [] []
  dot_S1024x256_S256x128_S1024x128_1_0_0_1_n_n_wf : DotDims.WF S1024x256 S256x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S200000x128.size a
  hwx0_0 : ∀ i : grid0.Coords, EltTy.bits .f32 = 32 ∨ (Rect.block (s := S200000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x256.size a ≤ S200000x256.size a
  hwx0_2 : ∀ i : grid0.Coords, EltTy.bits .f32 = 32 ∨ (Rect.block (s := S200000x256) S4000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S200000x256.size a
  hwx1_0 : ∀ i : grid1.Coords, EltTy.bits .f32 = 32 ∨ (Rect.block (s := S200000x256) S4000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x256.size a ≤ S200000x256.size a
  hwx1_2 : ∀ i : grid1.Coords, EltTy.bits .f32 = 32 ∨ (Rect.block (s := S200000x256) S4000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x256.size a ≤ S200000x256.size a
  hwx2_0 : ∀ i : grid2.Coords, EltTy.bits .f32 = 32 ∨ (Rect.block (s := S200000x256) S4000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x256.size a ≤ S200000x256.size a
  hwx2_2 : ∀ i : grid2.Coords, EltTy.bits .f32 = 32 ∨ (Rect.block (s := S200000x256) S4000x256.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1024x256.size a ≤ S1024x256.size a
  hwx3_0 : ∀ i : grid3.Coords, EltTy.bits .f32 = 32 ∨ (Rect.block (s := S1024x256) S1024x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2560x256.size a ≤ S102400x256.size a
  hwx3_1 : ∀ i : grid3.Coords, EltTy.bits .f32 = 32 ∨ (Rect.block (s := S102400x256) S2560x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hstart3_2 : ∀ (i : grid3.Coords) a, cc3_transform_2 i a * S1024x2560.size a < S1024x100000.size a
  hwx3_2 : ∀ i : grid3.Coords, EltTy.bits .f32 = 32 ∨ (Rect.unit (s := S1024x100000) (fun a => cc3_transform_2 i a * S1024x2560.size a) (fun a => (Pipeline.Clip.of (cc3_transform_2 i a) (S1024x2560.size a) (S1024x100000.size a)).extent (S1024x2560.size a)) fun a => Pipeline.Clip.inb (Pipeline.Clip.ok_of (hstart3_2 i a))).WholeWords (EltTy.packing .f32)
  hwxs3_2 : ∀ i : grid3.Coords, EltTy.bits .f32 = 32 ∨ (Rect.unit (s := S1024x2560) (fun _ => 0) (fun a => (Pipeline.Clip.of (cc3_transform_2 i a) (S1024x2560.size a) (S1024x100000.size a)).extent (S1024x2560.size a)) fun a => (Nat.zero_add _).trans_le (Pipeline.Clip.extent_le (Pipeline.Clip.ok_of (hstart3_2 i a)))).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1024x512.size a ≤ S1024x512.size a
  hwx4_0 : ∀ i : grid4.Coords, EltTy.bits .f32 = 32 ∨ (Rect.block (s := S1024x512) S1024x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x256.size a ≤ S512x256.size a
  hwx4_1 : ∀ i : grid4.Coords, EltTy.bits .f32 = 32 ∨ (Rect.block (s := S512x256) S512x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256.size a ≤ S256.size a
  hwx4_2 : ∀ i : grid4.Coords, EltTy.bits .f32 = 32 ∨ (Rect.block (s := S256) S256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x128.size a ≤ S256x128.size a
  hwx4_3 : ∀ i : grid4.Coords, EltTy.bits .f32 = 32 ∨ (Rect.block (s := S256x128) S256x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1024x128.size a ≤ S1024x128.size a
  hwx4_5 : ∀ i : grid4.Coords, EltTy.bits .f32 = 32 ∨ (Rect.block (s := S1024x128) S1024x128.size (cc4_transform_5 i) (hinb4_5 i)).WholeWords (EltTy.packing .f32)

variable [Facts₀]

def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def gather_S200000x256_S1000000x1_S1000000x256_1_0_n_n_0_1_1256 : GatherDims S200000x256 S1000000x1 S1000000x256 where
  offsetDims := [1]
  collapsedSliceDims := [0]
  operandBatchingDims := []
  startIndicesBatchingDims := []
  startIndexMap := [0]
  indexVectorDim := 1
  sliceSizes := ![1, 256]
  wf := gather_S200000x256_S1000000x1_S1000000x256_1_0_n_n_0_1_1256_wf
def scatter_S200000x256_S1000000x1_S1000000x256_1_0_0_1 : ScatterDims S200000x256 S1000000x1 S1000000x256 where
  updateWindowDims := [1]
  insertedWindowDims := [0]
  scatterDimsToOperandDims := [0]
  indexVectorDim := 1
  wf := scatter_S200000x256_S1000000x1_S1000000x256_1_0_0_1_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def scatter_S1024x256_S200000x1_S200000x256_1_0_0_1 : ScatterDims S1024x256 S200000x1 S200000x256 where
  updateWindowDims := [1]
  insertedWindowDims := [0]
  scatterDimsToOperandDims := [0]
  indexVectorDim := 1
  wf := scatter_S1024x256_S200000x1_S200000x256_1_0_0_1_wf
def scatter_S1024_S200000x1_S200000_n_0_0_1 : ScatterDims S1024 S200000x1 S200000 where
  updateWindowDims := []
  insertedWindowDims := [0]
  scatterDimsToOperandDims := [0]
  indexVectorDim := 1
  wf := scatter_S1024_S200000x1_S200000_n_0_0_1_wf
def dot_S1024x256_S2560x256_S1024x2560_1_1_0_0_n_n : DotDims S1024x256 S2560x256 S1024x2560 where
  lhsContracting := [1]
  rhsContracting := [1]
  lhsNonContracting := [0]
  rhsNonContracting := [0]
  lhsBatch := []
  rhsBatch := []
  wf := dot_S1024x256_S2560x256_S1024x2560_1_1_0_0_n_n_wf
def gather_S100000x256_S1024x1_S1024x256_1_0_n_n_0_1_1256 : GatherDims S100000x256 S1024x1 S1024x256 where
  offsetDims := [1]
  collapsedSliceDims := [0]
  operandBatchingDims := []
  startIndicesBatchingDims := []
  startIndexMap := [0]
  indexVectorDim := 1
  sliceSizes := ![1, 256]
  wf := gather_S100000x256_S1024x1_S1024x256_1_0_n_n_0_1_1256_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S4000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S4000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v58) S4000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S4000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v99) S1024x256.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v100) S2560x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpecClip (Memref.whole main_v101) S1024x2560.size cc3_transform_2 reads3_2 true false 2 stage3_2 sem3_2
    hrank3 hreads3_2 hstart3_2 nbuf3_2 (Memref.isWhole_whole _) hwx3_2 hwxs3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v109) S1024x512.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S512x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg12) S256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg13) S256x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg14) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v110) S1024x128.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S200000x128 : Shape := ⟨2, ![200000, 128]⟩
abbrev S2x800000 : Shape := ⟨2, ![2, 800000]⟩
abbrev S200000 : Shape := ⟨1, ![200000]⟩
abbrev S100000x256 : Shape := ⟨2, ![100000, 256]⟩
abbrev S1024 : Shape := ⟨1, ![1024]⟩
abbrev S128x256 : Shape := ⟨2, ![128, 256]⟩
abbrev S256 : Shape := ⟨1, ![256]⟩
abbrev S256x256 : Shape := ⟨2, ![256, 256]⟩
abbrev S512x256 : Shape := ⟨2, ![512, 256]⟩
abbrev S256x128 : Shape := ⟨2, ![256, 128]⟩
abbrev S128 : Shape := ⟨1, ![128]⟩
abbrev S_ : Shape := ⟨0, ![]⟩
abbrev S1x800000 : Shape := ⟨2, ![1, 800000]⟩
abbrev S800000 : Shape := ⟨1, ![800000]⟩
abbrev S1000000 : Shape := ⟨1, ![1000000]⟩
abbrev S1000000x1 : Shape := ⟨2, ![1000000, 1]⟩
abbrev S200000x256 : Shape := ⟨2, ![200000, 256]⟩
abbrev S1000000x256 : Shape := ⟨2, ![1000000, 256]⟩
abbrev S1x256 : Shape := ⟨2, ![1, 256]⟩
abbrev S1024x256 : Shape := ⟨2, ![1024, 256]⟩
abbrev S200000x1 : Shape := ⟨2, ![200000, 1]⟩
abbrev S1024x1 : Shape := ⟨2, ![1024, 1]⟩
abbrev S100000 : Shape := ⟨1, ![100000]⟩
abbrev S100000x1 : Shape := ⟨2, ![100000, 1]⟩
abbrev S256x100000 : Shape := ⟨2, ![256, 100000]⟩
abbrev S1024x100000 : Shape := ⟨2, ![1024, 100000]⟩
abbrev S1024x512 : Shape := ⟨2, ![1024, 512]⟩
abbrev S1024x128 : Shape := ⟨2, ![1024, 128]⟩
abbrev S1x128 : Shape := ⟨2, ![1, 128]⟩

abbrev nBuf : Space → Nat
  | .hbm => 191
  | .vmem => 0
  | .smem => 0
  | _ => 0

abbrev hbmTy0_0 (i : Nat) : BufTy := match i % 128 with
  | 0 => ⟨S200000x128, .f32⟩
  | 1 => ⟨S2x800000, .i32⟩
  | 2 => ⟨S200000, .i32⟩
  | 3 => ⟨S100000x256, .f32⟩
  | 4 => ⟨S1024, .i32⟩
  | 5 => ⟨S128x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S512x256, .f32⟩
  | 12 => ⟨S256, .f32⟩
  | 13 => ⟨S256x128, .f32⟩
  | 14 => ⟨S128, .f32⟩
  | 15 => ⟨S_, .f32⟩
  | 16 => ⟨S1x800000, .i32⟩
  | 17 => ⟨S800000, .i32⟩
  | 18 => ⟨S1x800000, .i32⟩
  | 19 => ⟨S800000, .i32⟩
  | 20 => ⟨S200000, .i32⟩
  | 21 => ⟨S1000000, .i32⟩
  | 22 => ⟨S1000000, .i32⟩
  | 23 => ⟨S_, .f32⟩
  | 24 => ⟨S1000000, .f32⟩
  | 25 => ⟨S_, .f32⟩
  | 26 => ⟨S200000, .f32⟩
  | 27 => ⟨S1000000x1, .i32⟩
  | 28 => ⟨S200000, .f32⟩
  | 29 => ⟨S_, .f32⟩
  | 30 => ⟨S200000, .f32⟩
  | 31 => ⟨S200000, .i1⟩
  | 32 => ⟨S_, .f32⟩
  | 33 => ⟨S200000, .f32⟩
  | 34 => ⟨S200000, .f32⟩
  | 35 => ⟨S200000, .f32⟩
  | 36 => ⟨S_, .f32⟩
  | 37 => ⟨S_, .f32⟩
  | 38 => ⟨S200000, .f32⟩
  | 39 => ⟨S200000, .f32⟩
  | 40 => ⟨S_, .i32⟩
  | 41 => ⟨S1000000, .i32⟩
  | 42 => ⟨S1000000, .i1⟩
  | 43 => ⟨S_, .i32⟩
  | 44 => ⟨S1000000, .i32⟩
  | 45 => ⟨S1000000, .i32⟩
  | 46 => ⟨S1000000, .i32⟩
  | 47 => ⟨S1000000x1, .i32⟩
  | 48 => ⟨S1000000, .f32⟩
  | 49 => ⟨S_, .i32⟩
  | 50 => ⟨S1000000, .i32⟩
  | 51 => ⟨S1000000, .i1⟩
  | 52 => ⟨S_, .i32⟩
  | 53 => ⟨S1000000, .i32⟩
  | 54 => ⟨S1000000, .i32⟩
  | 55 => ⟨S1000000, .i32⟩
  | 56 => ⟨S1000000x1, .i32⟩
  | 57 => ⟨S1000000, .f32⟩
  | 58 => ⟨S1000000, .f32⟩
  | 59 => ⟨S200000x256, .f32⟩
  | 60 => ⟨S_, .i32⟩
  | 61 => ⟨S1000000, .i32⟩
  | 62 => ⟨S1000000, .i1⟩
  | 63 => ⟨S_, .i32⟩
  | 64 => ⟨S1000000, .i32⟩
  | 65 => ⟨S1000000, .i32⟩
  | 66 => ⟨S1000000, .i32⟩
  | 67 => ⟨S1000000x1, .i32⟩
  | 68 => ⟨S1000000x256, .f32⟩
  | 69 => ⟨S1000000x1, .f32⟩
  | 70 => ⟨S1000000x256, .f32⟩
  | 71 => ⟨S1000000x256, .f32⟩
  | 72 => ⟨S_, .f32⟩
  | 73 => ⟨S200000x256, .f32⟩
  | 74 => ⟨S1000000x1, .i32⟩
  | 75 => ⟨S200000x256, .f32⟩
  | 76 => ⟨S1x256, .f32⟩
  | 77 => ⟨S200000x256, .f32⟩
  | 78 => ⟨S200000x256, .f32⟩
  | 79 => ⟨S_, .f32⟩
  | 80 => ⟨S200000x256, .f32⟩
  | 81 => ⟨S200000x256, .f32⟩
  | 82 => ⟨S200000x256, .f32⟩
  | 83 => ⟨S_, .i32⟩
  | 84 => ⟨S1000000, .i32⟩
  | 85 => ⟨S1000000, .i1⟩
  | 86 => ⟨S_, .i32⟩
  | 87 => ⟨S1000000, .i32⟩
  | 88 => ⟨S1000000, .i32⟩
  | 89 => ⟨S1000000, .i32⟩
  | 90 => ⟨S1000000x1, .i32⟩
  | 91 => ⟨S1000000x256, .f32⟩
  | 92 => ⟨S1000000x1, .f32⟩
  | 93 => ⟨S1000000x256, .f32⟩
  | 94 => ⟨S1000000x256, .f32⟩
  | 95 => ⟨S_, .f32⟩
  | 96 => ⟨S200000x256, .f32⟩
  | 97 => ⟨S1000000x1, .i32⟩
  | 98 => ⟨S200000x256, .f32⟩
  | 99 => ⟨S1x256, .f32⟩
  | 100 => ⟨S200000x256, .f32⟩
  | 101 => ⟨S200000x256, .f32⟩
  | 102 => ⟨S_, .f32⟩
  | 103 => ⟨S200000x256, .f32⟩
  | 104 => ⟨S200000x256, .f32⟩
  | 105 => ⟨S200000x256, .f32⟩
  | 106 => ⟨S_, .i32⟩
  | 107 => ⟨S1000000, .i32⟩
  | 108 => ⟨S1000000, .i1⟩
  | 109 => ⟨S_, .i32⟩
  | 110 => ⟨S1000000, .i32⟩
  | 111 => ⟨S1000000, .i32⟩
  | 112 => ⟨S1000000, .i32⟩
  | 113 => ⟨S1000000x1, .i32⟩
  | 114 => ⟨S1000000x256, .f32⟩
  | 115 => ⟨S1000000x1, .f32⟩
  | 116 => ⟨S1000000x256, .f32⟩
  | 117 => ⟨S1000000x256, .f32⟩
  | 118 => ⟨S_, .f32⟩
  | 119 => ⟨S200000x256, .f32⟩
  | 120 => ⟨S1000000x1, .i32⟩
  | 121 => ⟨S200000x256, .f32⟩
  | 122 => ⟨S1x256, .f32⟩
  | 123 => ⟨S200000x256, .f32⟩
  | 124 => ⟨S200000x256, .f32⟩
  | 125 => ⟨S_, .f32⟩
  | 126 => ⟨S200000x256, .f32⟩
  | 127 => ⟨S200000x256, .f32⟩
  | _ => ⟨S200000x128, .f32⟩

abbrev hbmTy0_1 (i : Nat) : BufTy := match i % 128 with
  | 0 => ⟨S_, .f32⟩
  | 1 => ⟨S1024x256, .f32⟩
  | 2 => ⟨S200000x1, .i32⟩
  | 3 => ⟨S1024x256, .f32⟩
  | 4 => ⟨S_, .f32⟩
  | 5 => ⟨S200000, .f32⟩
  | 6 => ⟨S_, .f32⟩
  | 7 => ⟨S1024, .f32⟩
  | 8 => ⟨S200000x1, .i32⟩
  | 9 => ⟨S1024, .f32⟩
  | 10 => ⟨S_, .f32⟩
  | 11 => ⟨S1024, .f32⟩
  | 12 => ⟨S1024, .f32⟩
  | 13 => ⟨S1024x1, .f32⟩
  | 14 => ⟨S1024x256, .f32⟩
  | 15 => ⟨S1024x256, .f32⟩
  | 16 => ⟨S1024x256, .f32⟩
  | 17 => ⟨S_, .f32⟩
  | 18 => ⟨S1024, .f32⟩
  | 19 => ⟨S1024x1, .f32⟩
  | 20 => ⟨S1024x1, .f32⟩
  | 21 => ⟨S_, .f32⟩
  | 22 => ⟨S1024x1, .f32⟩
  | 23 => ⟨S1024x1, .f32⟩
  | 24 => ⟨S1024x256, .f32⟩
  | 25 => ⟨S1024x256, .f32⟩
  | 26 => ⟨S100000x256, .f32⟩
  | 27 => ⟨S_, .f32⟩
  | 28 => ⟨S100000, .f32⟩
  | 29 => ⟨S100000x1, .f32⟩
  | 30 => ⟨S100000x1, .f32⟩
  | 31 => ⟨S_, .f32⟩
  | 32 => ⟨S100000x1, .f32⟩
  | 33 => ⟨S100000x1, .f32⟩
  | 34 => ⟨S100000x256, .f32⟩
  | 35 => ⟨S100000x256, .f32⟩
  | 36 => ⟨S_, .f32⟩
  | 37 => ⟨S_, .f32⟩
  | 38 => ⟨S256x100000, .f32⟩
  | 39 => ⟨S1024x100000, .f32⟩
  | 40 => ⟨S1024x100000, .f32⟩
  | 41 => ⟨S1024x100000, .f32⟩
  | 42 => ⟨S_, .i32⟩
  | 43 => ⟨S1024, .i32⟩
  | 44 => ⟨S1024, .i1⟩
  | 45 => ⟨S_, .i32⟩
  | 46 => ⟨S1024, .i32⟩
  | 47 => ⟨S1024, .i32⟩
  | 48 => ⟨S1024, .i32⟩
  | 49 => ⟨S1024x1, .i32⟩
  | 50 => ⟨S1024x256, .f32⟩
  | 51 => ⟨S1024x512, .f32⟩
  | 52 => ⟨S1024x256, .f32⟩
  | 53 => ⟨S1x256, .f32⟩
  | 54 => ⟨S1024x256, .f32⟩
  | 55 => ⟨S1024x256, .f32⟩
  | 56 => ⟨S_, .f32⟩
  | 57 => ⟨S1024x256, .f32⟩
  | 58 => ⟨S1024x256, .f32⟩
  | 59 => ⟨S1024x128, .f32⟩
  | 60 => ⟨S1x128, .f32⟩
  | 61 => ⟨S1024x128, .f32⟩
  | 62 => ⟨S1024x128, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v16 : Ref sig .tc := ⟨.hbm, 39, rfl⟩
abbrev main_c : Ref sig .tc := ⟨.hbm, 40, rfl⟩
abbrev main_v17 : Ref sig .tc := ⟨.hbm, 41, rfl⟩
abbrev main_v18 : Ref sig .tc := ⟨.hbm, 42, rfl⟩
abbrev main_c_4 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_c_6 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_c_8 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_call1_cst : Ref sig .tc := ⟨.hbm, 79, rfl⟩
abbrev main_call1_v0 : Ref sig .tc := ⟨.hbm, 80, rfl⟩
abbrev main_v49 : Ref sig .tc := ⟨.hbm, 81, rfl⟩
abbrev main_v50 : Ref sig .tc := ⟨.hbm, 82, rfl⟩
abbrev main_c_10 : Ref sig .tc := ⟨.hbm, 83, rfl⟩
abbrev main_v51 : Ref sig .tc := ⟨.hbm, 84, rfl⟩
abbrev main_v52 : Ref sig .tc := ⟨.hbm, 85, rfl⟩
abbrev main_c_11 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_12 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_call2_cst : Ref sig .tc := ⟨.hbm, 102, rfl⟩
abbrev main_call2_v0 : Ref sig .tc := ⟨.hbm, 103, rfl⟩
abbrev main_v67 : Ref sig .tc := ⟨.hbm, 104, rfl⟩
abbrev main_v68 : Ref sig .tc := ⟨.hbm, 105, rfl⟩
abbrev main_c_13 : Ref sig .tc := ⟨.hbm, 106, rfl⟩
abbrev main_v69 : Ref sig .tc := ⟨.hbm, 107, rfl⟩
abbrev main_v70 : Ref sig .tc := ⟨.hbm, 108, rfl⟩
abbrev main_c_14 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_15 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_call3_cst : Ref sig .tc := ⟨.hbm, 125, rfl⟩
abbrev main_call3_v0 : Ref sig .tc := ⟨.hbm, 126, rfl⟩
abbrev main_v85 : Ref sig .tc := ⟨.hbm, 127, rfl⟩
abbrev main_cst_16 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_cst_17 : Ref sig .tc := ⟨.hbm, 132, rfl⟩
abbrev main_v89 : Ref sig .tc := ⟨.hbm, 133, rfl⟩
abbrev main_cst_18 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_cst_19 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_call4_v0 : Ref sig .tc := ⟨.hbm, 144, rfl⟩
abbrev main_call4_cst : Ref sig .tc := ⟨.hbm, 145, rfl⟩
abbrev main_call4_v1 : Ref sig .tc := ⟨.hbm, 146, rfl⟩
abbrev main_call4_v2 : Ref sig .tc := ⟨.hbm, 147, rfl⟩
abbrev main_v98 : Ref sig .tc := ⟨.hbm, 148, rfl⟩
abbrev main_cst_20 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_call5_v0 : Ref sig .tc := ⟨.hbm, 154, rfl⟩
abbrev main_call5_cst : Ref sig .tc := ⟨.hbm, 155, rfl⟩
abbrev main_call5_v1 : Ref sig .tc := ⟨.hbm, 156, rfl⟩
abbrev main_call5_v2 : Ref sig .tc := ⟨.hbm, 157, rfl⟩
abbrev main_v103 : Ref sig .tc := ⟨.hbm, 158, rfl⟩
abbrev main_cst_21 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_cst_22 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_c_23 : Ref sig .tc := ⟨.hbm, 170, rfl⟩
abbrev main_v113 : Ref sig .tc := ⟨.hbm, 171, rfl⟩
abbrev main_v114 : Ref sig .tc := ⟨.hbm, 172, rfl⟩
abbrev main_c_24 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_call6_cst : Ref sig .tc := ⟨.hbm, 184, rfl⟩
abbrev main_call6_v0 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S200000_S1000000_d0 : Shape.Concatenates [S800000, S200000] S1000000 0
  bcast_S_S1000000 : S_.BroadcastsInDim S1000000 (![] : Fin 0 → Fin S1000000.rank)
  bcast_S_S200000 : S_.BroadcastsInDim S200000 (![] : Fin 0 → Fin S200000.rank)
  bcast_S1000000_S1000000x1_0 : S1000000.BroadcastsInDim S1000000x1 (![0] : Fin 1 → Fin S1000000x1.rank)
  bcast_S1000000x1_S1000000x256_0_1 : S1000000x1.BroadcastsInDim S1000000x256 (![0, 1] : Fin 2 → Fin S1000000x256.rank)
  bcast_S_S200000x256 : S_.BroadcastsInDim S200000x256 (![] : Fin 0 → Fin S200000x256.rank)
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S_S1024x256 : S_.BroadcastsInDim S1024x256 (![] : Fin 0 → Fin S1024x256.rank)
  bcast_S200000_S200000x1_0 : S200000.BroadcastsInDim S200000x1 (![0] : Fin 1 → Fin S200000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  reducesTo_S1024x256_S1024_d1 : S1024x256.ReducesTo [1] S1024
  h_S_ : 0 < S_.numel
  bcast_S_S1024x1 : S_.BroadcastsInDim S1024x1 (![] : Fin 0 → Fin S1024x1.rank)
  reducesTo_S100000x256_S100000_d1 : S100000x256.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x256_0_1 : S100000x1.BroadcastsInDim S100000x256 (![0, 1] : Fin 2 → Fin S100000x256.rank)
  transposes_S100000x256_S256x100000_1_0 : S100000x256.Transposes [1, 0] S256x100000
  bcast_S_S1024x100000 : S_.BroadcastsInDim S1024x100000 (![] : Fin 0 → Fin S1024x100000.rank)
  concatenates_S1024x256_S1024x256_S1024x512_d1 : Shape.Concatenates [S1024x256, S1024x256] S1024x512 1
  bcast_S1x256_S1024x256_0_1 : S1x256.BroadcastsInDim S1024x256 (![0, 1] : Fin 2 → Fin S1024x256.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  scatter_S200000_S1000000x1_S1000000_n_0_0_1_wf : ScatterDims.WF S200000 S1000000x1 S1000000 [] [0] [0] 1
  gather_S200000_S1000000x1_S1000000_n_0_n_n_0_1_1_wf : GatherDims.WF S200000 S1000000x1 S1000000 [] [0] [] [0] [] 1 ![1]
  dot_S200000x128_S128x256_S200000x256_1_0_0_1_n_n_wf : DotDims.WF S200000x128 S128x256 S200000x256 [1] [0] [0] [1] [] []
  gather_S200000x256_S1000000x1_S1000000x256_1_0_n_n_0_1_1256_wf : GatherDims.WF S200000x256 S1000000x1 S1000000x256 [1] [0] [] [0] [] 1 ![1, 256]
  scatter_S200000x256_S1000000x1_S1000000x256_1_0_0_1_wf : ScatterDims.WF S200000x256 S1000000x1 S1000000x256 [1] [0] [0] 1
  dot_S200000x256_S256x256_S200000x256_1_0_0_1_n_n_wf : DotDims.WF S200000x256 S256x256 S200000x256 [1] [0] [0] [1] [] []
  scatter_S1024x256_S200000x1_S200000x256_1_0_0_1_wf : ScatterDims.WF S1024x256 S200000x1 S200000x256 [1] [0] [0] 1
  scatter_S1024_S200000x1_S200000_n_0_0_1_wf : ScatterDims.WF S1024 S200000x1 S200000 [] [0] [0] 1
  dot_S1024x256_S256x100000_S1024x100000_1_0_0_1_n_n_wf : DotDims.WF S1024x256 S256x100000 S1024x100000 [1] [0] [0] [1] [] []
  gather_S100000x256_S1024x1_S1024x256_1_0_n_n_0_1_1256_wf : GatherDims.WF S100000x256 S1024x1 S1024x256 [1] [0] [] [0] [] 1 ![1, 256]
  dot_S1024x512_S512x256_S1024x256_1_0_0_1_n_n_wf : DotDims.WF S1024x512 S512x256 S1024x256 [1] [0] [0] [1] [] []
  dot_S1024x256_S256x128_S1024x128_1_0_0_1_n_n_wf : DotDims.WF S1024x256 S256x128 S1024x128 [1] [0] [0] [1] [] []

variable [Facts₀]

def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def gather_S200000_S1000000x1_S1000000_n_0_n_n_0_1_1 : GatherDims S200000 S1000000x1 S1000000 where
  offsetDims := []
  collapsedSliceDims := [0]
  operandBatchingDims := []
  startIndicesBatchingDims := []
  startIndexMap := [0]
  indexVectorDim := 1
  sliceSizes := ![1]
  wf := gather_S200000_S1000000x1_S1000000_n_0_n_n_0_1_1_wf
def dot_S200000x128_S128x256_S200000x256_1_0_0_1_n_n : DotDims S200000x128 S128x256 S200000x256 where
  lhsContracting := [1]
  rhsContracting := [0]
  lhsNonContracting := [0]
  rhsNonContracting := [1]
  lhsBatch := []
  rhsBatch := []
  wf := dot_S200000x128_S128x256_S200000x256_1_0_0_1_n_n_wf
def gather_S200000x256_S1000000x1_S1000000x256_1_0_n_n_0_1_1256 : GatherDims S200000x256 S1000000x1 S1000000x256 where
  offsetDims := [1]
  collapsedSliceDims := [0]
  operandBatchingDims := []
  startIndicesBatchingDims := []
  startIndexMap := [0]
  indexVectorDim := 1
  sliceSizes := ![1, 256]
  wf := gather_S200000x256_S1000000x1_S1000000x256_1_0_n_n_0_1_1256_wf
def scatter_S200000x256_S1000000x1_S1000000x256_1_0_0_1 : ScatterDims S200000x256 S1000000x1 S1000000x256 where
  updateWindowDims := [1]
  insertedWindowDims := [0]
  scatterDimsToOperandDims := [0]
  indexVectorDim := 1
  wf := scatter_S200000x256_S1000000x1_S1000000x256_1_0_0_1_wf
def dot_S200000x256_S256x256_S200000x256_1_0_0_1_n_n : DotDims S200000x256 S256x256 S200000x256 where
  lhsContracting := [1]
  rhsContracting := [0]
  lhsNonContracting := [0]
  rhsNonContracting := [1]
  lhsBatch := []
  rhsBatch := []
  wf := dot_S200000x256_S256x256_S200000x256_1_0_0_1_n_n_wf
def scatter_S1024x256_S200000x1_S200000x256_1_0_0_1 : ScatterDims S1024x256 S200000x1 S200000x256 where
  updateWindowDims := [1]
  insertedWindowDims := [0]
  scatterDimsToOperandDims := [0]
  indexVectorDim := 1
  wf := scatter_S1024x256_S200000x1_S200000x256_1_0_0_1_wf
def scatter_S1024_S200000x1_S200000_n_0_0_1 : ScatterDims S1024 S200000x1 S200000 where
  updateWindowDims := []
  insertedWindowDims := [0]
  scatterDimsToOperandDims := [0]
  indexVectorDim := 1
  wf := scatter_S1024_S200000x1_S200000_n_0_0_1_wf
def dot_S1024x256_S256x100000_S1024x100000_1_0_0_1_n_n : DotDims S1024x256 S256x100000 S1024x100000 where
  lhsContracting := [1]
  rhsContracting := [0]
  lhsNonContracting := [0]
  rhsNonContracting := [1]
  lhsBatch := []
  rhsBatch := []
  wf := dot_S1024x256_S256x100000_S1024x100000_1_0_0_1_n_n_wf
def gather_S100000x256_S1024x1_S1024x256_1_0_n_n_0_1_1256 : GatherDims S100000x256 S1024x1 S1024x256 where
  offsetDims := [1]
  collapsedSliceDims := [0]
  operandBatchingDims := []
  startIndicesBatchingDims := []
  startIndexMap := [0]
  indexVectorDim := 1
  sliceSizes := ![1, 256]
  wf := gather_S100000x256_S1024x1_S1024x256_1_0_n_n_0_1_1256_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

class Facts : Prop extends Facts₀ where

variable [Facts]
-- ==== Proof.KRun.lean ====
/-
  The idealized kernel program's run with its two results NAMED: every weakly fair execution of @main
  terminates, nothing faulting, the argument arrays unchanged, and the two result buffers hold the last
  segment boundary's contents (the fold of the host stretches and the five regions' write-backs from the
  launch memory). The frame claim forgets the results; the value claim needs them.
-/
import proofs.«120951_j23605140259147_2_alg».proof.Proof.Gen.KernelIdeal.Frame

set_option maxRecDepth 16384

noncomputable section

namespace Cert.Bridge.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes
-- unfolding plain definitions in a metavariable's type
set_option backward.isDefEq.respectTransparency.types false in
/-- The run of @main with both results named at the last boundary's contents. -/
theorem run_named : θ_run defs (onTc (τ := τ) (main (F := F))) ⟨m, fun _ => 0, ρ⟩ (fun r => ∀ c : Dev nD,
      r.2.mem ((c.tc : Thread nD τ).loc main_v101) = W18 m ρ c (Proc.devRef .tc main_v101)
      ∧ r.2.mem ((c.tc : Thread nD τ).loc main_v110) = W18 m ρ c (Proc.devRef .tc main_v110)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v101 (by decide)), h c _ (mem_uc main_v110 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c),
       (h c _ (mem_uc main_arg14 (by decide))).trans (W18_main_arg14 m ρ c),
       (h c _ (mem_uc main_arg15 (by decide))).trans (W18_main_arg15 m ρ c)⟩)

end Cert.Bridge.KRun

end
-- ==== Proof.KWalk.lean ====
/-
  Reading a buffer at a segment boundary of the idealized kernel program's @main: the boundary contents are a fold
  of the host stretches (each operation's result, or the earlier contents where the operation does not write the
  buffer) and of the regions' write-backs (a buffer that is none of a region's arrays keeps what it held at entry).
  The tactic below walks that fold backwards until it meets the launch memory or a region's own array.
-/
import proofs.«120951_j23605140259147_2_alg».proof.Proof.Gen.KernelIdeal.Frame
import Idealize.ShloMosaic.PureOps.Ideal

namespace Cert.Bridge

open Cert.KernelIdeal Cert.KernelIdeal.Gen Idealize.ShloMosaic Idealize.ShloMosaic.StableHlo

/-- Walk a boundary's contents at one buffer back through host stretches and through regions that do not own it. -/
macro "walk_back" : tactic =>
  `(tactic| repeat (first
      | rfl
      | (rw [W18_of_ne]; rotate_left; decide)
      | (rw [W16_of_ne]; rotate_left; decide)
      | (rw [W9_of_ne]; rotate_left; decide)
      | (rw [W6_of_ne]; rotate_left; decide)
      | (rw [W3_of_ne]; rotate_left; decide)
      | after_results))

end Cert.Bridge
-- ==== Proof.Stretch.lean ====
/-
  The short host stretches of the idealized kernel program that stand for an inlined function call (the selection of
  the degree normalisation, the three rectifiers, the row norm, the padding), each read over an arbitrary valuation:
  the stretch's result buffer holds the function of the buffers it reads. Stated over a variable valuation, so that the
  buffers read are opaque and nothing large is ever compared by unfolding.
-/
import proofs.«120951_j23605140259147_2_alg».proof.Proof.KWalk

set_option maxRecDepth 16384

noncomputable section

namespace Cert.Bridge.Stretch

open Cert.KernelIdeal Cert.KernelIdeal.Gen Idealize.ShloMosaic Idealize.ShloMosaic.TcCoe Idealize.SL.Sem Idealize.ShloMosaic.StableHlo

variable (Wx : Valuation τ sig (Elt Ideal))

/-- The degree normalisation: the reciprocal square root where the degree is positive, zero elsewhere. -/
theorem where_deg : StableHlo.after hostOps0_1 Wx (Proc.devRef .tc main_v16)
    = select (Wx (Proc.devRef .tc main_v12)) (Wx (Proc.devRef .tc main_v15))
        (broadcastInDim S200000 ![] bcast_S_S200000 (id (Wx (Proc.devRef .tc main_cst_3)))) := by
  after_results
  rfl

/-- The rectifier after the first layer. -/
theorem relu1 : StableHlo.after hostOps1_1 Wx (Proc.devRef .tc main_v37)
    = maximumf (Wx (Proc.devRef .tc main_v36)) (broadcastInDim S200000x256 ![] bcast_S_S200000x256 (constant (F := Ideal) S_ .f32 0x00000000#32)) := by
  after_results
  rfl

/-- The rectifier after the second layer. -/
theorem relu2 : StableHlo.after hostOps2_1 Wx (Proc.devRef .tc main_v58)
    = maximumf (Wx (Proc.devRef .tc main_v57)) (broadcastInDim S200000x256 ![] bcast_S_S200000x256 (constant (F := Ideal) S_ .f32 0x00000000#32)) := by
  after_results
  rfl

/-- The rectifier after the third layer. -/
theorem relu3 : StableHlo.after hostOps3_1 Wx (Proc.devRef .tc main_v79)
    = maximumf (Wx (Proc.devRef .tc main_v78)) (broadcastInDim S200000x256 ![] bcast_S_S200000x256 (constant (F := Ideal) S_ .f32 0x00000000#32)) := by
  after_results
  rfl

/-- The Euclidean norm of each row of the pooled state, as a column. -/
theorem row_norm : StableHlo.after hostOps3_3 Wx (Proc.devRef .tc main_v92)
    = Host.sqrt (broadcastInDim S1024x1 ![0] bcast_S1024_S1024x1_0
        (Host.reduceAdd (mulf (Wx (Proc.devRef .tc main_v91)) (Wx (Proc.devRef .tc main_v91))) (constant (F := Ideal) S_ .f32 0x00000000#32)
          reducesTo_S1024x256_S1024_d1 h_S_)) := by
  after_results
  rfl

/-- The block embeddings with 2400 rows of the padding value appended. -/
theorem padding : StableHlo.after hostOps3_5 Wx (Proc.devRef .tc main_v100)
    = pad S102400x256 ![0, 0] ![2400, 0] ![0, 0] (Wx (Proc.devRef .tc main_arg3)) (sitofp (F := Ideal) .f32 (Wx (Proc.devRef .tc main_c_18)))
        pads_S100000x256_S102400x256_024000_000 h_S_ := by
  after_results
  rfl

end Cert.Bridge.Stretch

end
-- ==== Proof.LibPlainDot.lean ====
/-
  A plain matrix product's contraction sum, for any sizes.  For dimension numbers that contract the left operand's
  second axis with the right operand's first, keep the left operand's first axis and the right operand's second, and
  have no batch axes, the sum over the contraction index of the operands' products at output index (p, q) is
  the sum over k of L (p, k) * R (k, q).  With it, a matmul into the zero accumulator and a host dot_general, read at
  (p, q) on the extended reals, are that sum.
-/
import Idealize.ShloMosaic.PureOps.Ideal.Laws
import Idealize.ShloMosaic.Lib.ValueIdx

noncomputable section

open scoped BigOperators

namespace Cert.Bridge

open Idealize.ShloMosaic Idealize.ShloMosaic.ValueIdx

/-- The contraction shape of plain dimension numbers has one axis, of extent K; the operand indices at output index
    (p, q) and the contraction index whose one coordinate is k are (p, k) and (k, q). -/
theorem plain_idx {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) :
    ∃ (hr : d.contr.rank = 1) (hs : d.contr.size ⟨0, by omega⟩ = K), ∀ (p : Fin A) (q : Fin B) (k : Fin K),
      d.lhsIdx (ix2 p q) ((contrEquiv1 d K hr hs).symm k) = ix2 p k ∧
      d.rhsIdx (ix2 p q) ((contrEquiv1 d K hr hs).symm k) = ix2 k q := by
  obtain ⟨lc, rc, ln, rn, lb, rb, wf⟩ := d
  simp only at hlc hrc hln hrn hlb hrb
  subst hlc hrc hln hrn hlb hrb
  refine ⟨rfl, rfl, fun p q k => ⟨?_, ?_⟩⟩
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- THE CONTRACTION SUM of a plain product at (p, q): the sum over k of L (p, k) * R (k, q). -/
theorem plain_sum {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (L : (⟨2, ![A, K]⟩ : Shape).Idx → EReal) (R : (⟨2, ![K, B]⟩ : Shape).Idx → EReal) (p : Fin A) (q : Fin B) :
    ∑ κ : d.contr.Idx, L (d.lhsIdx (ix2 p q) κ) * R (d.rhsIdx (ix2 p q) κ) = ∑ k : Fin K, L (ix2 p k) * R (ix2 k q) := by
  obtain ⟨hr, hs, h⟩ := plain_idx d hlc hrc hln hrn hlb hrb
  rw [← Equiv.sum_comp (contrEquiv1 d K hr hs).symm]
  exact Finset.sum_congr rfl fun k _ => by rw [(h p q k).1, (h p q k).2]

/-- A matmul of plain dimension numbers into the zero accumulator, read at (p, q) on the extended reals. -/
theorem matmul_zero_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q)
      = ∑ k : Fin K, lhs (ix2 p k) * rhs (ix2 k q) :=
  (Ideal.matmul_constant_zero_apply d prec lhs rhs (ix2 p q)).trans (plain_sum d hlc hrc hln hrn hlb hrb lhs rhs p q)

/-- A host dot_general of plain dimension numbers, read at (p, q) on the extended reals. -/
theorem dotGeneral_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ φ₁)
    (rhs : FVec Ideal ⟨2, ![K, B]⟩ φ₂) (p : Fin A) (q : Fin B) :
    FloatOps.dotGeneral d prec sched lhs rhs (ix2 p q) = ∑ k : Fin K, lhs (ix2 p k) * rhs (ix2 k q) :=
  (Ideal.dotGeneral_apply d prec sched lhs rhs (ix2 p q)).trans (plain_sum d hlc hrc hln hrn hlb hrb lhs rhs p q)

end Cert.Bridge

end
-- ==== Proof.DenseCommon.lean ====
/-
  One row block of a dense product.  A matrix X with M rows and K columns is multiplied by a matrix W with K rows and
  B columns.  A block of A consecutive rows of X, times all of W, accumulated from zero after both operands pass
  through a narrowing format change (the identity on extended reals), holds at (p, q) the entry (P, q) of the whole
  product X W, where P is the row of X that the block's row p is: both are the sum over k of X (P, k) * W (k, q).
  Also here: the offsets (0, 0) spelt as a constant function.
-/
import proofs.«120951_j23605140259147_2_alg».proof.Proof.LibPlainDot

noncomputable section

open scoped BigOperators

namespace Cert.Bridge.Dense

open Idealize.ShloMosaic Idealize.ShloMosaic.ValueIdx

/-- The offset pair (0, 0) is the constant zero function. -/
theorem zero_offsets : (![0, 0] : Fin 2 → Nat) = fun _ => 0 := funext fun a => by fin_cases a <;> rfl

/-- THE BLOCK OF THE PRODUCT.  `x0` is a block of rows of `X` (its row `p` is row `P` of `X`), `x1` agrees with `W` on
    column `q`; the accumulated product of the two, read at (p, q), is the whole product of `X` and `W` at (P, q). -/
theorem block_product {A K B M : Nat}
    (dk : DotDims ⟨2, ![A, K]⟩ ⟨2, ![K, B]⟩ ⟨2, ![A, B]⟩)
    (klc : dk.lhsContracting = [1]) (krc : dk.rhsContracting = [0]) (kln : dk.lhsNonContracting = [0])
    (krn : dk.rhsNonContracting = [1]) (klb : dk.lhsBatch = []) (krb : dk.rhsBatch = [])
    (dr : DotDims ⟨2, ![M, K]⟩ ⟨2, ![K, B]⟩ ⟨2, ![M, B]⟩)
    (rlc : dr.lhsContracting = [1]) (rrc : dr.rhsContracting = [0]) (rln : dr.lhsNonContracting = [0])
    (rrn : dr.rhsNonContracting = [1]) (rlb : dr.lhsBatch = []) (rrb : dr.rhsBatch = [])
    (prec prec' : Option ContractPrecision)
    (X : FVec Ideal ⟨2, ![M, K]⟩ .f32) (W : FVec Ideal ⟨2, ![K, B]⟩ .f32)
    (x0 : FVec Ideal ⟨2, ![A, K]⟩ .f32) (x1 : FVec Ideal ⟨2, ![K, B]⟩ .f32)
    (h0 h1 : FTy.bits .bf16 < FTy.bits .f32)
    (p : Fin A) (q : Fin B) (P : Fin M)
    (e0 : ∀ k : Fin K, x0 (ix2 p k) = X (ix2 P k)) (e1 : ∀ k : Fin K, x1 (ix2 k q) = W (ix2 k q)) :
    matmul dk prec (truncf .bf16 x0 h0) (truncf .bf16 x1 h1) (constant (F := Ideal) ⟨2, ![A, B]⟩ .f32 0x00000000#32) (ix2 p q)
      = Host.dotGeneral (F := Ideal) dr prec' X W (ix2 P q) := by
  refine (matmul_zero_plain dk klc krc kln krn klb krb prec (truncf .bf16 x0 h0) (truncf .bf16 x1 h1) p q).trans ?_
  refine Eq.trans ?_ (dotGeneral_plain dr rlc rrc rln rrn rlb rrb prec' .single X W P q).symm
  refine Finset.sum_congr rfl fun k _ => ?_
  rw [truncf_apply, truncf_apply, e0 k, e1 k]

end Cert.Bridge.Dense

end
-- ==== Proof.DenseValue0.lean ====
/-
  Region 0, the first dense layer's product: the array the pipeline leaves is the whole product of its two input arrays.
  The region multiplies a matrix X of 200000 rows and 128 columns by a matrix W of 128 rows and 256 columns, 4000 rows of
  X at a time: grid point t holds rows 4000 t … 4000 t + 3999 of X and all of W, and leaves in the output's block the
  product of the two, accumulated from zero.  Read at (p, q) that is the sum over k of X (4000 t + p, k) * W (k, q),
  the entry (4000 t + p, q) of the whole product X W.  The 50 blocks tile the 200000 rows exactly (row r lies in block
  r / 4000), so after the last point the output array is the whole product, for any contents the region is entered with.
-/
import proofs.«120951_j23605140259147_2_alg».proof.Proof.Gen.KernelIdeal.Frame
import proofs.«120951_j23605140259147_2_alg».proof.Proof.Gen.ReferenceIdeal
import proofs.«120951_j23605140259147_2_alg».proof.Proof.DenseCommon
import Idealize.ShloMosaic.Lib.Pipeline.Value

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.Bridge.Dense

open Cert.KernelIdeal Cert.KernelIdeal.Gen

variable (V : (c : Dev nD) → (b : Ref sig .tc) → Buf (Elt Ideal) ((c : Thread nD τ).loc b))

/-- The whole product X W of the two arrays the region reads, as the region finds them. -/
abbrev prod0 (c : Dev nD) : S200000x256.Idx → EReal :=
  Host.dotGeneral (F := Ideal) (φ₁ := .f32) (φ₂ := .f32) Cert.ReferenceIdeal.dot_S200000x128_S128x256_S200000x256_1_0_0_1_n_n none
    (V c main_arg0 : S200000x128.Idx → EReal) (V c main_arg5 : S128x256.Idx → EReal)

/-- The block indices at grid point t: the row operand's and the output's blocks are block t of their arrays along the
    rows and the only block along the columns; the second operand's block is its whole array. -/
theorem block_indices0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the row operand's block at point t is row 4000 t + p of X. -/
theorem lhs_block0 (c : Dev nD) (t : Fin cfg0.N) (p : Fin 4000) (k : Fin 128) (P : Fin 200000)
    (hP : P.val = t.val * 4000 + p.val) :
    (iblk0 V c 0 t : S4000x128.Idx → EReal) (ix2 p k) = (V c main_arg0 : S200000x128.Idx → EReal) (ix2 P k) := by
  obtain ⟨e0, e1, -⟩ := block_indices0 t
  unfold iblk0
  rw [View.read_apply]
  show V c main_arg0 _ = V c main_arg0 _
  congr 1
  funext a
  apply Fin.ext
  match a with
  | ⟨0, _⟩ => show win0_0.index t (0 : Fin 2) * 4000 + 1 * p.val = P.val; rw [e0, hP]; omega
  | ⟨1, _⟩ => show win0_0.index t (1 : Fin 2) * 128 + 1 * k.val = k.val; rw [e1]; omega

/-- The second operand's block at every point is all of W. -/
theorem rhs_block0 (c : Dev nD) (t : Fin cfg0.N) (k : Fin 128) (q : Fin 256) :
    (iblk0 V c 1 t : S128x256.Idx → EReal) (ix2 k q) = (V c main_arg5 : S128x256.Idx → EReal) (ix2 k q) := by
  obtain ⟨-, -, e2, e3, -⟩ := block_indices0 t
  unfold iblk0
  rw [View.read_apply]
  show V c main_arg5 _ = V c main_arg5 _
  congr 1
  funext a
  apply Fin.ext
  match a with
  | ⟨0, _⟩ => show win0_1.index t (0 : Fin 2) * 128 + 1 * k.val = k.val; rw [e2]; omega
  | ⟨1, _⟩ => show win0_1.index t (1 : Fin 2) * 256 + 1 * q.val = q.val; rw [e3]; omega

/-- What the body stores, read at (p, q): for a block x0 whose row p is row P of X and a block x1 that is W on column q,
    the entry (P, q) of the whole product. -/
theorem stored0_apply (x0 : Vec Ideal S4000x128 .f32) (x1 : Vec Ideal S128x256 .f32)
    (X : FVec Ideal S200000x128 .f32) (W : FVec Ideal S128x256 .f32) (p : Fin 4000) (q : Fin 256) (P : Fin 200000)
    (e0 : ∀ k : Fin 128, x0 (ix2 p k) = X (ix2 P k)) (e1 : ∀ k : Fin 128, x1 (ix2 k q) = W (ix2 k q)) :
    k0_pay1 x0 x1 (ix2 p q)
      = Host.dotGeneral (F := Ideal) (φ₁ := .f32) (φ₂ := .f32) Cert.ReferenceIdeal.dot_S200000x128_S128x256_S200000x256_1_0_0_1_n_n none X W (ix2 P q) :=
  block_product dot_S4000x128_S128x256_S4000x256_1_0_0_1_n_n rfl rfl rfl rfl rfl rfl
    Cert.ReferenceIdeal.dot_S200000x128_S128x256_S200000x256_1_0_0_1_n_n rfl rfl rfl rfl rfl rfl none none X W x0 x1
    bitsLt_bf16_f32 bitsLt_bf16_f32 p q P e0 e1

/-- WHAT POINT t WRITES BACK is block t of the whole product. -/
theorem flushed_eq0 (c : Dev nD) (t : Fin cfg0.N) :
    (dat0 V c).flushed 2 t = ((cfg0.win 2).blk t).view.read (Elt Ideal) (prod0 V c) := by
  have hN : cfg0.N = 50 := N_0
  have ht : t.val < 50 := lt_of_lt_of_eq t.isLt hN
  show (cfg0.win 2).cut (grid0.coords t) ((dat0 V c).after 2 t) = _
  rw [after0_2]
  unfold out0_2
  rw [View.canon_unit_zero zero_offsets]
  simp only [View.ld_unit_zero (S := S4000x128) zero_offsets, View.ld_unit_zero (S := S128x256) zero_offsets]
  funext j
  obtain ⟨p, q, rfl⟩ : ∃ (p : Fin 4000) (q : Fin 256), j = ix2 p q := ⟨j 0, j 1, eq_ix2 j⟩
  have hP : t.val * 4000 + p.val < 200000 := by have := p.isLt; omega
  obtain ⟨-, -, -, -, e4, e5⟩ := block_indices0 t
  show k0_pay1 (iblk0 V c 0 t) (iblk0 V c 1 t) (ix2 p q) = _
  refine (stored0_apply (iblk0 V c 0 t) (iblk0 V c 1 t) (V c main_arg0) (V c main_arg5) p q ⟨t.val * 4000 + p.val, hP⟩
    (fun k => lhs_block0 V c t p k ⟨t.val * 4000 + p.val, hP⟩ rfl) (fun k => rhs_block0 V c t k q)).trans ?_
  rw [View.read_apply]
  show prod0 V c _ = prod0 V c _
  congr 1
  funext a
  apply Fin.ext
  match a with
  | ⟨0, _⟩ => show t.val * 4000 + p.val = win0_2.index t (0 : Fin 2) * 4000 + 1 * p.val; rw [e4]; omega
  | ⟨1, _⟩ => show q.val = win0_2.index t (1 : Fin 2) * 256 + 1 * q.val; rw [e5]; omega

/-- Every entry of the output array is in some point's block: row r is in block r / 4000. -/
theorem covered0 (i : S200000x256.Idx) :
    ∃ t : Fin cfg0.N, (cfg0.win 2).flush t = true ∧ i ∈ ((cfg0.win 2).blk t).view.set := by
  have hN : cfg0.N = 50 := N_0
  have hi0 : (i 0).val < 200000 := (i 0).isLt
  have hi1 : (i 1).val < 256 := (i 1).isLt
  have hq : (i 0).val / 4000 < cfg0.N := by rw [hN]; omega
  refine ⟨⟨(i 0).val / 4000, hq⟩, flush0_2 _, ?_⟩
  obtain ⟨-, -, -, -, e4, e5⟩ := block_indices0 ⟨(i 0).val / 4000, hq⟩
  show i ∈ ((View.whole main_v17).slice (win0_2.rect ⟨(i 0).val / 4000, hq⟩)).set
  rw [View.set_slice_whole, Rect.mem_set_unit]
  intro a
  match a with
  | ⟨0, _⟩ =>
    show win0_2.index ⟨(i 0).val / 4000, hq⟩ (0 : Fin 2) * 4000 ≤ (i 0).val
      ∧ (i 0).val < win0_2.index ⟨(i 0).val / 4000, hq⟩ (0 : Fin 2) * 4000 + 4000
    rw [e4]; show (i 0).val / 4000 * 4000 ≤ (i 0).val ∧ (i 0).val < (i 0).val / 4000 * 4000 + 4000; omega
  | ⟨1, _⟩ =>
    show win0_2.index ⟨(i 0).val / 4000, hq⟩ (1 : Fin 2) * 256 ≤ (i 1).val
      ∧ (i 1).val < win0_2.index ⟨(i 0).val / 4000, hq⟩ (1 : Fin 2) * 256 + 256
    rw [e5]; omega

/-- THE OUTPUT ARRAY after the region is the whole product of the two arrays it read. -/
theorem dense0 (c : Dev nD) :
    (dat0 (F := Ideal) V c).arrAt 2 cfg0.N
      = Host.dotGeneral (F := Ideal) (φ₁ := .f32) (φ₂ := .f32) Cert.ReferenceIdeal.dot_S200000x128_S128x256_S200000x256_1_0_0_1_n_n none
          (V c main_arg0) (V c main_arg5) :=
  (dat0 V c).arrAt_eq_of_cover 2 (prod0 V c) (fun t _ => flushed_eq0 V c t) (covered0)

end Cert.Bridge.Dense

end
-- ==== Proof.K1.lean ====
/-
  The idealized kernel program up to the first dense layer's product: what the first region finds and leaves.
  The degree-normalisation vector and the two index vectors (sources and targets with the self loops appended)
  are computed by the same host operations as in the reference, so they ARE the reference's stages of the
  edge-index argument; the first region's output is the reference's first matrix product.
-/
import proofs.«120951_j23605140259147_2_alg».proof.Proof.KWalk
import proofs.«120951_j23605140259147_2_alg».proof.Proof.Stretch
import proofs.«120951_j23605140259147_2_alg».proof.Proof.RefReadP
import proofs.«120951_j23605140259147_2_alg».proof.Proof.DenseValue0

set_option maxRecDepth 16384

noncomputable section

namespace Cert.Bridge.K1

open Cert.KernelIdeal Cert.KernelIdeal.Gen Idealize.ShloMosaic Idealize.ShloMosaic.TcCoe Idealize.SL.Sem Idealize.ShloMosaic.StableHlo
open Cert.ReferenceIdeal.ReadP (val_main_v16 val_main_v5 val_main_v6 val_main_v32)

variable (m : (ℓ : Loc nD τ sig) → Buf (Elt Ideal) ℓ) (ρ : Dev nD → PrngReg) (c : Dev nD)

set_option maxHeartbeats 4000000 in
theorem w2_arg0 : W2 m ρ c (Proc.devRef .tc main_arg0) = m ((c : Thread nD τ).loc main_arg0) := by walk_back
set_option maxHeartbeats 4000000 in
theorem w2_arg5 : W2 m ρ c (Proc.devRef .tc main_arg5) = m ((c : Thread nD τ).loc main_arg5) := by walk_back

/-- The first region leaves the reference's first product, the node features times the first weight matrix. -/
theorem w3_v17 : W3 m ρ c (Proc.devRef .tc main_v17)
    = val_main_v32 (F := Ideal) (m ((c : Thread nD τ).loc main_arg0)) (m ((c : Thread nD τ).loc main_arg5)) := by
  refine (W3_arr m ρ c 2).trans ((Cert.Bridge.Dense.dense0 (V2 m ρ) c).trans ?_)
  show Host.dotGeneral (F := Ideal) (φ₁ := .f32) (φ₂ := .f32) _ none (W2 m ρ c (Proc.devRef .tc main_arg0)) (W2 m ρ c (Proc.devRef .tc main_arg5)) = _
  rw [w2_arg0, w2_arg5]
  rfl

set_option maxHeartbeats 4000000 in
/-- The degree-normalisation vector when the first region is entered: the comparison, the reciprocal square root and the
    zero vector are the reference's stages, and so is the selection among them. -/
theorem w2_v16 : W2 m ρ c (Proc.devRef .tc main_v16) = val_main_v16 (F := Ideal) (m ((c : Thread nD τ).loc main_arg1)) := by
  show StableHlo.after hostOps0_1 (W1 m ρ c) (Proc.devRef .tc main_v16) = _
  have e12 : W1 m ρ c (Proc.devRef .tc main_v12) = Cert.ReferenceIdeal.ReadP.val_main_v12 (F := Ideal) (m ((c : Thread nD τ).loc main_arg1)) := by
    after_results
    rfl
  have e15 : W1 m ρ c (Proc.devRef .tc main_v15) = Cert.ReferenceIdeal.ReadP.val_main_v15 (F := Ideal) (m ((c : Thread nD τ).loc main_arg1)) := by
    after_results
    rfl
  have e3 : W1 m ρ c (Proc.devRef .tc main_cst_3) = Cert.ReferenceIdeal.ReadP.val_main_cst_3 (F := Ideal) := by
    after_results
    rfl
  rw [Cert.Bridge.Stretch.where_deg (W1 m ρ c), e12, e15, e3]
  rfl

/-- The degree-normalisation vector at the first region's exit. -/
theorem w3_v16 : W3 m ρ c (Proc.devRef .tc main_v16) = val_main_v16 (F := Ideal) (m ((c : Thread nD τ).loc main_arg1)) :=
  (W3_of_ne m ρ c main_v16 (by decide)).trans (w2_v16 m ρ c)
set_option maxHeartbeats 4000000 in
/-- The source indices (self loops appended). -/
theorem w3_v5 : W3 m ρ c (Proc.devRef .tc main_v5) = val_main_v5 (F := Ideal) (m ((c : Thread nD τ).loc main_arg1)) := by walk_back
set_option maxHeartbeats 4000000 in
/-- The target indices (self loops appended). -/
theorem w3_v6 : W3 m ρ c (Proc.devRef .tc main_v6) = val_main_v6 (F := Ideal) (m ((c : Thread nD τ).loc main_arg1)) := by walk_back
set_option maxHeartbeats 4000000 in
theorem w3_arg6 : W3 m ρ c (Proc.devRef .tc main_arg6) = m ((c : Thread nD τ).loc main_arg6) := by walk_back
set_option maxHeartbeats 4000000 in
theorem w3_arg7 : W3 m ρ c (Proc.devRef .tc main_arg7) = m ((c : Thread nD τ).loc main_arg7) := by walk_back

end Cert.Bridge.K1

end
-- ==== Proof.LibRowGatherScatter.lean ====
/-
  Row gather and row scatter-add, read at an index.

  `x[idx]` of a matrix `x : [N, C]` at a vector of `E` row numbers lowers to `stablehlo.gather` with offset_dims [1],
  collapsed_slice_dims [0], start_index_map [0], index_vector_dim 1 and slice sizes [1, C] over the row numbers as an
  `[E, 1]` array: result element `(e, k)` is `x` at row `idx[e, 0]` — read signed and clamped into `[0, N − 1]` — and
  column `k` (`gather_rows_apply`).

  `segment_sum(u, idx)` of updates `u : [E, C]` into `[N, C]` lowers to `stablehlo.scatter` with an `add` body,
  update_window_dims [1], inserted_window_dims [0], scatter_dims_to_operand_dims [0], index_vector_dim 1: at the extended
  reals element `(n, c)` of the result is the operand's plus the sum, over the rows `e` whose row number `idx[e, 0]`, read
  signed and NOT clamped, is `n`, of `u (e, c)` (`scatterAdd_rows_apply`). A row number outside `[0, N)` lands nowhere.

  Both for any sizes `N`, `E`, `C` and any index width.
-/
import Idealize.ShloMosaic.Lib.ValueIdx
import Idealize.ShloMosaic.PureOps.Ideal.Laws

noncomputable section

open scoped BigOperators

namespace Idealize.ShloMosaic.RowIndexing

open Idealize.ShloMosaic Idealize.ShloMosaic.ValueIdx

/-- The entry `[e, 0]` of an `[E, 1]` array of row numbers. -/
abbrev rowAt {E : Nat} (e : Fin E) : (⟨2, ![E, 1]⟩ : Shape).Idx := ix2 e (⟨0, Nat.one_pos⟩ : Fin 1)

/-! ## The gather of whole rows -/

section Gather
variable {α : Type}

/-- The dimension numbers of a gather of whole rows of an `[N, C]` operand at `[E, 1]` row numbers. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: the operand at row `idx[e, 0]`, read signed and clamped into `[0, N − 1]`, column `k`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 (⟨min (idx (rowAt e)).toInt.toNat (N - 1), by omega⟩ : Fin N) k) := by
  unfold Host.gather
  refine congrArg x ?_
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = rowAt e := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = _
    rw [GatherDims.batchCoord_eq_zero _ _ _ List.not_mem_nil]
    have hs : (rowGatherDims N E C wf).start (ix2 e k) idx 1 = 0 := by
      unfold GatherDims.start
      rw [dif_neg (show ¬ (1 : Fin 2) ∈ (rowGatherDims N E C wf).startIndexMap from
        fun h => absurd (List.mem_singleton.mp h) (show ¬ ((1 : Fin 2) = 0) by decide))]
    have ho : (rowGatherDims N E C wf).offCoord (ix2 e k) 1 = k.val := by
      unfold GatherDims.offCoord
      rw [dif_pos (show (1 : Fin 2) ∈ (rowGatherDims N E C wf).sKept from (GatherDims.mem_sKept _ _).mpr
        ⟨fun h => absurd (List.mem_singleton.mp h) (show ¬ ((1 : Fin 2) = 0) by decide), List.not_mem_nil⟩)]
      rfl
    rw [hs, ho, Nat.add_zero, Nat.zero_add]

end Gather

/-! ## The scatter-add of whole rows -/

section Scatter

/-- The dimension numbers of a scatter of `[E, C]` update rows into an `[N, C]` operand at `[E, 1]` row numbers. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (k : Fin C)

/-- On the row axis the window of update `(e, k)` starts at the row number `idx[e, 0]`, read signed. -/
theorem rowScatter_start0 : (rowScatterDims N E C wf).start (ix2 e k) idx 0 = (idx (rowAt e)).toInt := by
  unfold ScatterDims.start
  rw [dif_pos (show (0 : Fin 2) ∈ (rowScatterDims N E C wf).scatterDimsToOperandDims from List.mem_singleton.mpr rfl)]
  have hsi : (rowScatterDims N E C wf).siIdx (ix2 e k) ⟨List.idxOf (0 : Fin 2) (rowScatterDims N E C wf).scatterDimsToOperandDims,
      List.idxOf_lt_length_iff.2 (List.mem_singleton.mpr rfl)⟩ = rowAt e := by
    funext b; refine Fin.ext ?_
    match b with
    | ⟨0, _⟩ => rfl
    | ⟨1, _⟩ => rfl
  rw [hsi]

/-- On the column axis it starts at `0`. -/
theorem rowScatter_start1 : (rowScatterDims N E C wf).start (ix2 e k) idx 1 = 0 := by
  unfold ScatterDims.start
  rw [dif_neg (show ¬ (1 : Fin 2) ∈ (rowScatterDims N E C wf).scatterDimsToOperandDims from
    fun h => absurd (List.mem_singleton.mp h) (show ¬ ((1 : Fin 2) = 0) by decide))]

/-- The row axis is inserted: the window coordinate there is `0`. -/
theorem rowScatter_window0 : (rowScatterDims N E C wf).window (ix2 e k) 0 = 0 := by
  unfold ScatterDims.window
  rw [dif_neg]
  intro h
  have : (0 : Fin 2) ∈ (List.finRange 2).filter (fun a => a ∉ [(0 : Fin 2)]) := h
  simp at this

/-- On the column axis the window coordinate is the update's column. -/
theorem rowScatter_window1 : (rowScatterDims N E C wf).window (ix2 e k) 1 = k.val := by
  unfold ScatterDims.window
  rw [dif_pos]
  · rfl
  · show (1 : Fin 2) ∈ (List.finRange 2).filter (fun a => a ∉ [(0 : Fin 2)])
    simp

/-- Update `(e, k)` lands at `(n, c)` exactly when its row number, read signed, is `n` and `k = c`. -/
theorem rowScatter_resultIdx_eq_some_iff (n : Fin N) (c : Fin C) :
    (rowScatterDims N E C wf).resultIdx? (ix2 e k) idx = some (ix2 n c)
      ↔ (idx (rowAt e)).toInt = (n.val : Int) ∧ k = c := by
  have hs0 := rowScatter_start0 wf idx e k
  have hs1 := rowScatter_start1 wf idx e k
  have hw0 := rowScatter_window0 wf e k
  have hw1 := rowScatter_window1 wf e k
  have hn : n.val < N := n.isLt
  have hk : k.val < C := k.isLt
  unfold ScatterDims.resultIdx?
  split
  · rename_i h
    rw [Option.some.injEq]
    constructor
    · intro heq
      have e0 := congrArg Fin.val (congrFun heq 0)
      have e1 := congrArg Fin.val (congrFun heq 1)
      have h0 := (h 0).1
      simp only [hs0, hw0, hs1, hw1] at e0 e1 h0
      have e0' : ((idx (rowAt e)).toInt + ((0 : Nat) : Int)).toNat = n.val := e0
      have e1' : ((0 : Int) + (k.val : Int)).toNat = c.val := e1
      refine ⟨by omega, Fin.ext (by omega)⟩
    · rintro ⟨h0, rfl⟩
      funext a
      refine Fin.ext ?_
      match a with
      | ⟨0, _⟩ =>
        show ((rowScatterDims N E C wf).start (ix2 e k) idx 0 + ((rowScatterDims N E C wf).window (ix2 e k) 0 : Nat)).toNat = n.val
        rw [hs0, hw0, h0]; omega
      | ⟨1, _⟩ =>
        show ((rowScatterDims N E C wf).start (ix2 e k) idx 1 + ((rowScatterDims N E C wf).window (ix2 e k) 1 : Nat)).toNat = k.val
        rw [hs1, hw1]; omega
  · rename_i h
    constructor
    · intro heq; exact absurd heq (by simp)
    · rintro ⟨h0, rfl⟩
      exfalso
      apply h
      intro a
      match a with
      | ⟨0, _⟩ =>
        show 0 ≤ (rowScatterDims N E C wf).start (ix2 e k) idx 0 + ((rowScatterDims N E C wf).window (ix2 e k) 0 : Nat)
          ∧ (rowScatterDims N E C wf).start (ix2 e k) idx 0 + ((rowScatterDims N E C wf).window (ix2 e k) 0 : Nat) < (N : Int)
        rw [hs0, hw0, h0]; omega
      | ⟨1, _⟩ =>
        show 0 ≤ (rowScatterDims N E C wf).start (ix2 e k) idx 1 + ((rowScatterDims N E C wf).window (ix2 e k) 1 : Nat)
          ∧ (rowScatterDims N E C wf).start (ix2 e k) idx 1 + ((rowScatterDims N E C wf).window (ix2 e k) 1 : Nat) < (C : Int)
        rw [hs1, hw1]; omega

/-- THE ROW SCATTER-ADD READ AT `(n, c)`, on the extended reals: the operand there plus the sum over the update rows whose row
    number, read signed, is `n`, of the update at column `c`. -/
theorem scatterAdd_rows_apply {φ : FTy} (x : FVec Ideal ⟨2, ![N, C]⟩ φ) (upd : FVec Ideal ⟨2, ![E, C]⟩ φ) (n : Fin N) (c : Fin C) :
    Host.scatterAdd (rowScatterDims N E C wf) x idx upd (ix2 n c)
      = x (ix2 n c) + ∑ e : Fin E, if (idx (rowAt e)).toInt = (n.val : Int) then upd (ix2 e c) else 0 := by
  show x (ix2 n c) + ∑ j ∈ Finset.univ.filter (fun j => (rowScatterDims N E C wf).resultIdx? j idx = some (ix2 n c)), upd j = _
  refine congrArg (x (ix2 n c) + ·) ?_
  rw [Finset.sum_filter, sum_idx2]
  refine Finset.sum_congr rfl fun e _ => ?_
  simp only [rowScatter_resultIdx_eq_some_iff]
  by_cases h : (idx (rowAt e)).toInt = (n.val : Int)
  · simp only [h, true_and, if_true]
    rw [Finset.sum_ite_eq' Finset.univ c (fun k => upd (ix2 e k))]
    simp
  · simp [h]

end Scatter

end Idealize.ShloMosaic.RowIndexing

end
-- ==== Proof.LibVecGatherScatter.lean ====
/-
  Gather from a vector and scatter-add into a vector, read at an index.

  `v[idx]` of a vector `v : [N]` at `E` positions lowers to `stablehlo.gather` with no offset axis, collapsed_slice_dims [0],
  start_index_map [0], index_vector_dim 1 and slice sizes [1] over the positions as an `[E, 1]` array: result element `e`
  is `v` at position `idx[e, 0]`, read signed and clamped into `[0, N − 1]` (`gather_vec_apply`).

  `segment_sum(u, idx)` of updates `u : [E]` into `[N]` lowers to `stablehlo.scatter` with an `add` body, no update window
  axis, inserted_window_dims [0], scatter_dims_to_operand_dims [0], index_vector_dim 1: at the extended reals element `n` of
  the result is the operand's plus the sum, over the updates `e` whose position `idx[e, 0]`, read signed and NOT clamped,
  is `n`, of `u e` (`scatterAdd_vec_apply`). A position outside `[0, N)` lands nowhere.

  Both for any sizes `N`, `E` and any index width. Also: a sum over the indices of a rank-1 shape is the sum over its
  coordinate (`sum_idx1`).
-/
import Idealize.ShloMosaic.Lib.ValueIdx
import Idealize.ShloMosaic.PureOps.Ideal.Laws

noncomputable section

open scoped BigOperators

namespace Idealize.ShloMosaic.VecIndexing

open Idealize.ShloMosaic Idealize.ShloMosaic.ValueIdx

/-- A rank-1 index set is its coordinate's range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The entry `[e, 0]` of an `[E, 1]` array of positions. -/
abbrev posAt {E : Nat} (e : Fin E) : (⟨2, ![E, 1]⟩ : Shape).Idx := ix2 e (⟨0, Nat.one_pos⟩ : Fin 1)

/-! ## The gather of single entries -/

section Gather
variable {α : Type}

/-- The dimension numbers of a gather of single entries of an `[N]` operand at `[E, 1]` positions. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at position `idx[e, 0]`, read signed and clamped into `[0, N − 1]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 (⟨min (idx (posAt e)).toInt.toNat (N - 1), by omega⟩ : Fin N)) := by
  unfold Host.gather
  refine congrArg x ?_
  funext a
  refine Fin.ext ?_
  match a with
  | ⟨0, _⟩ =>
    show (vecGatherDims N E wf).start (ix1 e) idx 0 + (vecGatherDims N E wf).batchCoord (ix1 e) 0
      + (vecGatherDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N E wf).startIndexMap from List.mem_singleton.mpr rfl)]
    have hsi : (vecGatherDims N E wf).siIdx (ix1 e) ⟨List.idxOf (0 : Fin 1) (vecGatherDims N E wf).startIndexMap,
        List.idxOf_lt_length_iff.2 (List.mem_singleton.mpr rfl)⟩ = posAt e := by
      funext b; refine Fin.ext ?_
      match b with
      | ⟨0, _⟩ => rfl
      | ⟨1, _⟩ => rfl
    rw [hsi]
    rfl

end Gather

/-! ## The scatter-add of single entries -/

section Scatter

/-- The dimension numbers of a scatter of `[E]` updates into an `[N]` operand at `[E, 1]` positions. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (e : Fin E)

/-- The window of update `e` starts at the position `idx[e, 0]`, read signed. -/
theorem vecScatter_start0 : (vecScatterDims N E wf).start (ix1 e) idx 0 = (idx (posAt e)).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = posAt e := by
    funext b; refine Fin.ext ?_
    match b with
    | ⟨0, _⟩ => rfl
    | ⟨1, _⟩ => rfl
  rw [hsi]

/-- The one axis is inserted: the window coordinate there is `0`. -/
theorem vecScatter_window0 : (vecScatterDims N E wf).window (ix1 e) 0 = 0 := by
  unfold ScatterDims.window
  rw [dif_neg]
  intro h
  have : (0 : Fin 1) ∈ (List.finRange 1).filter (fun a => a ∉ [(0 : Fin 1)]) := h
  simp at this

/-- Update `e` lands at `n` exactly when its position, read signed, is `n`. -/
theorem vecScatter_resultIdx_eq_some_iff (n : Fin N) :
    (vecScatterDims N E wf).resultIdx? (ix1 e) idx = some (ix1 n) ↔ (idx (posAt e)).toInt = (n.val : Int) := by
  have hs0 := vecScatter_start0 wf idx e
  have hw0 := vecScatter_window0 wf e
  have hn : n.val < N := n.isLt
  unfold ScatterDims.resultIdx?
  split
  · rename_i h
    rw [Option.some.injEq]
    constructor
    · intro heq
      have e0 := congrArg Fin.val (congrFun heq 0)
      have h0 := (h 0).1
      simp only [hs0, hw0] at e0 h0
      have e0' : ((idx (posAt e)).toInt + ((0 : Nat) : Int)).toNat = n.val := e0
      omega
    · intro h0
      funext a
      refine Fin.ext ?_
      match a with
      | ⟨0, _⟩ =>
        show ((vecScatterDims N E wf).start (ix1 e) idx 0 + ((vecScatterDims N E wf).window (ix1 e) 0 : Nat)).toNat = n.val
        rw [hs0, hw0, h0]; omega
  · rename_i h
    constructor
    · intro heq; exact absurd heq (by simp)
    · intro h0
      exfalso
      apply h
      intro a
      match a with
      | ⟨0, _⟩ =>
        show 0 ≤ (vecScatterDims N E wf).start (ix1 e) idx 0 + ((vecScatterDims N E wf).window (ix1 e) 0 : Nat)
          ∧ (vecScatterDims N E wf).start (ix1 e) idx 0 + ((vecScatterDims N E wf).window (ix1 e) 0 : Nat) < (N : Int)
        rw [hs0, hw0, h0]; omega

/-- THE VECTOR SCATTER-ADD READ AT `n`, on the extended reals: the operand there plus the sum over the updates whose position,
    read signed, is `n`. -/
theorem scatterAdd_vec_apply {φ : FTy} (x : FVec Ideal ⟨1, ![N]⟩ φ) (upd : FVec Ideal ⟨1, ![E]⟩ φ) (n : Fin N) :
    Host.scatterAdd (vecScatterDims N E wf) x idx upd (ix1 n)
      = x (ix1 n) + ∑ e : Fin E, if (idx (posAt e)).toInt = (n.val : Int) then upd (ix1 e) else 0 := by
  show x (ix1 n) + ∑ j ∈ Finset.univ.filter (fun j => (vecScatterDims N E wf).resultIdx? j idx = some (ix1 n)), upd j = _
  refine congrArg (x (ix1 n) + ·) ?_
  rw [Finset.sum_filter, sum_idx1]
  refine Finset.sum_congr rfl fun e _ => ?_
  simp only [vecScatter_resultIdx_eq_some_iff]

end Scatter

end Idealize.ShloMosaic.VecIndexing

end
-- ==== Proof.LibBroadcastInDim2.lean ====
/-
  The host's `broadcast_in_dim` between ranks 1 and 2, read at an index given by its coordinates, for any sizes:
  a vector `[a]` as a column `[a, 1]` (dims = [0]) and as a row `[1, b]` (dims = [1]); a column `[a, 1]` along the second axis
  to `[a, b]` and a row `[1, b]` along the first axis to `[a, b]` (dims = [0, 1]).  Each is one instance of the library's
  read-at-an-index lemma for the operation, the coordinate arithmetic discharged once for all sizes.
-/
import Idealize.ShloMosaic.Lib.ValueIdx
import Idealize.ShloMosaic.Lib.Pipeline.Value

namespace Idealize.ShloMosaic.BroadcastInDim2

open Idealize.ShloMosaic Idealize.ShloMosaic.ValueIdx

variable {α : Type}

/-- A vector as a column: entry (p, 0) is the vector's entry p. -/
theorem vecToCol_apply {a : Nat} (v : (⟨1, ![a]⟩ : Shape).Idx → α)
    (h : (⟨1, ![a]⟩ : Shape).BroadcastsInDim ⟨2, ![a, 1]⟩ (![0] : Fin 1 → Fin 2)) (p : Fin a) (z : Fin 1) :
    broadcastInDim (⟨2, ![a, 1]⟩ : Shape) (![0] : Fin 1 → Fin 2) h v (ix2 p z) = v (ix1 p) :=
  broadcastInDim_apply (![0] : Fin 1 → Fin 2) h v (ix2 p z) (ix1 p) (fun d => match d with
    | ⟨0, _⟩ => by
        show p.val = if a = 1 then 0 else p.val
        by_cases ha : a = 1
        · rw [if_pos ha]; have := p.isLt; omega
        · rw [if_neg ha])

/-- A vector as a row: entry (0, q) is the vector's entry q. -/
theorem vecToRow_apply {b : Nat} (v : (⟨1, ![b]⟩ : Shape).Idx → α)
    (h : (⟨1, ![b]⟩ : Shape).BroadcastsInDim ⟨2, ![1, b]⟩ (![1] : Fin 1 → Fin 2)) (z : Fin 1) (q : Fin b) :
    broadcastInDim (⟨2, ![1, b]⟩ : Shape) (![1] : Fin 1 → Fin 2) h v (ix2 z q) = v (ix1 q) :=
  broadcastInDim_apply (![1] : Fin 1 → Fin 2) h v (ix2 z q) (ix1 q) (fun d => match d with
    | ⟨0, _⟩ => by
        show q.val = if b = 1 then 0 else q.val
        by_cases hb : b = 1
        · rw [if_pos hb]; have := q.isLt; omega
        · rw [if_neg hb])

/-- A column along the second axis: entry (p, q) is the column's entry (p, 0). -/
theorem colToMat_apply {a b : Nat} (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h v (ix2 p q) = v (ix2 p (0 : Fin 1)) :=
  broadcastInDim_apply (![0, 1] : Fin 2 → Fin 2) h v (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row along the first axis: entry (p, q) is the row's entry (0, q). -/
theorem rowToMat_apply {a b : Nat} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h v (ix2 p q) = v (ix2 (0 : Fin 1) q) :=
  broadcastInDim_apply (![0, 1] : Fin 2 → Fin 2) h v (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.BroadcastInDim2
-- ==== Proof.LibSideBySide.lean ====
/-
  Layout and clamp lemmas for any sizes.  Two matrices with the same rows laid side by side, read at a column of
  the first or of the second; a sum over a + b positions split into the first a and the last b; a one-column matrix read
  as a vector; a scalar spread over any shape; the select on the comparison x ≥ 0 as an if-then-else; and the two
  spellings of a leaky clamp (branching on 0 ≤ x or on 0 < x), equal because both give 0 at 0.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Bridge

open Idealize.ShloMosaic Idealize.ShloMosaic.ValueIdx

variable {α : Type}

/-- Two arrays with the same rows laid side by side: a column in the first a columns reads the first array. -/
theorem sideBySide_left {n a b c : Nat} (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ (1 : Fin 2))
    (p : Fin n) (k : Fin c) (k' : Fin a) (hk : k'.val = k.val) :
    concatenate (⟨2, ![n, c]⟩ : Shape) (1 : Fin 2) [⟨⟨2, ![n, a]⟩, x⟩, ⟨⟨2, ![n, b]⟩, y⟩] h (ix2 p k) = x (ix2 p k') :=
  concatenate_pair_apply_left (1 : Fin 2) x y h (ix2 p k) rfl (ix2 p k') (fun d => match d with
    | ⟨0, _⟩ => rfl
    | ⟨1, _⟩ => hk)

/-- Two arrays with the same rows laid side by side: a column past the first a reads the second array, a columns
    earlier. -/
theorem sideBySide_right {n a b c : Nat} (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ (1 : Fin 2))
    (p : Fin n) (k : Fin c) (k' : Fin b) (hk : k'.val + a = k.val) :
    concatenate (⟨2, ![n, c]⟩ : Shape) (1 : Fin 2) [⟨⟨2, ![n, a]⟩, x⟩, ⟨⟨2, ![n, b]⟩, y⟩] h (ix2 p k) = y (ix2 p k') :=
  concatenate_pair_apply_right (1 : Fin 2) x y h (ix2 p k) rfl rfl (ix2 p k') (fun d hd => match d, hd with
    | ⟨0, _⟩, _ => rfl
    | ⟨1, _⟩, hd => absurd rfl hd) hk

/-- A sum over a + b positions is the sum over the first a plus the sum over the last b. -/
theorem sum_split {M : Type*} [AddCommMonoid M] {a b c : Nat} (hc : a + b = c) (f : Fin c → M) :
    ∑ k : Fin c, f k = (∑ k : Fin a, f ⟨k.val, by omega⟩) + ∑ k : Fin b, f ⟨a + k.val, by omega⟩ := by
  subst hc
  rw [Fin.sum_univ_add]
  rfl

/-- A one-column matrix read as a vector: entry p is the matrix's entry (p, 0). -/
theorem colAsVec_apply {a : Nat} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- A scalar spread over any shape reads the scalar everywhere. -/
theorem splat_apply {t : Shape} (h : (⟨0, ![]⟩ : Shape).BroadcastsInDim t (![] : Fin 0 → Fin t.rank))
    (x : (⟨0, ![]⟩ : Shape).Idx → α) (j : t.Idx) : broadcastInDim t (![] : Fin 0 → Fin t.rank) h x j = x ix0 :=
  broadcastInDim_apply (![] : Fin 0 → Fin t.rank) h x j ix0 (fun a => a.elim0)

/-- The two leaky clamps agree: at 0 one takes the branch x, the other c · x, and both are 0. -/
theorem leaky_of_ge (c x : EReal) : (if 0 ≤ x then x else c * x) = (if 0 < x then x else c * x) := by
  by_cases h : 0 < x
  · rw [if_pos h, if_pos h.le]
  · rw [if_neg h]
    by_cases h0 : 0 ≤ x
    · have hx : x = 0 := le_antisymm (not_lt.mp h) h0
      rw [if_pos h0, hx, mul_zero]
    · rw [if_neg h0]

/-- A select on the comparison "x ≥ 0" (0 as its f32 pattern) is the if-then-else on 0 ≤ x. -/
theorem select_oge_zero {β : Type} (x : EReal) (a b : β) :
    Scalar.select (FloatOps.cmpf (F := Ideal) (φ := .f32) .oge x (Ideal.ofBits .f32 0x00000000#32)) a b
      = if 0 ≤ x then a else b := by
  rw [Ideal.ofBits_zero_f32]
  show Scalar.select (Ideal.cmp .oge x 0) a b = _
  unfold Ideal.cmp
  by_cases h : (0 : EReal) ≤ x
  · rw [if_pos h]; simp only [decide_eq_true h, BitVec.ofBool_true]; exact select_one a b
  · rw [if_neg h]; simp only [decide_eq_false h, BitVec.ofBool_false]; exact select_zero a b

end Cert.Bridge

end
-- ==== Proof.ERealScale.lean ====
/-
  Scaling a finite sum of extended reals by a nonnegative real number.

  On the extended reals multiplication does not distribute over addition in general (⊤ + ⊥ = ⊥, and a negative or
  infinite factor can change which of the two wins).  For a factor r that is a nonnegative REAL number it does:
  (y + z) · r = y · r + z · r for all y, z, finite or not.  Hence x ↦ x · r commutes with every finite sum, and with a
  finite sum to which a leading 0 has been added.
-/
import Mathlib.Data.EReal.Operations
import Mathlib.Algebra.BigOperators.Group.Finset.Basic

open scoped BigOperators

namespace Cert.Bridge.Scale

/-- A nonnegative real factor distributes over a sum of two extended reals. -/
theorem add_mul_real (y z : EReal) (r : ℝ) (hr : 0 ≤ r) : (y + z) * (r : EReal) = y * r + z * r :=
  EReal.right_distrib_of_nonneg_of_ne_top (EReal.coe_nonneg.mpr hr) (EReal.coe_ne_top r) y z

/-- A nonnegative real factor distributes over a finite sum of extended reals. -/
theorem sum_mul_real {ι : Type*} (s : Finset ι) (a : ι → EReal) (r : ℝ) (hr : 0 ≤ r) :
    (∑ e ∈ s, a e) * (r : EReal) = ∑ e ∈ s, a e * r := by
  classical
  induction s using Finset.induction_on with
  | empty => simp
  | insert i s hi ih => rw [Finset.sum_insert hi, Finset.sum_insert hi, add_mul_real _ _ r hr, ih]

/-- The same with a leading zero, as a scatter-add into a zero array leaves it. -/
theorem zero_add_sum_mul_real {ι : Type*} (s : Finset ι) (a : ι → EReal) (r : ℝ) (hr : 0 ≤ r) :
    (0 + ∑ e ∈ s, a e) * (r : EReal) = 0 + ∑ e ∈ s, a e * r := by
  rw [zero_add, zero_add, sum_mul_real s a r hr]

end Cert.Bridge.Scale
-- ==== Proof.LayerLaw.lean ====
/-
  One graph-convolution layer, written two ways, is one function on the extended reals.

  Both programs aggregate, into node n and feature c, the rows H(s e, ·) of the edges e whose target index word, read
  signed, is n; s e is the source index word of e, wrapped (a negative index counts from the end), read signed and
  clamped into [0, 199999].  With D the degree normalisation:

    first form   max ((0 + ∑ e, [tgt e = n] (H(s e, c) · D(s e))) · D(n) + B(c)) 0
                 — rows pre-scaled by D, gathered, scatter-added, post-scaled by D(n);
    second form  max ((0 + ∑ e, [tgt e = n] H(s e, c) · (D(s e) · D(t e))) + B(c)) 0
                 — rows gathered, scaled by the edge weight D(s e) · D(t e), scatter-added; t e is the target index word
                 wrapped, read signed and clamped.

  In the sum the target word read signed is n with 0 ≤ n < 200000, so it is not negative, the wrap leaves it and the clamp
  leaves it: t e = n.  Multiplication on the extended reals is associative and commutative, and a NONNEGATIVE REAL factor
  D(n) distributes over the finite sum (an infinite or negative factor would not), which is the hypothesis on D.  Nothing is
  asked of H or B.
-/
import proofs.«120951_j23605140259147_2_alg».proof.KernelIdeal
import proofs.«120951_j23605140259147_2_alg».proof.ReferenceIdeal
import proofs.«120951_j23605140259147_2_alg».proof.Proof.LibRowGatherScatter
import proofs.«120951_j23605140259147_2_alg».proof.Proof.LibVecGatherScatter
import proofs.«120951_j23605140259147_2_alg».proof.Proof.LibBroadcastInDim2
import proofs.«120951_j23605140259147_2_alg».proof.Proof.LibSideBySide
import proofs.«120951_j23605140259147_2_alg».proof.Proof.ERealScale

noncomputable section

open scoped BigOperators

namespace Cert.Bridge.Layer

open Idealize.ShloMosaic Idealize.ShloMosaic.ValueIdx

/-! ## The two spellings -/

section Kernel
open Cert.KernelIdeal Cert.KernelIdeal.Facts₀
variable [Cert.KernelIdeal.Facts₀]

/-- The layer as the first program's host operations spell it: scale the rows by D, gather, scatter-add, scale by D, add the
    bias, clamp at 0. -/
def KL (H : (⟨S200000x256, .f32⟩ : BufTy).Contents (Elt Ideal)) (D : (⟨S200000, .f32⟩ : BufTy).Contents (Elt Ideal))
    (SF DF : (⟨S1000000, .i32⟩ : BufTy).Contents (Elt Ideal)) (B : (⟨S256, .f32⟩ : BufTy).Contents (Elt Ideal)) :
    (⟨S200000x256, .f32⟩ : BufTy).Contents (Elt Ideal) :=
  maximumf
    (addf
      (mulf
        (Host.scatterAdd scatter_S200000x256_S1000000x1_S1000000x256_1_0_0_1
          (broadcastInDim S200000x256 ![] bcast_S_S200000x256 (constant (F := Ideal) S_ .f32 0x00000000#32))
          (broadcastInDim S1000000x1 ![0] bcast_S1000000_S1000000x1_0 DF)
          (Host.gather gather_S200000x256_S1000000x1_S1000000x256_1_0_n_n_0_1_1256
            (mulf H (broadcastInDim S200000x256 ![0, 1] bcast_S200000x1_S200000x256_0_1
              (broadcastInDim S200000x1 ![0] bcast_S200000_S200000x1_0 D)))
            (broadcastInDim S1000000x1 ![0] bcast_S1000000_S1000000x1_0
              (select (cmpi .slt SF (broadcastInDim S1000000 ![] bcast_S_S1000000 (constantI S_ 32 0#32)))
                (addi SF (broadcastInDim S1000000 ![] bcast_S_S1000000 (constantI S_ 32 200000#32))) SF))))
        (broadcastInDim S200000x256 ![0, 1] bcast_S200000x1_S200000x256_0_1
          (broadcastInDim S200000x1 ![0] bcast_S200000_S200000x1_0 D)))
      (broadcastInDim S200000x256 ![0, 1] bcast_S1x256_S200000x256_0_1 (broadcastInDim S1x256 ![1] bcast_S256_S1x256_1 B)))
    (broadcastInDim S200000x256 ![] bcast_S_S200000x256 (constant (F := Ideal) S_ .f32 0x00000000#32))

end Kernel

section Reference
open Cert.ReferenceIdeal Cert.ReferenceIdeal.Facts₀
variable [Cert.ReferenceIdeal.Facts₀]

/-- The edge weights as the second program spells them: D gathered at the source index times D gathered at the target index. -/
def NORM (D : (⟨S200000, .f32⟩ : BufTy).Contents (Elt Ideal)) (SF DF : (⟨S1000000, .i32⟩ : BufTy).Contents (Elt Ideal)) :
    (⟨S1000000, .f32⟩ : BufTy).Contents (Elt Ideal) :=
  mulf (F := Ideal) (φ := .f32)
    (Host.gather gather_S200000_S1000000x1_S1000000_n_0_n_n_0_1_1 D
      (broadcastInDim S1000000x1 ![0] bcast_S1000000_S1000000x1_0
        (select (cmpi .slt SF (broadcastInDim S1000000 ![] bcast_S_S1000000 (constantI S_ 32 0#32)))
          (addi SF (broadcastInDim S1000000 ![] bcast_S_S1000000 (constantI S_ 32 200000#32))) SF)))
    (Host.gather gather_S200000_S1000000x1_S1000000_n_0_n_n_0_1_1 D
      (broadcastInDim S1000000x1 ![0] bcast_S1000000_S1000000x1_0
        (select (cmpi .slt DF (broadcastInDim S1000000 ![] bcast_S_S1000000 (constantI S_ 32 0#32)))
          (addi DF (broadcastInDim S1000000 ![] bcast_S_S1000000 (constantI S_ 32 200000#32))) DF)))

/-- The layer as the second program spells it: gather the rows, scale them by the edge weights, scatter-add, add the bias, clamp
    at 0. -/
def RL (H : (⟨S200000x256, .f32⟩ : BufTy).Contents (Elt Ideal)) (D : (⟨S200000, .f32⟩ : BufTy).Contents (Elt Ideal))
    (SF DF : (⟨S1000000, .i32⟩ : BufTy).Contents (Elt Ideal)) (B : (⟨S256, .f32⟩ : BufTy).Contents (Elt Ideal)) :
    (⟨S200000x256, .f32⟩ : BufTy).Contents (Elt Ideal) :=
  maximumf
    (addf
      (Host.scatterAdd scatter_S200000x256_S1000000x1_S1000000x256_1_0_0_1
        (broadcastInDim S200000x256 ![] bcast_S_S200000x256 (constant (F := Ideal) S_ .f32 0x00000000#32))
        (broadcastInDim S1000000x1 ![0] bcast_S1000000_S1000000x1_0 DF)
        (mulf
          (Host.gather gather_S200000x256_S1000000x1_S1000000x256_1_0_n_n_0_1_1256 H
            (broadcastInDim S1000000x1 ![0] bcast_S1000000_S1000000x1_0
              (select (cmpi .slt SF (broadcastInDim S1000000 ![] bcast_S_S1000000 (constantI S_ 32 0#32)))
                (addi SF (broadcastInDim S1000000 ![] bcast_S_S1000000 (constantI S_ 32 200000#32))) SF)))
          (broadcastInDim S1000000x256 ![0, 1] bcast_S1000000x1_S1000000x256_0_1
            (broadcastInDim S1000000x1 ![0] bcast_S1000000_S1000000x1_0 (NORM D SF DF)))))
      (broadcastInDim S200000x256 ![0, 1] bcast_S1x256_S200000x256_0_1 (broadcastInDim S1x256 ![1] bcast_S256_S1x256_1 B)))
    (broadcastInDim S200000x256 ![] bcast_S_S200000x256 (constant (F := Ideal) S_ .f32 0x00000000#32))

end Reference

/-! ## Index words -/

/-- A negative index counts from the end: x + 200000 where x, read signed, is negative; x itself otherwise. -/
def wrapAt (x : BitVec 32) : BitVec 32 := Scalar.select (IntOp.cmpi .slt x 0#32) (IntOp.addi x 200000#32) x

/-- The row a gather reads for the index word x: the wrapped word, read signed and clamped into [0, 199999]. -/
def rowOf (x : BitVec 32) : Fin 200000 := ⟨min (wrapAt x).toInt.toNat (200000 - 1), by omega⟩

/-- The wrap leaves a word that is not negative. -/
theorem wrapAt_of_nonneg (x : BitVec 32) (h : 0 ≤ x.toInt) : wrapAt x = x := by
  have hlt : x.slt 0#32 = false := by
    simp only [BitVec.slt, BitVec.toInt_zero, decide_eq_false_iff_not, Int.not_lt]
    exact h
  show (if BitVec.ofBool (x.slt 0#32) = 1 then _ else _) = _
  rw [hlt]
  rfl

/-- A word that reads, signed, as the row number n is sent to row n: neither the wrap nor the clamp moves it. -/
theorem rowOf_of_toInt_eq (x : BitVec 32) (n : Fin 200000) (h : x.toInt = (n.val : Int)) : rowOf x = n := by
  have hn := n.isLt
  refine Fin.ext ?_
  show min (wrapAt x).toInt.toNat (200000 - 1) = n.val
  rw [wrapAt_of_nonneg x (by omega), h]
  omega

/-! ## The layout operations read at an index -/

/-- The wrapped index vector read at e. -/
theorem wrapVec_apply (X : IVec ⟨1, ![1000000]⟩ 32)
    (h0 : (⟨0, ![]⟩ : Shape).BroadcastsInDim ⟨1, ![1000000]⟩ (![] : Fin 0 → Fin 1)) (e : Fin 1000000) :
    select (cmpi .slt X (broadcastInDim ⟨1, ![1000000]⟩ ![] h0 (constantI ⟨0, ![]⟩ 32 0#32)))
      (addi X (broadcastInDim ⟨1, ![1000000]⟩ ![] h0 (constantI ⟨0, ![]⟩ 32 200000#32))) X (ix1 e) = wrapAt (X (ix1 e)) := by
  show Scalar.select (IntOp.cmpi .slt (X (ix1 e)) (broadcastInDim ⟨1, ![1000000]⟩ ![] h0 (constantI ⟨0, ![]⟩ 32 0#32) (ix1 e)))
      (IntOp.addi (X (ix1 e)) (broadcastInDim ⟨1, ![1000000]⟩ ![] h0 (constantI ⟨0, ![]⟩ 32 200000#32) (ix1 e))) (X (ix1 e)) = _
  rw [splat_apply h0, splat_apply h0]
  rfl

/-- The wrapped index vector as an [E, 1] column, read at (e, 0). -/
theorem idxCol_apply (X : IVec ⟨1, ![1000000]⟩ 32)
    (h0 : (⟨0, ![]⟩ : Shape).BroadcastsInDim ⟨1, ![1000000]⟩ (![] : Fin 0 → Fin 1))
    (hc : (⟨1, ![1000000]⟩ : Shape).BroadcastsInDim ⟨2, ![1000000, 1]⟩ (![0] : Fin 1 → Fin 2)) (e : Fin 1000000) :
    broadcastInDim ⟨2, ![1000000, 1]⟩ ![0] hc
        (select (cmpi .slt X (broadcastInDim ⟨1, ![1000000]⟩ ![] h0 (constantI ⟨0, ![]⟩ 32 0#32)))
          (addi X (broadcastInDim ⟨1, ![1000000]⟩ ![] h0 (constantI ⟨0, ![]⟩ 32 200000#32))) X)
        (ix2 e (⟨0, Nat.one_pos⟩ : Fin 1))
      = wrapAt (X (ix1 e)) :=
  (BroadcastInDim2.vecToCol_apply _ hc e _).trans (wrapVec_apply X h0 e)

/-- The row a gather reads at the wrapped index column's entry e is rowOf of the index word. -/
theorem gatherRow_eq (X : IVec ⟨1, ![1000000]⟩ 32)
    (h0 : (⟨0, ![]⟩ : Shape).BroadcastsInDim ⟨1, ![1000000]⟩ (![] : Fin 0 → Fin 1))
    (hc : (⟨1, ![1000000]⟩ : Shape).BroadcastsInDim ⟨2, ![1000000, 1]⟩ (![0] : Fin 1 → Fin 2)) (e : Fin 1000000)
    (pf : min (broadcastInDim ⟨2, ![1000000, 1]⟩ ![0] hc
        (select (cmpi .slt X (broadcastInDim ⟨1, ![1000000]⟩ ![] h0 (constantI ⟨0, ![]⟩ 32 0#32)))
          (addi X (broadcastInDim ⟨1, ![1000000]⟩ ![] h0 (constantI ⟨0, ![]⟩ 32 200000#32))) X)
        (ix2 e (⟨0, Nat.one_pos⟩ : Fin 1))).toInt.toNat (200000 - 1) < 200000) :
    (⟨min (broadcastInDim ⟨2, ![1000000, 1]⟩ ![0] hc
        (select (cmpi .slt X (broadcastInDim ⟨1, ![1000000]⟩ ![] h0 (constantI ⟨0, ![]⟩ 32 0#32)))
          (addi X (broadcastInDim ⟨1, ![1000000]⟩ ![] h0 (constantI ⟨0, ![]⟩ 32 200000#32))) X)
        (ix2 e (⟨0, Nat.one_pos⟩ : Fin 1))).toInt.toNat (200000 - 1), pf⟩ : Fin 200000) = rowOf (X (ix1 e)) :=
  Fin.ext (congrArg (fun w : BitVec 32 => min w.toInt.toNat (200000 - 1)) (idxCol_apply X h0 hc e))

/-- The all-zero array reads 0 everywhere. -/
theorem zeros_apply {t : Shape} (h : (⟨0, ![]⟩ : Shape).BroadcastsInDim t (![] : Fin 0 → Fin t.rank)) (j : t.Idx) :
    broadcastInDim t (![] : Fin 0 → Fin t.rank) h (constant (F := Ideal) ⟨0, ![]⟩ .f32 0x00000000#32) j = (0 : EReal) := by
  rw [splat_apply h]
  exact Ideal.ofBits_zero_f32

/-- A vector [a] as a column spread over b columns: entry (p, q) is the vector's entry p. -/
theorem colOfVec_apply {a b : Nat} (v : FVec Ideal ⟨1, ![a]⟩ .f32)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (q : Fin b) :
    broadcastInDim ⟨2, ![a, b]⟩ ![0, 1] h2 (broadcastInDim ⟨2, ![a, 1]⟩ ![0] h1 v) (ix2 p q) = v (ix1 p) :=
  (BroadcastInDim2.colToMat_apply _ h2 p q).trans (BroadcastInDim2.vecToCol_apply v h1 p 0)

/-- A vector [b] as a row spread over a rows: entry (p, q) is the vector's entry q. -/
theorem rowOfVec_apply {a b : Nat} (v : FVec Ideal ⟨1, ![b]⟩ .f32)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (q : Fin b) :
    broadcastInDim ⟨2, ![a, b]⟩ ![0, 1] h2 (broadcastInDim ⟨2, ![1, b]⟩ ![1] h1 v) (ix2 p q) = v (ix1 q) :=
  (BroadcastInDim2.rowToMat_apply _ h2 p q).trans (BroadcastInDim2.vecToRow_apply v h1 0 q)

/-! ## The two spellings read at (n, c) -/

section KernelApply
variable [Cert.KernelIdeal.Facts₀]

/-- The first spelling at (n, c). -/
theorem KL_apply (H : (⟨Cert.KernelIdeal.S200000x256, .f32⟩ : BufTy).Contents (Elt Ideal))
    (D : (⟨Cert.KernelIdeal.S200000, .f32⟩ : BufTy).Contents (Elt Ideal))
    (SF DF : (⟨Cert.KernelIdeal.S1000000, .i32⟩ : BufTy).Contents (Elt Ideal))
    (B : (⟨Cert.KernelIdeal.S256, .f32⟩ : BufTy).Contents (Elt Ideal)) (n : Fin 200000) (c : Fin 256) :
    KL H D SF DF B (ix2 n c)
      = max ((0 + ∑ e : Fin 1000000, if (DF (ix1 e)).toInt = (n.val : Int)
              then H (ix2 (rowOf (SF (ix1 e))) c) * D (ix1 (rowOf (SF (ix1 e)))) else 0) * D (ix1 n) + B (ix1 c)) 0 := by
  unfold KL
  rw [maximumf_apply, addf_apply, mulf_apply, zeros_apply, rowOfVec_apply, colOfVec_apply]
  refine congrArg (fun x : EReal => max (x * D (ix1 n) + B (ix1 c)) 0) ?_
  refine (RowIndexing.scatterAdd_rows_apply (N := 200000) (E := 1000000) (C := 256)
    Cert.KernelIdeal.Facts₀.scatter_S200000x256_S1000000x1_S1000000x256_1_0_0_1_wf _ _ _ n c).trans ?_
  refine congrArg₂ (· + ·) (zeros_apply _ _) (Finset.sum_congr rfl fun e _ => ?_)
  have h1 : broadcastInDim Cert.KernelIdeal.S1000000x1 ![0] Cert.KernelIdeal.Facts₀.bcast_S1000000_S1000000x1_0 DF
      (RowIndexing.rowAt e) = DF (ix1 e) := BroadcastInDim2.vecToCol_apply DF _ e _
  rw [h1]
  refine if_congr Iff.rfl ?_ rfl
  refine (RowIndexing.gather_rows_apply (N := 200000) (E := 1000000) (C := 256) (by decide)
    Cert.KernelIdeal.Facts₀.gather_S200000x256_S1000000x1_S1000000x256_1_0_n_n_0_1_1256_wf _ _ e c).trans ?_
  rw [gatherRow_eq SF, mulf_apply, colOfVec_apply]

end KernelApply

section ReferenceApply
variable [Cert.ReferenceIdeal.Facts₀]

/-- The edge weight of e: D at the source row times D at the target row. -/
theorem NORM_apply (D : (⟨Cert.ReferenceIdeal.S200000, .f32⟩ : BufTy).Contents (Elt Ideal))
    (SF DF : (⟨Cert.ReferenceIdeal.S1000000, .i32⟩ : BufTy).Contents (Elt Ideal)) (e : Fin 1000000) :
    NORM D SF DF (ix1 e) = D (ix1 (rowOf (SF (ix1 e)))) * D (ix1 (rowOf (DF (ix1 e)))) := by
  unfold NORM
  rw [mulf_apply]
  refine congrArg₂ (· * ·) ?_ ?_
  · refine (VecIndexing.gather_vec_apply (N := 200000) (E := 1000000) (by decide)
      Cert.ReferenceIdeal.Facts₀.gather_S200000_S1000000x1_S1000000_n_0_n_n_0_1_1_wf D _ e).trans ?_
    rw [gatherRow_eq SF]
  · refine (VecIndexing.gather_vec_apply (N := 200000) (E := 1000000) (by decide)
      Cert.ReferenceIdeal.Facts₀.gather_S200000_S1000000x1_S1000000_n_0_n_n_0_1_1_wf D _ e).trans ?_
    rw [gatherRow_eq DF]

/-- The second spelling at (n, c). -/
theorem RL_apply (H : (⟨Cert.ReferenceIdeal.S200000x256, .f32⟩ : BufTy).Contents (Elt Ideal))
    (D : (⟨Cert.ReferenceIdeal.S200000, .f32⟩ : BufTy).Contents (Elt Ideal))
    (SF DF : (⟨Cert.ReferenceIdeal.S1000000, .i32⟩ : BufTy).Contents (Elt Ideal))
    (B : (⟨Cert.ReferenceIdeal.S256, .f32⟩ : BufTy).Contents (Elt Ideal)) (n : Fin 200000) (c : Fin 256) :
    RL H D SF DF B (ix2 n c)
      = max ((0 + ∑ e : Fin 1000000, if (DF (ix1 e)).toInt = (n.val : Int)
              then H (ix2 (rowOf (SF (ix1 e))) c) * (D (ix1 (rowOf (SF (ix1 e)))) * D (ix1 (rowOf (DF (ix1 e))))) else 0)
            + B (ix1 c)) 0 := by
  unfold RL
  rw [maximumf_apply, addf_apply, zeros_apply, rowOfVec_apply]
  refine congrArg (fun x : EReal => max (x + B (ix1 c)) 0) ?_
  refine (RowIndexing.scatterAdd_rows_apply (N := 200000) (E := 1000000) (C := 256)
    Cert.ReferenceIdeal.Facts₀.scatter_S200000x256_S1000000x1_S1000000x256_1_0_0_1_wf _ _ _ n c).trans ?_
  refine congrArg₂ (· + ·) (zeros_apply _ _) (Finset.sum_congr rfl fun e _ => ?_)
  have h1 : broadcastInDim Cert.ReferenceIdeal.S1000000x1 ![0] Cert.ReferenceIdeal.Facts₀.bcast_S1000000_S1000000x1_0 DF
      (RowIndexing.rowAt e) = DF (ix1 e) := BroadcastInDim2.vecToCol_apply DF _ e _
  rw [h1]
  refine if_congr Iff.rfl ?_ rfl
  rw [mulf_apply, colOfVec_apply, NORM_apply]
  refine congrArg (· * (D (ix1 (rowOf (SF (ix1 e)))) * D (ix1 (rowOf (DF (ix1 e)))))) ?_
  refine (RowIndexing.gather_rows_apply (N := 200000) (E := 1000000) (C := 256) (by decide)
    Cert.ReferenceIdeal.Facts₀.gather_S200000x256_S1000000x1_S1000000x256_1_0_n_n_0_1_1256_wf _ _ e c).trans ?_
  rw [gatherRow_eq SF]

end ReferenceApply

/-! ## The law -/

section Law
variable [Cert.KernelIdeal.Facts₀] [Cert.ReferenceIdeal.Facts₀]

/-- THE LAYER LAW: the two spellings are one array, whenever every entry of D is a nonnegative real number. -/
theorem layer_law (H : (⟨Cert.KernelIdeal.S200000x256, .f32⟩ : BufTy).Contents (Elt Ideal))
    (D : (⟨Cert.KernelIdeal.S200000, .f32⟩ : BufTy).Contents (Elt Ideal))
    (SF DF : (⟨Cert.KernelIdeal.S1000000, .i32⟩ : BufTy).Contents (Elt Ideal))
    (B : (⟨Cert.KernelIdeal.S256, .f32⟩ : BufTy).Contents (Elt Ideal))
    (hD : ∀ n : Fin 200000, ∃ r : ℝ, 0 ≤ r ∧ D (ix1 n) = (r : EReal)) :
    KL H D SF DF B = RL H D SF DF B := by
  funext j
  obtain ⟨n, c, rfl⟩ : ∃ (n : Fin 200000) (c : Fin 256), j = ix2 n c := ⟨j 0, j 1, eq_ix2 j⟩
  obtain ⟨r, hr, hDn⟩ := hD n
  rw [KL_apply, RL_apply]
  refine congrArg (fun x : EReal => max (x + B (ix1 c)) 0) ?_
  rw [hDn, Scale.zero_add_sum_mul_real Finset.univ _ r hr]
  refine congrArg (0 + ·) (Finset.sum_congr rfl fun e _ => ?_)
  by_cases h : (DF (ix1 e)).toInt = (n.val : Int)
  · rw [if_pos h, if_pos h, rowOf_of_toInt_eq (DF (ix1 e)) n h, hDn, mul_assoc]
  · rw [if_neg h, if_neg h, zero_mul]

end Law

end Cert.Bridge.Layer

end
-- ==== Proof.LayerStretch.lean ====
/-
  The three graph-convolution layers of the first program, read off its host operations over an arbitrary valuation.

  Each layer is a stretch of 22 plain operations followed by the 3 operations of the clamp at 0.  Over a VARIABLE valuation
  Wx the result buffer of the plain stretch holds the layer before its clamp (KLpre) of the five buffers the stretch reads,
  and the clamp's stretch turns it into the layer (KL).  The three layers are the same operations on different buffers.
-/
import proofs.«120951_j23605140259147_2_alg».proof.Proof.Stretch
import proofs.«120951_j23605140259147_2_alg».proof.Proof.LayerLaw

set_option maxRecDepth 16384

noncomputable section

namespace Cert.Bridge.Layer

open Cert.KernelIdeal Cert.KernelIdeal.Gen Idealize.ShloMosaic Idealize.ShloMosaic.TcCoe Idealize.SL.Sem
  Idealize.ShloMosaic.StableHlo

/-- The layer before its clamp at 0: scale the rows by D, gather, scatter-add, scale by D, add the bias. -/
def KLpre (H : (⟨S200000x256, .f32⟩ : BufTy).Contents (Elt Ideal)) (D : (⟨S200000, .f32⟩ : BufTy).Contents (Elt Ideal))
    (SF DF : (⟨S1000000, .i32⟩ : BufTy).Contents (Elt Ideal)) (B : (⟨S256, .f32⟩ : BufTy).Contents (Elt Ideal)) :
    (⟨S200000x256, .f32⟩ : BufTy).Contents (Elt Ideal) :=
  addf
    (mulf
      (Host.scatterAdd scatter_S200000x256_S1000000x1_S1000000x256_1_0_0_1
        (broadcastInDim S200000x256 ![] bcast_S_S200000x256 (constant (F := Ideal) S_ .f32 0x00000000#32))
        (broadcastInDim S1000000x1 ![0] bcast_S1000000_S1000000x1_0 DF)
        (Host.gather gather_S200000x256_S1000000x1_S1000000x256_1_0_n_n_0_1_1256
          (mulf H (broadcastInDim S200000x256 ![0, 1] bcast_S200000x1_S200000x256_0_1
            (broadcastInDim S200000x1 ![0] bcast_S200000_S200000x1_0 D)))
          (broadcastInDim S1000000x1 ![0] bcast_S1000000_S1000000x1_0
            (select (cmpi .slt SF (broadcastInDim S1000000 ![] bcast_S_S1000000 (constantI S_ 32 0#32)))
              (addi SF (broadcastInDim S1000000 ![] bcast_S_S1000000 (constantI S_ 32 200000#32))) SF))))
      (broadcastInDim S200000x256 ![0, 1] bcast_S200000x1_S200000x256_0_1
        (broadcastInDim S200000x1 ![0] bcast_S200000_S200000x1_0 D)))
    (broadcastInDim S200000x256 ![0, 1] bcast_S1x256_S200000x256_0_1 (broadcastInDim S1x256 ![1] bcast_S256_S1x256_1 B))

/-- The layer is the clamp at 0 of the layer before its clamp. -/
theorem KL_eq_pre (H : (⟨S200000x256, .f32⟩ : BufTy).Contents (Elt Ideal)) (D : (⟨S200000, .f32⟩ : BufTy).Contents (Elt Ideal))
    (SF DF : (⟨S1000000, .i32⟩ : BufTy).Contents (Elt Ideal)) (B : (⟨S256, .f32⟩ : BufTy).Contents (Elt Ideal)) :
    KL H D SF DF B
      = maximumf (KLpre H D SF DF B)
          (broadcastInDim S200000x256 ![] bcast_S_S200000x256 (constant (F := Ideal) S_ .f32 0x00000000#32)) := rfl

variable (Wx : Valuation τ sig (Elt Ideal))

set_option maxHeartbeats 4000000 in
/-- Layer 1 before its clamp. -/
theorem pre1 : StableHlo.after hostOps1 Wx (Proc.devRef .tc main_v36)
    = KLpre (Wx (Proc.devRef .tc main_v17)) (Wx (Proc.devRef .tc main_v16)) (Wx (Proc.devRef .tc main_v5))
        (Wx (Proc.devRef .tc main_v6)) (Wx (Proc.devRef .tc main_arg6)) := by
  after_results_simp
  rfl

set_option maxHeartbeats 4000000 in
/-- Layer 2 before its clamp. -/
theorem pre2 : StableHlo.after hostOps2 Wx (Proc.devRef .tc main_v57)
    = KLpre (Wx (Proc.devRef .tc main_v38)) (Wx (Proc.devRef .tc main_v16)) (Wx (Proc.devRef .tc main_v5))
        (Wx (Proc.devRef .tc main_v6)) (Wx (Proc.devRef .tc main_arg8)) := by
  after_results_simp
  rfl

set_option maxHeartbeats 4000000 in
/-- Layer 3 before its clamp. -/
theorem pre3 : StableHlo.after hostOps3 Wx (Proc.devRef .tc main_v78)
    = KLpre (Wx (Proc.devRef .tc main_v59)) (Wx (Proc.devRef .tc main_v16)) (Wx (Proc.devRef .tc main_v5))
        (Wx (Proc.devRef .tc main_v6)) (Wx (Proc.devRef .tc main_arg10)) := by
  after_results_simp
  rfl

/-- LAYER 1: after its two stretches the result buffer holds KL of the buffers read. -/
theorem layer_stretch1 : StableHlo.after hostOps1_1 (StableHlo.after hostOps1 Wx) (Proc.devRef .tc main_v37)
    = KL (Wx (Proc.devRef .tc main_v17)) (Wx (Proc.devRef .tc main_v16)) (Wx (Proc.devRef .tc main_v5))
        (Wx (Proc.devRef .tc main_v6)) (Wx (Proc.devRef .tc main_arg6)) := by
  rw [Cert.Bridge.Stretch.relu1 (StableHlo.after hostOps1 Wx), pre1 Wx]
  rfl

/-- LAYER 2. -/
theorem layer_stretch2 : StableHlo.after hostOps2_1 (StableHlo.after hostOps2 Wx) (Proc.devRef .tc main_v58)
    = KL (Wx (Proc.devRef .tc main_v38)) (Wx (Proc.devRef .tc main_v16)) (Wx (Proc.devRef .tc main_v5))
        (Wx (Proc.devRef .tc main_v6)) (Wx (Proc.devRef .tc main_arg8)) := by
  rw [Cert.Bridge.Stretch.relu2 (StableHlo.after hostOps2 Wx), pre2 Wx]
  rfl

/-- LAYER 3. -/
theorem layer_stretch3 : StableHlo.after hostOps3_1 (StableHlo.after hostOps3 Wx) (Proc.devRef .tc main_v79)
    = KL (Wx (Proc.devRef .tc main_v59)) (Wx (Proc.devRef .tc main_v16)) (Wx (Proc.devRef .tc main_v5))
        (Wx (Proc.devRef .tc main_v6)) (Wx (Proc.devRef .tc main_arg10)) := by
  rw [Cert.Bridge.Stretch.relu3 (StableHlo.after hostOps3 Wx), pre3 Wx]
  rfl

end Cert.Bridge.Layer

end
-- ==== Proof.LayerLawRead.lean ====
/-
  The second spelling of the graph-convolution layer is, word for word, what the reference program computes at each of its
  three layers: unfolding the stage definitions gives the same term, with the stage before the layer as the feature matrix H,
  the normalisation vector as D, the two index vectors as SF and DF, and the layer's bias as B.
-/
import proofs.«120951_j23605140259147_2_alg».proof.Proof.LayerLaw
import proofs.«120951_j23605140259147_2_alg».proof.Proof.RefReadP

noncomputable section

namespace Cert.Bridge.Layer

open Idealize.ShloMosaic Cert.ReferenceIdeal Cert.ReferenceIdeal.ReadP

/-- Layer 1 of the reference program is the second spelling. -/
theorem rl_is_v49 (x0 : (⟨S200000x128, .f32⟩ : BufTy).Contents (Elt Ideal)) (x1 : (⟨S2x800000, .i32⟩ : BufTy).Contents (Elt Ideal))
    (x5 : (⟨S128x256, .f32⟩ : BufTy).Contents (Elt Ideal)) (x6 : (⟨S256, .f32⟩ : BufTy).Contents (Elt Ideal)) :
    val_main_v49 (F := Ideal) x0 x1 x5 x6
      = RL (val_main_v32 (F := Ideal) x0 x5) (val_main_v16 (F := Ideal) x1) (val_main_v5 (F := Ideal) x1)
          (val_main_v6 (F := Ideal) x1) x6 := rfl

/-- Layer 2 of the reference program is the second spelling. -/
theorem rl_is_v67 (x0 : (⟨S200000x128, .f32⟩ : BufTy).Contents (Elt Ideal)) (x1 : (⟨S2x800000, .i32⟩ : BufTy).Contents (Elt Ideal))
    (x5 : (⟨S128x256, .f32⟩ : BufTy).Contents (Elt Ideal)) (x6 : (⟨S256, .f32⟩ : BufTy).Contents (Elt Ideal))
    (x7 : (⟨S256x256, .f32⟩ : BufTy).Contents (Elt Ideal)) (x8 : (⟨S256, .f32⟩ : BufTy).Contents (Elt Ideal)) :
    val_main_v67 (F := Ideal) x0 x1 x5 x6 x7 x8
      = RL (val_main_v50 (F := Ideal) x0 x1 x5 x6 x7) (val_main_v16 (F := Ideal) x1) (val_main_v5 (F := Ideal) x1)
          (val_main_v6 (F := Ideal) x1) x8 := rfl

/-- Layer 3 of the reference program is the second spelling. -/
theorem rl_is_v85 (x0 : (⟨S200000x128, .f32⟩ : BufTy).Contents (Elt Ideal)) (x1 : (⟨S2x800000, .i32⟩ : BufTy).Contents (Elt Ideal))
    (x5 : (⟨S128x256, .f32⟩ : BufTy).Contents (Elt Ideal)) (x6 : (⟨S256, .f32⟩ : BufTy).Contents (Elt Ideal))
    (x7 : (⟨S256x256, .f32⟩ : BufTy).Contents (Elt Ideal)) (x8 : (⟨S256, .f32⟩ : BufTy).Contents (Elt Ideal))
    (x9 : (⟨S256x256, .f32⟩ : BufTy).Contents (Elt Ideal)) (x10 : (⟨S256, .f32⟩ : BufTy).Contents (Elt Ideal)) :
    val_main_v85 (F := Ideal) x0 x1 x5 x6 x7 x8 x9 x10
      = RL (val_main_v68 (F := Ideal) x0 x1 x5 x6 x7 x8 x9) (val_main_v16 (F := Ideal) x1) (val_main_v5 (F := Ideal) x1)
          (val_main_v6 (F := Ideal) x1) x10 := rfl

end Cert.Bridge.Layer

end
-- ==== Proof.DinvFacts.lean ====
/-
  The degree normalisation is a nonnegative real number at every node.

  Both programs compute, from the target index words, deg = scatter-add of ones into zeros, and then
      D = select (deg > 0) (rsqrt (max deg 1)) 0.
  Whatever deg is at a node, max deg 1 is at least 1, so its reciprocal square root is a nonnegative real number (the
  reciprocal square root of ⊤ is 0); the other branch is the number 0.  So D is a nonnegative real at every node, with no
  fact about deg needed.
-/
import proofs.«120951_j23605140259147_2_alg».proof.Proof.RefReadP
import Idealize.ShloMosaic.PureOps.Ideal
import Idealize.ShloMosaic.PureOps.Ideal.Laws
import Idealize.ShloMosaic.Lib.ValueIdx

noncomputable section

namespace Cert.Bridge.Dinv

open Idealize.ShloMosaic Idealize.ShloMosaic.ValueIdx

/-- The f32 word 0x3F800000 is the number 1. -/
theorem ofBits_one_f32 : Ideal.ofBits .f32 0x3F800000#32 = (1 : EReal) := by
  have e1 : (BitVec.extractLsb' 31 1 (0x3F800000#32) == 1#1) = false := by decide
  have e2 : (BitVec.extractLsb' 23 8 (0x3F800000#32)).toNat = 127 := by decide
  have e3 : (BitVec.extractLsb' 0 23 (0x3F800000#32)).toNat = 0 := by decide
  simp only [Ideal.ofBits, Ideal.ieee, e1, e2, e3]
  norm_num

/-- The reciprocal square root of a positive extended real is a nonnegative real number (of ⊤ it is 0). -/
theorem rsqrt_nonneg_real_of_pos (y : EReal) (h : 0 < y) : ∃ r : ℝ, 0 ≤ r ∧ Ideal.rsqrt y = (r : EReal) := by
  induction y using EReal.rec with
  | bot => exact absurd h (not_lt.mpr bot_le)
  | top => exact ⟨0, le_rfl, by rw [Ideal.rsqrt_top, EReal.coe_zero]⟩
  | coe r =>
    have hr : 0 < r := EReal.coe_pos.mp h
    refine ⟨(Real.sqrt r)⁻¹, inv_nonneg.mpr (Real.sqrt_nonneg r), ?_⟩
    rw [Ideal.rsqrt_coe, if_neg (not_lt.mpr hr.le), if_neg hr.ne']

/-- THE NORMALISATION AT ONE NODE: whichever branch the select takes, and whatever the degree d is, the value is a nonnegative
    real — the reciprocal square root of max d 1 ≥ 1, or the number 0. -/
theorem dinvAt_nonneg_real (b : BitVec 1) (d : EReal) :
    ∃ r : ℝ, 0 ≤ r ∧ Scalar.select b (Ideal.rsqrt (max d (Ideal.ofBits .f32 0x3F800000#32))) (Ideal.ofBits .f32 0x00000000#32)
      = (r : EReal) := by
  unfold Scalar.select
  by_cases hb : b = 1
  · rw [if_pos hb, ofBits_one_f32]
    have h01 : (0 : EReal) < 1 := by exact_mod_cast (zero_lt_one : (0 : ℝ) < 1)
    exact rsqrt_nonneg_real_of_pos _ (lt_of_lt_of_le h01 (le_max_right d 1))
  · rw [if_neg hb, Ideal.ofBits_zero_f32]
    exact ⟨0, le_rfl, EReal.coe_zero.symm⟩

open Cert.ReferenceIdeal.ReadP in
/-- THE REFERENCE'S NORMALISATION VECTOR is a nonnegative real at every node n. -/
theorem dinv_nonneg_real (x1 : (⟨Cert.ReferenceIdeal.S2x800000, .i32⟩ : BufTy).Contents (Elt Ideal)) (n : Fin 200000) :
    ∃ r : ℝ, 0 ≤ r ∧ Cert.ReferenceIdeal.ReadP.val_main_v16 (F := Ideal) x1 (ix1 n) = (r : EReal) := by
  rw [val_main_v16_apply, val_main_v15_apply, val_main_v14_apply, val_main_v13_apply, val_main_cst_2_apply,
    val_main_call0_v1_apply, val_main_call0_v0_apply, val_main_cst_3_apply]
  generalize val_main_v12 (F := Ideal) x1 (ix1 n) = b
  generalize val_main_v10 (F := Ideal) x1 (ix1 n) = d
  exact dinvAt_nonneg_real b d

end Cert.Bridge.Dinv

end
-- ==== Proof.DenseValue1.lean ====
/-
  Region 1, the second dense layer's product: the array the pipeline leaves is the whole product of its two input arrays.
  The region multiplies a matrix X of 200000 rows and 256 columns by a matrix W of 256 rows and 256 columns, 4000 rows of
  X at a time: grid point t holds rows 4000 t … 4000 t + 3999 of X and all of W, and leaves in the output's block the
  product of the two, accumulated from zero.  Read at (p, q) that is the sum over k of X (4000 t + p, k) * W (k, q),
  the entry (4000 t + p, q) of the whole product X W.  The 50 blocks tile the 200000 rows exactly (row r lies in block
  r / 4000), so after the last point the output array is the whole product, for any contents the region is entered with.
-/
import proofs.«120951_j23605140259147_2_alg».proof.Proof.Gen.KernelIdeal.Frame
import proofs.«120951_j23605140259147_2_alg».proof.Proof.Gen.ReferenceIdeal
import proofs.«120951_j23605140259147_2_alg».proof.Proof.DenseCommon
import Idealize.ShloMosaic.Lib.Pipeline.Value

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.Bridge.Dense

open Cert.KernelIdeal Cert.KernelIdeal.Gen

variable (V : (c : Dev nD) → (b : Ref sig .tc) → Buf (Elt Ideal) ((c : Thread nD τ).loc b))

/-- The whole product X W of the two arrays the region reads, as the region finds them. -/
abbrev prod1 (c : Dev nD) : S200000x256.Idx → EReal :=
  Host.dotGeneral (F := Ideal) (φ₁ := .f32) (φ₂ := .f32) Cert.ReferenceIdeal.dot_S200000x256_S256x256_S200000x256_1_0_0_1_n_n none
    (V c main_v37 : S200000x256.Idx → EReal) (V c main_arg7 : S256x256.Idx → EReal)

/-- The block indices at grid point t: the row operand's and the output's blocks are block t of their arrays along the
    rows and the only block along the columns; the second operand's block is its whole array. -/
theorem block_indices1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p of the row operand's block at point t is row 4000 t + p of X. -/
theorem lhs_block1 (c : Dev nD) (t : Fin cfg1.N) (p : Fin 4000) (k : Fin 256) (P : Fin 200000)
    (hP : P.val = t.val * 4000 + p.val) :
    (iblk1 V c 0 t : S4000x256.Idx → EReal) (ix2 p k) = (V c main_v37 : S200000x256.Idx → EReal) (ix2 P k) := by
  obtain ⟨e0, e1, -⟩ := block_indices1 t
  unfold iblk1
  rw [View.read_apply]
  show V c main_v37 _ = V c main_v37 _
  congr 1
  funext a
  apply Fin.ext
  match a with
  | ⟨0, _⟩ => show win1_0.index t (0 : Fin 2) * 4000 + 1 * p.val = P.val; rw [e0, hP]; omega
  | ⟨1, _⟩ => show win1_0.index t (1 : Fin 2) * 256 + 1 * k.val = k.val; rw [e1]; omega

/-- The second operand's block at every point is all of W. -/
theorem rhs_block1 (c : Dev nD) (t : Fin cfg1.N) (k : Fin 256) (q : Fin 256) :
    (iblk1 V c 1 t : S256x256.Idx → EReal) (ix2 k q) = (V c main_arg7 : S256x256.Idx → EReal) (ix2 k q) := by
  obtain ⟨-, -, e2, e3, -⟩ := block_indices1 t
  unfold iblk1
  rw [View.read_apply]
  show V c main_arg7 _ = V c main_arg7 _
  congr 1
  funext a
  apply Fin.ext
  match a with
  | ⟨0, _⟩ => show win1_1.index t (0 : Fin 2) * 256 + 1 * k.val = k.val; rw [e2]; omega
  | ⟨1, _⟩ => show win1_1.index t (1 : Fin 2) * 256 + 1 * q.val = q.val; rw [e3]; omega

/-- What the body stores, read at (p, q): for a block x0 whose row p is row P of X and a block x1 that is W on column q,
    the entry (P, q) of the whole product. -/
theorem stored1_apply (x0 : Vec Ideal S4000x256 .f32) (x1 : Vec Ideal S256x256 .f32)
    (X : FVec Ideal S200000x256 .f32) (W : FVec Ideal S256x256 .f32) (p : Fin 4000) (q : Fin 256) (P : Fin 200000)
    (e0 : ∀ k : Fin 256, x0 (ix2 p k) = X (ix2 P k)) (e1 : ∀ k : Fin 256, x1 (ix2 k q) = W (ix2 k q)) :
    k1_pay1 x0 x1 (ix2 p q)
      = Host.dotGeneral (F := Ideal) (φ₁ := .f32) (φ₂ := .f32) Cert.ReferenceIdeal.dot_S200000x256_S256x256_S200000x256_1_0_0_1_n_n none X W (ix2 P q) :=
  block_product dot_S4000x256_S256x256_S4000x256_1_0_0_1_n_n rfl rfl rfl rfl rfl rfl
    Cert.ReferenceIdeal.dot_S200000x256_S256x256_S200000x256_1_0_0_1_n_n rfl rfl rfl rfl rfl rfl none none X W (shapeCast S4000x256 x0 shapeCasts_S4000x256_S4000x256) x1
    bitsLt_bf16_f32 bitsLt_bf16_f32 p q P (fun k => (congrFun (shapeCast_self x0 shapeCasts_S4000x256_S4000x256) (ix2 p k)).trans (e0 k)) e1

/-- WHAT POINT t WRITES BACK is block t of the whole product. -/
theorem flushed_eq1 (c : Dev nD) (t : Fin cfg1.N) :
    (dat1 V c).flushed 2 t = ((cfg1.win 2).blk t).view.read (Elt Ideal) (prod1 V c) := by
  have hN : cfg1.N = 50 := N_1
  have ht : t.val < 50 := lt_of_lt_of_eq t.isLt hN
  show (cfg1.win 2).cut (grid1.coords t) ((dat1 V c).after 2 t) = _
  rw [after1_2]
  unfold out1_2
  rw [View.canon_unit_zero zero_offsets]
  simp only [View.ld_unit_zero (S := S4000x256) zero_offsets, View.ld_unit_zero (S := S256x256) zero_offsets]
  funext j
  obtain ⟨p, q, rfl⟩ : ∃ (p : Fin 4000) (q : Fin 256), j = ix2 p q := ⟨j 0, j 1, eq_ix2 j⟩
  have hP : t.val * 4000 + p.val < 200000 := by have := p.isLt; omega
  obtain ⟨-, -, -, -, e4, e5⟩ := block_indices1 t
  show k1_pay1 (iblk1 V c 0 t) (iblk1 V c 1 t) (ix2 p q) = _
  refine (stored1_apply (iblk1 V c 0 t) (iblk1 V c 1 t) (V c main_v37) (V c main_arg7) p q ⟨t.val * 4000 + p.val, hP⟩
    (fun k => lhs_block1 V c t p k ⟨t.val * 4000 + p.val, hP⟩ rfl) (fun k => rhs_block1 V c t k q)).trans ?_
  rw [View.read_apply]
  show prod1 V c _ = prod1 V c _
  congr 1
  funext a
  apply Fin.ext
  match a with
  | ⟨0, _⟩ => show t.val * 4000 + p.val = win1_2.index t (0 : Fin 2) * 4000 + 1 * p.val; rw [e4]; omega
  | ⟨1, _⟩ => show q.val = win1_2.index t (1 : Fin 2) * 256 + 1 * q.val; rw [e5]; omega

/-- Every entry of the output array is in some point's block: row r is in block r / 4000. -/
theorem covered1 (i : S200000x256.Idx) :
    ∃ t : Fin cfg1.N, (cfg1.win 2).flush t = true ∧ i ∈ ((cfg1.win 2).blk t).view.set := by
  have hN : cfg1.N = 50 := N_1
  have hi0 : (i 0).val < 200000 := (i 0).isLt
  have hi1 : (i 1).val < 256 := (i 1).isLt
  have hq : (i 0).val / 4000 < cfg1.N := by rw [hN]; omega
  refine ⟨⟨(i 0).val / 4000, hq⟩, flush1_2 _, ?_⟩
  obtain ⟨-, -, -, -, e4, e5⟩ := block_indices1 ⟨(i 0).val / 4000, hq⟩
  show i ∈ ((View.whole main_v38).slice (win1_2.rect ⟨(i 0).val / 4000, hq⟩)).set
  rw [View.set_slice_whole, Rect.mem_set_unit]
  intro a
  match a with
  | ⟨0, _⟩ =>
    show win1_2.index ⟨(i 0).val / 4000, hq⟩ (0 : Fin 2) * 4000 ≤ (i 0).val
      ∧ (i 0).val < win1_2.index ⟨(i 0).val / 4000, hq⟩ (0 : Fin 2) * 4000 + 4000
    rw [e4]; show (i 0).val / 4000 * 4000 ≤ (i 0).val ∧ (i 0).val < (i 0).val / 4000 * 4000 + 4000; omega
  | ⟨1, _⟩ =>
    show win1_2.index ⟨(i 0).val / 4000, hq⟩ (1 : Fin 2) * 256 ≤ (i 1).val
      ∧ (i 1).val < win1_2.index ⟨(i 0).val / 4000, hq⟩ (1 : Fin 2) * 256 + 256
    rw [e5]; omega

/-- THE OUTPUT ARRAY after the region is the whole product of the two arrays it read. -/
theorem dense1 (c : Dev nD) :
    (dat1 (F := Ideal) V c).arrAt 2 cfg1.N
      = Host.dotGeneral (F := Ideal) (φ₁ := .f32) (φ₂ := .f32) Cert.ReferenceIdeal.dot_S200000x256_S256x256_S200000x256_1_0_0_1_n_n none
          (V c main_v37) (V c main_arg7) :=
  (dat1 V c).arrAt_eq_of_cover 2 (prod1 V c) (fun t _ => flushed_eq1 V c t) (covered1)

end Cert.Bridge.Dense

end
-- ==== Proof.K2.lean ====
/-
  Graph-convolution layer 1 of the idealized kernel program and the dense product that follows it. The kernel
  scales the rows by the degree normalisation before the gather and after the scatter-add; the reference scales
  each edge's message by the product of the two normalisations. The two agree because the normalisation is a
  nonnegative real, which distributes over the sum of the incoming messages, and because an edge whose target
  is node n reads the normalisation of n. So the layer's result is the reference's stage, and the next region's
  output is the reference's next matrix product.
-/
import proofs.«120951_j23605140259147_2_alg».proof.Proof.KWalk
import proofs.«120951_j23605140259147_2_alg».proof.Proof.Stretch
import proofs.«120951_j23605140259147_2_alg».proof.Proof.K1
import proofs.«120951_j23605140259147_2_alg».proof.Proof.LayerLaw
import proofs.«120951_j23605140259147_2_alg».proof.Proof.LayerStretch
import proofs.«120951_j23605140259147_2_alg».proof.Proof.LayerLawRead
import proofs.«120951_j23605140259147_2_alg».proof.Proof.DinvFacts
import proofs.«120951_j23605140259147_2_alg».proof.Proof.DenseValue1

set_option maxRecDepth 16384

noncomputable section

namespace Cert.Bridge.K2

open Cert.KernelIdeal Cert.KernelIdeal.Gen Idealize.ShloMosaic Idealize.ShloMosaic.TcCoe Idealize.SL.Sem Idealize.ShloMosaic.StableHlo
open Cert.ReferenceIdeal.ReadP (val_main_v16 val_main_v5 val_main_v6 val_main_v32 val_main_v49 val_main_v50)

variable (m : (ℓ : Loc nD τ sig) → Buf (Elt Ideal) ℓ) (ρ : Dev nD → PrngReg) (c : Dev nD)

set_option maxHeartbeats 8000000 in
/-- The layer as the kernel program spells it, over the previous region's exit contents. -/
theorem layer_term : W5 m ρ c (Proc.devRef .tc main_v37)
    = Cert.Bridge.Layer.KL (W3 m ρ c (Proc.devRef .tc main_v17)) (W3 m ρ c (Proc.devRef .tc main_v16))
        (W3 m ρ c (Proc.devRef .tc main_v5)) (W3 m ρ c (Proc.devRef .tc main_v6)) (W3 m ρ c (Proc.devRef .tc main_arg6)) := by
  exact Cert.Bridge.Layer.layer_stretch1 (W3 m ρ c)

/-- The layer's result is the reference's stage. -/
theorem layer_out : W5 m ρ c (Proc.devRef .tc main_v37) = val_main_v49 (F := Ideal) (m ((c : Thread nD τ).loc main_arg0)) (m ((c : Thread nD τ).loc main_arg1)) (m ((c : Thread nD τ).loc main_arg5)) (m ((c : Thread nD τ).loc main_arg6)) := by
  rw [layer_term, K1.w3_v17 m ρ c, K1.w3_v16 m ρ c, K1.w3_v5 m ρ c, K1.w3_v6 m ρ c, K1.w3_arg6 m ρ c,
    Cert.Bridge.Layer.layer_law _ _ _ _ _ (fun n => Cert.Bridge.Dinv.dinv_nonneg_real _ n)]
  exact (Cert.Bridge.Layer.rl_is_v49 _ _ _ _).symm

set_option maxHeartbeats 8000000 in
theorem win_weight : W5 m ρ c (Proc.devRef .tc main_arg7) = m ((c : Thread nD τ).loc main_arg7) := by
  have h : W5 m ρ c (Proc.devRef .tc main_arg7) = W3 m ρ c (Proc.devRef .tc main_arg7) := by after_results
  rw [h, K1.w3_arg7 m ρ c]

/-- The next region leaves the reference's next product. -/
theorem dense_out : W6 m ρ c (Proc.devRef .tc main_v38) = val_main_v50 (F := Ideal) (m ((c : Thread nD τ).loc main_arg0)) (m ((c : Thread nD τ).loc main_arg1)) (m ((c : Thread nD τ).loc main_arg5)) (m ((c : Thread nD τ).loc main_arg6)) (m ((c : Thread nD τ).loc main_arg7)) := by
  refine (W6_arr m ρ c 2).trans ((Cert.Bridge.Dense.dense1 (V5 m ρ) c).trans ?_)
  show Host.dotGeneral (F := Ideal) (φ₁ := .f32) (φ₂ := .f32) _ none (W5 m ρ c (Proc.devRef .tc main_v37)) (W5 m ρ c (Proc.devRef .tc main_arg7)) = _
  rw [layer_out, win_weight]
  rfl

/-- What the next layer reads besides the product: the normalisation, the index vectors, its bias and the next weights,
    none of them touched by this layer's operations or by the region. -/
theorem exit_v16 : W6 m ρ c (Proc.devRef .tc main_v16) = val_main_v16 (F := Ideal) (m ((c : Thread nD τ).loc main_arg1)) := by
  rw [W6_of_ne m ρ c main_v16 (by decide)]
  have h : W5 m ρ c (Proc.devRef .tc main_v16) = W3 m ρ c (Proc.devRef .tc main_v16) := by after_results
  rw [h, K1.w3_v16 m ρ c]
theorem exit_v5 : W6 m ρ c (Proc.devRef .tc main_v5) = val_main_v5 (F := Ideal) (m ((c : Thread nD τ).loc main_arg1)) := by
  rw [W6_of_ne m ρ c main_v5 (by decide)]
  have h : W5 m ρ c (Proc.devRef .tc main_v5) = W3 m ρ c (Proc.devRef .tc main_v5) := by after_results
  rw [h, K1.w3_v5 m ρ c]
theorem exit_v6 : W6 m ρ c (Proc.devRef .tc main_v6) = val_main_v6 (F := Ideal) (m ((c : Thread nD τ).loc main_arg1)) := by
  rw [W6_of_ne m ρ c main_v6 (by decide)]
  have h : W5 m ρ c (Proc.devRef .tc main_v6) = W3 m ρ c (Proc.devRef .tc main_v6) := by after_results
  rw [h, K1.w3_v6 m ρ c]
set_option maxHeartbeats 8000000 in
theorem exit_bias : W6 m ρ c (Proc.devRef .tc main_arg8) = m ((c : Thread nD τ).loc main_arg8) := by walk_back
set_option maxHeartbeats 8000000 in
theorem exit_weight : W6 m ρ c (Proc.devRef .tc main_arg9) = m ((c : Thread nD τ).loc main_arg9) := by walk_back

end Cert.Bridge.K2

end
-- ==== Proof.DenseValue2.lean ====
/-
  Region 2, the third dense layer's product: the array the pipeline leaves is the whole product of its two input arrays.
  The region multiplies a matrix X of 200000 rows and 256 columns by a matrix W of 256 rows and 256 columns, 4000 rows of
  X at a time: grid point t holds rows 4000 t … 4000 t + 3999 of X and all of W, and leaves in the output's block the
  product of the two, accumulated from zero.  Read at (p, q) that is the sum over k of X (4000 t + p, k) * W (k, q),
  the entry (4000 t + p, q) of the whole product X W.  The 50 blocks tile the 200000 rows exactly (row r lies in block
  r / 4000), so after the last point the output array is the whole product, for any contents the region is entered with.
-/
import proofs.«120951_j23605140259147_2_alg».proof.Proof.Gen.KernelIdeal.Frame
import proofs.«120951_j23605140259147_2_alg».proof.Proof.Gen.ReferenceIdeal
import proofs.«120951_j23605140259147_2_alg».proof.Proof.DenseCommon
import Idealize.ShloMosaic.Lib.Pipeline.Value

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.Bridge.Dense

open Cert.KernelIdeal Cert.KernelIdeal.Gen

variable (V : (c : Dev nD) → (b : Ref sig .tc) → Buf (Elt Ideal) ((c : Thread nD τ).loc b))

/-- The whole product X W of the two arrays the region reads, as the region finds them. -/
abbrev prod2 (c : Dev nD) : S200000x256.Idx → EReal :=
  Host.dotGeneral (F := Ideal) (φ₁ := .f32) (φ₂ := .f32) Cert.ReferenceIdeal.dot_S200000x256_S256x256_S200000x256_1_0_0_1_n_n none
    (V c main_v58 : S200000x256.Idx → EReal) (V c main_arg9 : S256x256.Idx → EReal)

/-- The block indices at grid point t: the row operand's and the output's blocks are block t of their arrays along the
    rows and the only block along the columns; the second operand's block is its whole array. -/
theorem block_indices2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p of the row operand's block at point t is row 4000 t + p of X. -/
theorem lhs_block2 (c : Dev nD) (t : Fin cfg2.N) (p : Fin 4000) (k : Fin 256) (P : Fin 200000)
    (hP : P.val = t.val * 4000 + p.val) :
    (iblk2 V c 0 t : S4000x256.Idx → EReal) (ix2 p k) = (V c main_v58 : S200000x256.Idx → EReal) (ix2 P k) := by
  obtain ⟨e0, e1, -⟩ := block_indices2 t
  unfold iblk2
  rw [View.read_apply]
  show V c main_v58 _ = V c main_v58 _
  congr 1
  funext a
  apply Fin.ext
  match a with
  | ⟨0, _⟩ => show win2_0.index t (0 : Fin 2) * 4000 + 1 * p.val = P.val; rw [e0, hP]; omega
  | ⟨1, _⟩ => show win2_0.index t (1 : Fin 2) * 256 + 1 * k.val = k.val; rw [e1]; omega

/-- The second operand's block at every point is all of W. -/
theorem rhs_block2 (c : Dev nD) (t : Fin cfg2.N) (k : Fin 256) (q : Fin 256) :
    (iblk2 V c 1 t : S256x256.Idx → EReal) (ix2 k q) = (V c main_arg9 : S256x256.Idx → EReal) (ix2 k q) := by
  obtain ⟨-, -, e2, e3, -⟩ := block_indices2 t
  unfold iblk2
  rw [View.read_apply]
  show V c main_arg9 _ = V c main_arg9 _
  congr 1
  funext a
  apply Fin.ext
  match a with
  | ⟨0, _⟩ => show win2_1.index t (0 : Fin 2) * 256 + 1 * k.val = k.val; rw [e2]; omega
  | ⟨1, _⟩ => show win2_1.index t (1 : Fin 2) * 256 + 1 * q.val = q.val; rw [e3]; omega

/-- What the body stores, read at (p, q): for a block x0 whose row p is row P of X and a block x1 that is W on column q,
    the entry (P, q) of the whole product. -/
theorem stored2_apply (x0 : Vec Ideal S4000x256 .f32) (x1 : Vec Ideal S256x256 .f32)
    (X : FVec Ideal S200000x256 .f32) (W : FVec Ideal S256x256 .f32) (p : Fin 4000) (q : Fin 256) (P : Fin 200000)
    (e0 : ∀ k : Fin 256, x0 (ix2 p k) = X (ix2 P k)) (e1 : ∀ k : Fin 256, x1 (ix2 k q) = W (ix2 k q)) :
    k2_pay1 x0 x1 (ix2 p q)
      = Host.dotGeneral (F := Ideal) (φ₁ := .f32) (φ₂ := .f32) Cert.ReferenceIdeal.dot_S200000x256_S256x256_S200000x256_1_0_0_1_n_n none X W (ix2 P q) :=
  block_product dot_S4000x256_S256x256_S4000x256_1_0_0_1_n_n rfl rfl rfl rfl rfl rfl
    Cert.ReferenceIdeal.dot_S200000x256_S256x256_S200000x256_1_0_0_1_n_n rfl rfl rfl rfl rfl rfl none none X W (shapeCast S4000x256 x0 shapeCasts_S4000x256_S4000x256) x1
    bitsLt_bf16_f32 bitsLt_bf16_f32 p q P (fun k => (congrFun (shapeCast_self x0 shapeCasts_S4000x256_S4000x256) (ix2 p k)).trans (e0 k)) e1

/-- WHAT POINT t WRITES BACK is block t of the whole product. -/
theorem flushed_eq2 (c : Dev nD) (t : Fin cfg2.N) :
    (dat2 V c).flushed 2 t = ((cfg2.win 2).blk t).view.read (Elt Ideal) (prod2 V c) := by
  have hN : cfg2.N = 50 := N_2
  have ht : t.val < 50 := lt_of_lt_of_eq t.isLt hN
  show (cfg2.win 2).cut (grid2.coords t) ((dat2 V c).after 2 t) = _
  rw [after2_2]
  unfold out2_2
  rw [View.canon_unit_zero zero_offsets]
  simp only [View.ld_unit_zero (S := S4000x256) zero_offsets, View.ld_unit_zero (S := S256x256) zero_offsets]
  funext j
  obtain ⟨p, q, rfl⟩ : ∃ (p : Fin 4000) (q : Fin 256), j = ix2 p q := ⟨j 0, j 1, eq_ix2 j⟩
  have hP : t.val * 4000 + p.val < 200000 := by have := p.isLt; omega
  obtain ⟨-, -, -, -, e4, e5⟩ := block_indices2 t
  show k2_pay1 (iblk2 V c 0 t) (iblk2 V c 1 t) (ix2 p q) = _
  refine (stored2_apply (iblk2 V c 0 t) (iblk2 V c 1 t) (V c main_v58) (V c main_arg9) p q ⟨t.val * 4000 + p.val, hP⟩
    (fun k => lhs_block2 V c t p k ⟨t.val * 4000 + p.val, hP⟩ rfl) (fun k => rhs_block2 V c t k q)).trans ?_
  rw [View.read_apply]
  show prod2 V c _ = prod2 V c _
  congr 1
  funext a
  apply Fin.ext
  match a with
  | ⟨0, _⟩ => show t.val * 4000 + p.val = win2_2.index t (0 : Fin 2) * 4000 + 1 * p.val; rw [e4]; omega
  | ⟨1, _⟩ => show q.val = win2_2.index t (1 : Fin 2) * 256 + 1 * q.val; rw [e5]; omega

/-- Every entry of the output array is in some point's block: row r is in block r / 4000. -/
theorem covered2 (i : S200000x256.Idx) :
    ∃ t : Fin cfg2.N, (cfg2.win 2).flush t = true ∧ i ∈ ((cfg2.win 2).blk t).view.set := by
  have hN : cfg2.N = 50 := N_2
  have hi0 : (i 0).val < 200000 := (i 0).isLt
  have hi1 : (i 1).val < 256 := (i 1).isLt
  have hq : (i 0).val / 4000 < cfg2.N := by rw [hN]; omega
  refine ⟨⟨(i 0).val / 4000, hq⟩, flush2_2 _, ?_⟩
  obtain ⟨-, -, -, -, e4, e5⟩ := block_indices2 ⟨(i 0).val / 4000, hq⟩
  show i ∈ ((View.whole main_v59).slice (win2_2.rect ⟨(i 0).val / 4000, hq⟩)).set
  rw [View.set_slice_whole, Rect.mem_set_unit]
  intro a
  match a with
  | ⟨0, _⟩ =>
    show win2_2.index ⟨(i 0).val / 4000, hq⟩ (0 : Fin 2) * 4000 ≤ (i 0).val
      ∧ (i 0).val < win2_2.index ⟨(i 0).val / 4000, hq⟩ (0 : Fin 2) * 4000 + 4000
    rw [e4]; show (i 0).val / 4000 * 4000 ≤ (i 0).val ∧ (i 0).val < (i 0).val / 4000 * 4000 + 4000; omega
  | ⟨1, _⟩ =>
    show win2_2.index ⟨(i 0).val / 4000, hq⟩ (1 : Fin 2) * 256 ≤ (i 1).val
      ∧ (i 1).val < win2_2.index ⟨(i 0).val / 4000, hq⟩ (1 : Fin 2) * 256 + 256
    rw [e5]; omega

/-- THE OUTPUT ARRAY after the region is the whole product of the two arrays it read. -/
theorem dense2 (c : Dev nD) :
    (dat2 (F := Ideal) V c).arrAt 2 cfg2.N
      = Host.dotGeneral (F := Ideal) (φ₁ := .f32) (φ₂ := .f32) Cert.ReferenceIdeal.dot_S200000x256_S256x256_S200000x256_1_0_0_1_n_n none
          (V c main_v58) (V c main_arg9) :=
  (dat2 V c).arrAt_eq_of_cover 2 (prod2 V c) (fun t _ => flushed_eq2 V c t) (covered2)

end Cert.Bridge.Dense

end
-- ==== Proof.K3.lean ====
/-
  Graph-convolution layer 2 of the idealized kernel program and the dense product that follows it. The kernel
  scales the rows by the degree normalisation before the gather and after the scatter-add; the reference scales
  each edge's message by the product of the two normalisations. The two agree because the normalisation is a
  nonnegative real, which distributes over the sum of the incoming messages, and because an edge whose target
  is node n reads the normalisation of n. So the layer's result is the reference's stage, and the next region's
  output is the reference's next matrix product.
-/
import proofs.«120951_j23605140259147_2_alg».proof.Proof.KWalk
import proofs.«120951_j23605140259147_2_alg».proof.Proof.Stretch
import proofs.«120951_j23605140259147_2_alg».proof.Proof.K2
import proofs.«120951_j23605140259147_2_alg».proof.Proof.LayerLaw
import proofs.«120951_j23605140259147_2_alg».proof.Proof.LayerStretch
import proofs.«120951_j23605140259147_2_alg».proof.Proof.LayerLawRead
import proofs.«120951_j23605140259147_2_alg».proof.Proof.DinvFacts
import proofs.«120951_j23605140259147_2_alg».proof.Proof.DenseValue2

set_option maxRecDepth 16384

noncomputable section

namespace Cert.Bridge.K3

open Cert.KernelIdeal Cert.KernelIdeal.Gen Idealize.ShloMosaic Idealize.ShloMosaic.TcCoe Idealize.SL.Sem Idealize.ShloMosaic.StableHlo
open Cert.ReferenceIdeal.ReadP (val_main_v16 val_main_v5 val_main_v6 val_main_v50 val_main_v67 val_main_v68)

variable (m : (ℓ : Loc nD τ sig) → Buf (Elt Ideal) ℓ) (ρ : Dev nD → PrngReg) (c : Dev nD)

set_option maxHeartbeats 8000000 in
/-- The layer as the kernel program spells it, over the previous region's exit contents. -/
theorem layer_term : W8 m ρ c (Proc.devRef .tc main_v58)
    = Cert.Bridge.Layer.KL (W6 m ρ c (Proc.devRef .tc main_v38)) (W6 m ρ c (Proc.devRef .tc main_v16))
        (W6 m ρ c (Proc.devRef .tc main_v5)) (W6 m ρ c (Proc.devRef .tc main_v6)) (W6 m ρ c (Proc.devRef .tc main_arg8)) := by
  exact Cert.Bridge.Layer.layer_stretch2 (W6 m ρ c)

/-- The layer's result is the reference's stage. -/
theorem layer_out : W8 m ρ c (Proc.devRef .tc main_v58) = val_main_v67 (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) := by
  rw [layer_term, K2.dense_out m ρ c, K2.exit_v16 m ρ c, K2.exit_v5 m ρ c, K2.exit_v6 m ρ c, K2.exit_bias m ρ c,
    Cert.Bridge.Layer.layer_law _ _ _ _ _ (fun n => Cert.Bridge.Dinv.dinv_nonneg_real _ n)]
  exact (Cert.Bridge.Layer.rl_is_v67 _ _ _ _ _ _).symm

set_option maxHeartbeats 8000000 in
theorem win_weight : W8 m ρ c (Proc.devRef .tc main_arg9) = m ((c : Thread nD τ).loc main_arg9) := by
  have h : W8 m ρ c (Proc.devRef .tc main_arg9) = W6 m ρ c (Proc.devRef .tc main_arg9) := by after_results
  rw [h, K2.exit_weight m ρ c]

/-- The next region leaves the reference's next product. -/
theorem dense_out : W9 m ρ c (Proc.devRef .tc main_v59) = val_main_v68 (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W9_arr m ρ c 2).trans ((Cert.Bridge.Dense.dense2 (V8 m ρ) c).trans ?_)
  show Host.dotGeneral (F := Ideal) (φ₁ := .f32) (φ₂ := .f32) _ none (W8 m ρ c (Proc.devRef .tc main_v58)) (W8 m ρ c (Proc.devRef .tc main_arg9)) = _
  rw [layer_out, win_weight]
  rfl

/-- What the next layer reads besides the product: the normalisation, the index vectors, its bias and the next weights,
    none of them touched by this layer's operations or by the region. -/
theorem exit_v16 : W9 m ρ c (Proc.devRef .tc main_v16) = val_main_v16 (F := Ideal) (m ((c : Thread nD τ).loc main_arg1)) := by
  rw [W9_of_ne m ρ c main_v16 (by decide)]
  have h : W8 m ρ c (Proc.devRef .tc main_v16) = W6 m ρ c (Proc.devRef .tc main_v16) := by after_results
  rw [h, K2.exit_v16 m ρ c]
theorem exit_v5 : W9 m ρ c (Proc.devRef .tc main_v5) = val_main_v5 (F := Ideal) (m ((c : Thread nD τ).loc main_arg1)) := by
  rw [W9_of_ne m ρ c main_v5 (by decide)]
  have h : W8 m ρ c (Proc.devRef .tc main_v5) = W6 m ρ c (Proc.devRef .tc main_v5) := by after_results
  rw [h, K2.exit_v5 m ρ c]
theorem exit_v6 : W9 m ρ c (Proc.devRef .tc main_v6) = val_main_v6 (F := Ideal) (m ((c : Thread nD τ).loc main_arg1)) := by
  rw [W9_of_ne m ρ c main_v6 (by decide)]
  have h : W8 m ρ c (Proc.devRef .tc main_v6) = W6 m ρ c (Proc.devRef .tc main_v6) := by after_results
  rw [h, K2.exit_v6 m ρ c]
set_option maxHeartbeats 8000000 in
theorem exit_bias : W9 m ρ c (Proc.devRef .tc main_arg10) = m ((c : Thread nD τ).loc main_arg10) := by walk_back

end Cert.Bridge.K3

end
-- ==== Proof.PoolStretch.lean ====
/-
  The mean pool and the temperature-scaled row normalisation, each named once as a function of the arrays it reads.
  POOL H b: the rows of H summed into the 1024 rows their batch index b names, each divided by the number of rows
  summed there, that number taken as at least one.  SCALED P t: every row of P divided by its Euclidean norm, the norm
  taken as at least 1e-12, and then by the temperature t, taken as at least 1e-4.  The reference program computes
  exactly these two compositions; the idealized kernel program computes them in host stretches, read here over an
  arbitrary valuation so that the buffers read stay opaque.
-/
import proofs.«120951_j23605140259147_2_alg».proof.Proof.Stretch
import proofs.«120951_j23605140259147_2_alg».proof.Proof.RefReadP

set_option maxRecDepth 16384

noncomputable section

namespace Cert.Bridge.Pool

section Spec

open Cert.ReferenceIdeal Cert.ReferenceIdeal.Gen Cert.ReferenceIdeal.ReadP Idealize.ShloMosaic Idealize.ShloMosaic.TcCoe Idealize.SL.Sem Idealize.ShloMosaic.StableHlo

/-- The mean pool: the scatter-sum of the rows of `H` by batch index, over the scatter-count of the rows by batch
    index, the count taken as at least one and laid along each row. -/
def POOL (H : (⟨S200000x256, .f32⟩ : BufTy).Contents (Elt Ideal)) (x2 : (⟨S200000, .i32⟩ : BufTy).Contents (Elt Ideal)) :
    (⟨S1024x256, .f32⟩ : BufTy).Contents (Elt Ideal) :=
  Host.divf
    (Host.scatterAdd scatter_S1024x256_S200000x1_S200000x256_1_0_0_1
      (broadcastInDim S1024x256 ![] bcast_S_S1024x256 (constant (F := Ideal) S_ .f32 0x00000000#32))
      (broadcastInDim S200000x1 ![0] bcast_S200000_S200000x1_0 x2)
      H)
    (broadcastInDim S1024x256 ![0, 1] bcast_S1024x1_S1024x256_0_1
      (broadcastInDim S1024x1 ![0] bcast_S1024_S1024x1_0
        (maximumf
          (Host.scatterAdd scatter_S1024_S200000x1_S200000_n_0_0_1
            (broadcastInDim S1024 ![] bcast_S_S1024 (constant (F := Ideal) S_ .f32 0x00000000#32))
            (broadcastInDim S200000x1 ![0] bcast_S200000_S200000x1_0 x2)
            (broadcastInDim S200000 ![] bcast_S_S200000 (constant (F := Ideal) S_ .f32 0x3F800000#32)))
          (broadcastInDim S1024 ![] bcast_S_S1024 (constant (F := Ideal) S_ .f32 0x3F800000#32)))))

/-- The row normalisation followed by the temperature: `P` over its rows' norms (at least 1e-12), over the
    temperature (at least 1e-4). -/
def SCALED (P : (⟨S1024x256, .f32⟩ : BufTy).Contents (Elt Ideal)) (t : (⟨S_, .f32⟩ : BufTy).Contents (Elt Ideal)) :
    (⟨S1024x256, .f32⟩ : BufTy).Contents (Elt Ideal) :=
  Host.divf
    (Host.divf P
      (broadcastInDim S1024x256 ![0, 1] bcast_S1024x1_S1024x256_0_1
        (maximumf
          (Host.sqrt (broadcastInDim S1024x1 ![0] bcast_S1024_S1024x1_0
            (Host.reduceAdd (mulf P P) (constant (F := Ideal) S_ .f32 0x00000000#32) reducesTo_S1024x256_S1024_d1 h_S_)))
          (broadcastInDim S1024x1 ![] bcast_S_S1024x1 (constant (F := Ideal) S_ .f32 0x2B8CBCCC#32)))))
    (broadcastInDim S1024x256 ![] bcast_S_S1024x256 (maximumf t (constant (F := Ideal) S_ .f32 0x38D1B717#32)))

/-- The reference program's pooled state is the mean pool of its third layer's output. -/
theorem pool_ref (x0 : (⟨S200000x128, .f32⟩ : BufTy).Contents (Elt Ideal)) (x1 : (⟨S2x800000, .i32⟩ : BufTy).Contents (Elt Ideal))
    (x2 : (⟨S200000, .i32⟩ : BufTy).Contents (Elt Ideal)) (x5 : (⟨S128x256, .f32⟩ : BufTy).Contents (Elt Ideal))
    (x6 : (⟨S256, .f32⟩ : BufTy).Contents (Elt Ideal)) (x7 : (⟨S256x256, .f32⟩ : BufTy).Contents (Elt Ideal))
    (x8 : (⟨S256, .f32⟩ : BufTy).Contents (Elt Ideal)) (x9 : (⟨S256x256, .f32⟩ : BufTy).Contents (Elt Ideal))
    (x10 : (⟨S256, .f32⟩ : BufTy).Contents (Elt Ideal)) :
    val_main_v97 (F := Ideal) x0 x1 x2 x5 x6 x7 x8 x9 x10
      = POOL (val_main_v85 (F := Ideal) x0 x1 x5 x6 x7 x8 x9 x10) x2 := rfl

/-- The reference program's normalised state over its temperature is the scaled normalisation of its pooled state. -/
theorem scaled_ref (x0 : (⟨S200000x128, .f32⟩ : BufTy).Contents (Elt Ideal)) (x1 : (⟨S2x800000, .i32⟩ : BufTy).Contents (Elt Ideal))
    (x2 : (⟨S200000, .i32⟩ : BufTy).Contents (Elt Ideal)) (x5 : (⟨S128x256, .f32⟩ : BufTy).Contents (Elt Ideal))
    (x6 : (⟨S256, .f32⟩ : BufTy).Contents (Elt Ideal)) (x7 : (⟨S256x256, .f32⟩ : BufTy).Contents (Elt Ideal))
    (x8 : (⟨S256, .f32⟩ : BufTy).Contents (Elt Ideal)) (x9 : (⟨S256x256, .f32⟩ : BufTy).Contents (Elt Ideal))
    (x10 : (⟨S256, .f32⟩ : BufTy).Contents (Elt Ideal)) (x15 : (⟨S_, .f32⟩ : BufTy).Contents (Elt Ideal)) :
    SCALED (val_main_v97 (F := Ideal) x0 x1 x2 x5 x6 x7 x8 x9 x10) x15
      = Host.divf (F := Ideal) (φ := .f32) (val_main_v102 (F := Ideal) x0 x1 x2 x5 x6 x7 x8 x9 x10)
          (broadcastInDim Cert.ReferenceIdeal.S1024x256 ![] Cert.ReferenceIdeal.Gen.bcast_S_S1024x256 (val_main_v108 (F := Ideal) x15)) := rfl

end Spec

section Kernel

open Cert.KernelIdeal Cert.KernelIdeal.Gen Idealize.ShloMosaic Idealize.ShloMosaic.TcCoe Idealize.SL.Sem Idealize.ShloMosaic.StableHlo

variable (Wx : Valuation τ sig (Elt Ideal))

/-- The pooling stretch leaves the mean pool of the third layer's output. -/
theorem pool_stretch : StableHlo.after hostOps3_2 Wx (Proc.devRef .tc main_v91)
    = POOL (Wx (Proc.devRef .tc main_v79)) (Wx (Proc.devRef .tc main_arg2)) := by
  after_results <;> rfl

/-- The row-norm stretch does not write the pooled state … -/
theorem norm_keeps_pool : StableHlo.after hostOps3_3 Wx (Proc.devRef .tc main_v91) = Wx (Proc.devRef .tc main_v91) := by
  after_results

/-- … nor the temperature. -/
theorem norm_keeps_temp : StableHlo.after hostOps3_3 Wx (Proc.devRef .tc main_arg15) = Wx (Proc.devRef .tc main_arg15) := by
  after_results

/-- The scaling stretch: the pooled state over the row norms (at least 1e-12), over the temperature (at least 1e-4). -/
theorem scale_stretch : StableHlo.after hostOps3_4 Wx (Proc.devRef .tc main_v99)
    = Host.divf
        (Host.divf (Wx (Proc.devRef .tc main_v91))
          (broadcastInDim S1024x256 ![0, 1] bcast_S1024x1_S1024x256_0_1
            (maximumf (Wx (Proc.devRef .tc main_v92))
              (broadcastInDim S1024x1 ![] bcast_S_S1024x1 (constant (F := Ideal) S_ .f32 0x2B8CBCCC#32)))))
        (broadcastInDim S1024x256 ![] bcast_S_S1024x256
          (maximumf (Wx (Proc.devRef .tc main_arg15)) (constant (F := Ideal) S_ .f32 0x38D1B717#32))) := by
  after_results <;> rfl

/-- The scaling stretch does not write the pooled state. -/
theorem scale_keeps_pool : StableHlo.after hostOps3_4 Wx (Proc.devRef .tc main_v91) = Wx (Proc.devRef .tc main_v91) := by
  after_results

/-- The padding stretch writes neither the scaled state … -/
theorem pad_keeps_scaled : StableHlo.after hostOps3_5 Wx (Proc.devRef .tc main_v99) = Wx (Proc.devRef .tc main_v99) := by
  after_results

/-- … nor the pooled state. -/
theorem pad_keeps_pool : StableHlo.after hostOps3_5 Wx (Proc.devRef .tc main_v91) = Wx (Proc.devRef .tc main_v91) := by
  after_results

/-- The three stretches after the pooling leave the scaled normalisation of the pooled state. -/
theorem scaled_stretch :
    StableHlo.after hostOps3_5 (StableHlo.after hostOps3_4 (StableHlo.after hostOps3_3 Wx)) (Proc.devRef .tc main_v99)
      = SCALED (Wx (Proc.devRef .tc main_v91)) (Wx (Proc.devRef .tc main_arg15)) := by
  rw [pad_keeps_scaled, scale_stretch, Cert.Bridge.Stretch.row_norm, norm_keeps_pool, norm_keeps_temp]
  rfl

/-- The three stretches after the pooling leave the pooled state as it was. -/
theorem pooled_kept_stretch :
    StableHlo.after hostOps3_5 (StableHlo.after hostOps3_4 (StableHlo.after hostOps3_3 Wx)) (Proc.devRef .tc main_v91)
      = Wx (Proc.devRef .tc main_v91) := by
  rw [pad_keeps_pool, scale_keeps_pool, norm_keeps_pool]

end Kernel

end Cert.Bridge.Pool

end
-- ==== Proof.K4.lean ====
/-
  The third graph-convolution layer of the idealized kernel program (the same law as the first two), then the mean
  pool over graphs, the row normalisation of the pooled state and its division by the clamped temperature, and the
  zero-padding of the block embeddings: what the fourth region is entered with. The pool and the normalisation are
  the reference's own operations on equal arrays, so they are the reference's stages; the division by the
  temperature happens BEFORE the product here and after it in the reference (joined where the region is read).
-/
import proofs.«120951_j23605140259147_2_alg».proof.Proof.KWalk
import proofs.«120951_j23605140259147_2_alg».proof.Proof.Stretch
import proofs.«120951_j23605140259147_2_alg».proof.Proof.K3
import proofs.«120951_j23605140259147_2_alg».proof.Proof.LayerLaw
import proofs.«120951_j23605140259147_2_alg».proof.Proof.LayerStretch
import proofs.«120951_j23605140259147_2_alg».proof.Proof.PoolStretch
import proofs.«120951_j23605140259147_2_alg».proof.Proof.LayerLawRead
import proofs.«120951_j23605140259147_2_alg».proof.Proof.DinvFacts

set_option maxRecDepth 16384

noncomputable section

namespace Cert.Bridge.K4

open Cert.KernelIdeal Cert.KernelIdeal.Gen Idealize.ShloMosaic Idealize.ShloMosaic.TcCoe Idealize.SL.Sem Idealize.ShloMosaic.StableHlo
open Cert.ReferenceIdeal.ReadP (val_main_v16 val_main_v5 val_main_v6 val_main_v68 val_main_v85 val_main_v97 val_main_v102 val_main_v108)

variable (m : (ℓ : Loc nD τ sig) → Buf (Elt Ideal) ℓ) (ρ : Dev nD → PrngReg) (c : Dev nD)

set_option maxHeartbeats 8000000 in
/-- The layer as the kernel program spells it, over the third region's exit contents. -/
theorem layer_term : W11 m ρ c (Proc.devRef .tc main_v79)
    = Cert.Bridge.Layer.KL (W9 m ρ c (Proc.devRef .tc main_v59)) (W9 m ρ c (Proc.devRef .tc main_v16))
        (W9 m ρ c (Proc.devRef .tc main_v5)) (W9 m ρ c (Proc.devRef .tc main_v6)) (W9 m ρ c (Proc.devRef .tc main_arg10)) := by
  exact Cert.Bridge.Layer.layer_stretch3 (W9 m ρ c)

/-- The encoder's last layer is the reference's stage. -/
theorem layer_out : W11 m ρ c (Proc.devRef .tc main_v79) = val_main_v85 (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [layer_term, K3.dense_out m ρ c, K3.exit_v16 m ρ c, K3.exit_v5 m ρ c, K3.exit_v6 m ρ c, K3.exit_bias m ρ c,
    Cert.Bridge.Layer.layer_law _ _ _ _ _ (fun n => Cert.Bridge.Dinv.dinv_nonneg_real _ n)]
  exact (Cert.Bridge.Layer.rl_is_v85 _ _ _ _ _ _ _ _).symm

set_option maxHeartbeats 8000000 in
theorem w11_arg2 : W11 m ρ c (Proc.devRef .tc main_arg2) = m ((c : Thread nD τ).loc main_arg2) := by walk_back

set_option maxHeartbeats 8000000 in
/-- The mean pool over graphs is the reference's stage. -/
theorem pooled : W12 m ρ c (Proc.devRef .tc main_v91) = val_main_v97 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps3_2 (W11 m ρ c) (Proc.devRef .tc main_v91) = _
  rw [Cert.Bridge.Pool.pool_stretch (W11 m ρ c), layer_out, w11_arg2]
  exact (Cert.Bridge.Pool.pool_ref _ _ _ _ _ _ _ _ _).symm

set_option maxHeartbeats 8000000 in
theorem w12_arg15 : W12 m ρ c (Proc.devRef .tc main_arg15) = m ((c : Thread nD τ).loc main_arg15) := by walk_back
set_option maxHeartbeats 8000000 in
theorem w14_arg3 : W14 m ρ c (Proc.devRef .tc main_arg3) = m ((c : Thread nD τ).loc main_arg3) := by walk_back

set_option maxHeartbeats 8000000 in
/-- The fourth region's first operand: the reference's normalised pooled state divided, entry by entry, by the clamped
    temperature. -/
theorem scaled : W15 m ρ c (Proc.devRef .tc main_v99)
    = Host.divf (F := Ideal) (φ := .f32) (val_main_v102 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
        (broadcastInDim S1024x256 ![] bcast_S_S1024x256 (val_main_v108 (F := Ideal) (m ((c : Thread nD τ).loc main_arg15)))) := by
  show StableHlo.after hostOps3_5 (StableHlo.after hostOps3_4 (StableHlo.after hostOps3_3 (W12 m ρ c))) (Proc.devRef .tc main_v99) = _
  rw [Cert.Bridge.Pool.scaled_stretch (W12 m ρ c), pooled, w12_arg15]
  exact Cert.Bridge.Pool.scaled_ref _ _ _ _ _ _ _ _ _ _

set_option maxHeartbeats 8000000 in
/-- The fourth region's second operand: the block embeddings with 2400 rows of padding appended. -/
theorem padded : W15 m ρ c (Proc.devRef .tc main_v100)
    = pad S102400x256 ![0, 0] ![2400, 0] ![0, 0] (m ((c : Thread nD τ).loc main_arg3)) (sitofp (F := Ideal) .f32 (constantI S_ 32 0#32))
        pads_S100000x256_S102400x256_024000_000 h_S_ := by
  show StableHlo.after hostOps3_5 (W14 m ρ c) (Proc.devRef .tc main_v100) = _
  have e18 : W14 m ρ c (Proc.devRef .tc main_c_18) = constantI S_ 32 0#32 := by
    show StableHlo.after hostOps3_4 (W13 m ρ c) (Proc.devRef .tc main_c_18) = _
    generalize W13 m ρ c = Wy
    after_results
  rw [Cert.Bridge.Stretch.padding (W14 m ρ c), w14_arg3, e18]

/-- The pooled state is still there at the fourth region's exit (the reaction head reads it). -/
theorem pooled_kept : W16 m ρ c (Proc.devRef .tc main_v91) = val_main_v97 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [W16_of_ne m ρ c main_v91 (by decide)]
  have h : W15 m ρ c (Proc.devRef .tc main_v91) = W12 m ρ c (Proc.devRef .tc main_v91) :=
    Cert.Bridge.Pool.pooled_kept_stretch (W12 m ρ c)
  rw [h, pooled]

end Cert.Bridge.K4

end
-- ==== Proof.LibLastAxis.lean ====
/-
  Reductions along the LAST axis, on the extended reals, for any sizes and ranks 2, 3 and 4.

  * Over a result index, the source index with coordinate k on the reduced (last) axis appends k.
  * The host's sum from an initial value is that value plus the finite sum along the axis; a kernel's lane sum from the
    zero word is the finite sum.
  * The host's maximum and a kernel's lane maximum are the fold of max, from the initial value, along the axis; from
    minus infinity, one more `max` with minus infinity changes nothing.
-/
import Idealize.ShloMosaic.Lib.ValueIdx
import Idealize.ShloMosaic.Lib.Pipeline.Value
import Idealize.ShloMosaic.PureOps.Ideal.Laws

noncomputable section

open scoped BigOperators

namespace Cert.Lib.LastAxis

open Idealize.ShloMosaic Idealize.ShloMosaic.ValueIdx

/-! ## The source index over a result index -/

theorem lift_last2 {a b : ℕ} (h : (⟨2, ![a, b]⟩ : Shape).Reduces [(1 : Fin 2)] ⟨1, ![a]⟩) (p : Fin a)
    (k : Fin ((⟨2, ![a, b]⟩ : Shape).size 1)) : h.lift (ix1 p) k = ix2 p (k : Fin b) := by
  funext c; apply Fin.ext; rw [h.lift_val]
  match c with
  | ⟨0, _⟩ => rfl
  | ⟨1, _⟩ => rfl

theorem lift_last3 {a b c : ℕ} (h : (⟨3, ![a, b, c]⟩ : Shape).Reduces [(2 : Fin 3)] ⟨2, ![a, b]⟩) (p : Fin a) (q : Fin b)
    (k : Fin ((⟨3, ![a, b, c]⟩ : Shape).size 2)) : h.lift (ix2 p q) k = ix3 p q (k : Fin c) := by
  funext x; apply Fin.ext; rw [h.lift_val]
  match x with
  | ⟨0, _⟩ => rfl
  | ⟨1, _⟩ => rfl
  | ⟨2, _⟩ => rfl

theorem lift_last4 {a b c d : ℕ} (h : (⟨4, ![a, b, c, d]⟩ : Shape).Reduces [(3 : Fin 4)] ⟨3, ![a, b, c]⟩) (p : Fin a) (q : Fin b)
    (r : Fin c) (k : Fin ((⟨4, ![a, b, c, d]⟩ : Shape).size 3)) : h.lift (ix3 p q r) k = ix4 p q r (k : Fin d) := by
  funext x; apply Fin.ext; rw [h.lift_val]
  match x with
  | ⟨0, _⟩ => rfl
  | ⟨1, _⟩ => rfl
  | ⟨2, _⟩ => rfl
  | ⟨3, _⟩ => rfl

/-! ## Sums -/

/-- The host's sum of a rank-3 array along its last axis, at (p, q). -/
theorem hostSum_last3 {a b c : ℕ} {φ : FTy} (x : FVec Ideal ⟨3, ![a, b, c]⟩ φ) (v : (⟨0, ![]⟩ : Shape).Idx → Ideal φ)
    (h' : (⟨3, ![a, b, c]⟩ : Shape).ReducesTo [(2 : Fin 3)] ⟨2, ![a, b]⟩)
    (h : (⟨3, ![a, b, c]⟩ : Shape).Reduces [(2 : Fin 3)] ⟨2, ![a, b]⟩) (hu : 0 < (⟨0, ![]⟩ : Shape).numel) (p : Fin a) (q : Fin b) :
    Host.reduceAdd x v h' hu (ix2 p q) = v ix0 + ∑ k : Fin c, x (ix3 p q k) := by
  show Ideal.hostReduceAdd h' x (v (Shape.Idx.first hu)) (ix2 p q) = _
  rw [Ideal.hostReduceAdd_single h' h, eq_ix0 (Shape.Idx.first hu)]
  exact congrArg (v ix0 + ·) (Finset.sum_congr rfl fun k _ => congrArg x (lift_last3 h p q k))

/-- The host's sum of a rank-4 array along its last axis, at (p, q, r). -/
theorem hostSum_last4 {a b c d : ℕ} {φ : FTy} (x : FVec Ideal ⟨4, ![a, b, c, d]⟩ φ) (v : (⟨0, ![]⟩ : Shape).Idx → Ideal φ)
    (h' : (⟨4, ![a, b, c, d]⟩ : Shape).ReducesTo [(3 : Fin 4)] ⟨3, ![a, b, c]⟩)
    (h : (⟨4, ![a, b, c, d]⟩ : Shape).Reduces [(3 : Fin 4)] ⟨3, ![a, b, c]⟩) (hu : 0 < (⟨0, ![]⟩ : Shape).numel)
    (p : Fin a) (q : Fin b) (r : Fin c) :
    Host.reduceAdd x v h' hu (ix3 p q r) = v ix0 + ∑ k : Fin d, x (ix4 p q r k) := by
  show Ideal.hostReduceAdd h' x (v (Shape.Idx.first hu)) (ix3 p q r) = _
  rw [Ideal.hostReduceAdd_single h' h, eq_ix0 (Shape.Idx.first hu)]
  exact congrArg (v ix0 + ·) (Finset.sum_congr rfl fun k _ => congrArg x (lift_last4 h p q r k))

/-- A kernel's lane sum of a matrix along its last axis from the neutral word, at row p. -/
theorem laneSum_last2 {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_last2 h p k))

/-! ## Maxima -/

/-- Minus infinity is neutral for `max` on the extended reals. -/
theorem max_bot_left (y : EReal) : max (⊥ : EReal) y = y := max_eq_right bot_le

/-- The host's maximum of a rank-4 array along its last axis, at (p, q, r): the fold of max from the initial value. -/
theorem hostMax_last4 {a b c d : ℕ} {φ : FTy} (x : FVec Ideal ⟨4, ![a, b, c, d]⟩ φ) (v : (⟨0, ![]⟩ : Shape).Idx → Ideal φ)
    (h' : (⟨4, ![a, b, c, d]⟩ : Shape).ReducesTo [(3 : Fin 4)] ⟨3, ![a, b, c]⟩)
    (h : (⟨4, ![a, b, c, d]⟩ : Shape).Reduces [(3 : Fin 4)] ⟨3, ![a, b, c]⟩) (hu : 0 < (⟨0, ![]⟩ : Shape).numel)
    (p : Fin a) (q : Fin b) (r : Fin c) :
    Host.reduce (FloatOps.maximumf (F := Ideal) (φ := φ)) x v h' hu (ix3 p q r)
      = (Finset.univ : Finset (Fin d)).fold max (v ix0) (fun k => x (ix4 p q r k)) := by
  rw [Host.reduce_eq_fold_single (FloatOps.maximumf (F := Ideal) (φ := φ)) x v h' h hu, eq_ix0 (Shape.Idx.first hu)]
  exact congrArg (fun f => Finset.fold max (v ix0) f (Finset.univ : Finset (Fin d))) (funext fun k => congrArg x (lift_last4 h p q r k))

/-- A kernel's lane maximum of a matrix along its last axis, at row p: the fold of max from the accumulator word's value. -/
theorem laneMax_last2 {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits φ acc) (fun k => src (ix2 p k)) :=
  (Ideal.multiReduction_maximumf_single src acc h hφ hacc (ix1 p)).trans
    (congrArg (fun f => Finset.fold max (FloatOps.ofBits φ acc) f (Finset.univ : Finset (Fin b))) (funext fun k => congrArg src (lift_last2 h p k)))

end Cert.Lib.LastAxis

end
-- ==== Proof.LibKeepdimsColumn.lean ====
/-
  The "keepdims" column forms of a row statistic, read at an index, for any sizes: a vector `[a]` cast to a column `[a,1]`
  and back, a column `[a,1]` broadcast along the rows to `[a,b]`, and the composite a kernel writes after a row reduction —
  the statistic cast to a column and broadcast back over its row: entry (p, q) is the statistic of row p.
-/
import Idealize.ShloMosaic.Lib.ValueIdx
import Idealize.ShloMosaic.Lib.Pipeline.Value

namespace Cert.Lib.KeepdimsColumn

open Idealize.ShloMosaic Idealize.ShloMosaic.ValueIdx

variable {α : Type}

/-- A vector as a column: entry (p, 0) is the vector's entry p. -/
theorem vecToCol_apply {a : Nat} (v : (⟨1, ![a]⟩ : Shape).Idx → α) (h : (⟨1, ![a]⟩ : Shape).ShapeCasts ⟨2, ![a, 1]⟩)
    (p : Fin a) (z : Fin 1) : shapeCast (⟨2, ![a, 1]⟩ : Shape) v h (ix2 p z) = v (ix1 p) := by
  refine shapeCast_apply v h (ix2 p z) (ix1 p) ?_
  rw [Shape.rowMajor_val_one, Shape.rowMajor_val_two]
  show p.val = p.val * 1 + z.val
  have := z.isLt; omega

/-- A column as a vector: entry p is the column's entry (p, 0). -/
theorem colToVec_apply {a : Nat} (v : (⟨2, ![a, 1]⟩ : Shape).Idx → α) (h : (⟨2, ![a, 1]⟩ : Shape).ShapeCasts ⟨1, ![a]⟩)
    (p : Fin a) : shapeCast (⟨1, ![a]⟩ : Shape) v h (ix1 p) = v (ix2 p (0 : Fin 1)) := by
  refine shapeCast_apply v h (ix1 p) (ix2 p (0 : Fin 1)) ?_
  rw [Shape.rowMajor_val_one, Shape.rowMajor_val_two]
  show p.val * 1 + 0 = p.val
  omega

/-- A column broadcast along the rows: entry (p, q) is the column's entry (p, 0). -/
theorem colToMat_apply {a b : Nat} (v : (⟨2, ![a, 1]⟩ : Shape).Idx → α) (h : (⟨2, ![a, 1]⟩ : Shape).Broadcasts ⟨2, ![a, b]⟩)
    (p : Fin a) (q : Fin b) : broadcastTo (⟨2, ![a, b]⟩ : Shape) v h (ix2 p q) = v (ix2 p (0 : Fin 1)) := by
  refine broadcastTo_apply v h (ix2 p q) (ix2 p (0 : Fin 1)) fun ax => ?_
  match ax with
  | ⟨0, _⟩ =>
    show p.val = if a = 1 then 0 else p.val
    by_cases ha : a = 1
    · rw [if_pos ha]; have := p.isLt; omega
    · rw [if_neg ha]
  | ⟨1, _⟩ => show 0 = if (1 : Nat) = 1 then 0 else q.val; rw [if_pos rfl]

/-- A row statistic put back on its row: entry (p, q) is the statistic of row p. -/
theorem statToMat_apply {a b : Nat} (v : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (q : Fin b) :
    broadcastTo (⟨2, ![a, b]⟩ : Shape) (shapeCast (⟨2, ![a, 1]⟩ : Shape) v hc) hb (ix2 p q) = v (ix1 p) :=
  (colToMat_apply _ hb p q).trans (vecToCol_apply v hc p 0)

end Cert.Lib.KeepdimsColumn
-- ==== Proof.LibAttentionDots.lean ====
/-
  Contraction sums of the matrix products of an attention layer, for any sizes, on the extended reals.

  * A rank-2 product whose right operand is contracted on its LAST axis, `[A,K] × [B,K] → [A,B]`: at output index
    (p, q) the sum over k of L (p, k) * R (q, k); with it a matmul into the zero accumulator and a host dot_general.
  * A projection `[B,S,D] × [N,D] → [B,S,N]` (einsum `bsd,nd→bsn`): at (b, s, n) the sum over k of
    L (b, s, k) * R (n, k).
  * The scores `[B,H,Q,D] × [B,H,K,D] → [B,H,Q,K]` with batch axes 0 and 1 (einsum `bhqd,bhkd→bhqk`): at
    (b, h, q, k) the sum over d of L (b, h, q, d) * R (b, h, k, d).
  * The weighted values `[B,H,Q,K] × [B,H,K,D] → [B,H,Q,D]` with batch axes 0 and 1 (einsum `bhqk,bhkd→bhqd`): at
    (b, h, q, d) the sum over k of L (b, h, q, k) * R (b, h, k, d).

  Each takes the dimension numbers as a record with six list hypotheses (closed by `rfl` on a printed record).
-/
import Idealize.ShloMosaic.PureOps.Ideal.Laws
import Idealize.ShloMosaic.Lib.ValueIdx

noncomputable section

open scoped BigOperators

namespace Cert.Lib.AttentionDots

open Idealize.ShloMosaic Idealize.ShloMosaic.ValueIdx

/-! ## Rank 2, the right operand contracted on its last axis -/

theorem trhs_idx {A K B : Nat} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = []) :
    ∃ (hr : d.contr.rank = 1) (hs : d.contr.size ⟨0, by omega⟩ = K), ∀ (p : Fin A) (q : Fin B) (k : Fin K),
      d.lhsIdx (ix2 p q) ((contrEquiv1 d K hr hs).symm k) = ix2 p k ∧
      d.rhsIdx (ix2 p q) ((contrEquiv1 d K hr hs).symm k) = ix2 q k := by
  obtain ⟨lc, rc, ln, rn, lb, rb, wf⟩ := d
  simp only at hlc hrc hln hrn hlb hrb
  subst hlc hrc hln hrn hlb hrb
  refine ⟨rfl, rfl, fun p q k => ⟨?_, ?_⟩⟩
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- The contraction sum at (p, q): the sum over k of L (p, k) * R (q, k). -/
theorem trhs_sum {A K B : Nat} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (L : (⟨2, ![A, K]⟩ : Shape).Idx → EReal) (R : (⟨2, ![B, K]⟩ : Shape).Idx → EReal) (p : Fin A) (q : Fin B) :
    ∑ κ : d.contr.Idx, L (d.lhsIdx (ix2 p q) κ) * R (d.rhsIdx (ix2 p q) κ) = ∑ k : Fin K, L (ix2 p k) * R (ix2 q k) := by
  obtain ⟨hr, hs, h⟩ := trhs_idx d hlc hrc hln hrn hlb hrb
  rw [← Equiv.sum_comp (contrEquiv1 d K hr hs).symm]
  exact Finset.sum_congr rfl fun k _ => by rw [(h p q k).1, (h p q k).2]

/-- A matmul of these dimension numbers into the zero accumulator, read at (p, q). -/
theorem matmul_zero_trhs {A K B : Nat} {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    FloatOps.matmul d prec lhs rhs (constant ⟨2, ![A, B]⟩ .f32 0x00000000#32) (ix2 p q)
      = ∑ k : Fin K, lhs (ix2 p k) * rhs (ix2 q k) :=
  (Ideal.matmul_constant_zero_apply d prec lhs rhs (ix2 p q)).trans (trhs_sum d hlc hrc hln hrn hlb hrb lhs rhs p q)

/-- A host dot_general of these dimension numbers, read at (p, q). -/
theorem dotGeneral_trhs {A K B : Nat} {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (sched : HostSchedule) (lhs : FVec Ideal ⟨2, ![A, K]⟩ φ₁)
    (rhs : FVec Ideal ⟨2, ![B, K]⟩ φ₂) (p : Fin A) (q : Fin B) :
    FloatOps.dotGeneral d prec sched lhs rhs (ix2 p q) = ∑ k : Fin K, lhs (ix2 p k) * rhs (ix2 q k) :=
  (Ideal.dotGeneral_apply d prec sched lhs rhs (ix2 p q)).trans (trhs_sum d hlc hrc hln hrn hlb hrb lhs rhs p q)

/-! ## The projection `bsd,nd→bsn` -/

theorem proj_idx {B S D N : Nat} (d : DotDims ⟨3, ![B, S, D]⟩ ⟨2, ![N, D]⟩ ⟨3, ![B, S, N]⟩)
    (hlc : d.lhsContracting = [2]) (hrc : d.rhsContracting = [1]) (hln : d.lhsNonContracting = [0, 1])
    (hrn : d.rhsNonContracting = [0]) (hlb : d.lhsBatch = []) (hrb : d.rhsBatch = []) :
    ∃ (hr : d.contr.rank = 1) (hs : d.contr.size ⟨0, by omega⟩ = D), ∀ (b : Fin B) (s : Fin S) (n : Fin N) (k : Fin D),
      d.lhsIdx (ix3 b s n) ((contrEquiv1 d D hr hs).symm k) = ix3 b s k ∧
      d.rhsIdx (ix3 b s n) ((contrEquiv1 d D hr hs).symm k) = ix2 n k := by
  obtain ⟨lc, rc, ln, rn, lb, rb, wf⟩ := d
  simp only at hlc hrc hln hrn hlb hrb
  subst hlc hrc hln hrn hlb hrb
  refine ⟨rfl, rfl, fun b s n k => ⟨?_, ?_⟩⟩
  · funext a
    match a with
    | ⟨0, _⟩ => exact Fin.ext rfl
    | ⟨1, _⟩ => exact Fin.ext rfl
    | ⟨2, _⟩ => exact Fin.ext rfl
  · funext a
    match a with
    | ⟨0, _⟩ => exact Fin.ext rfl
    | ⟨1, _⟩ => exact Fin.ext rfl

/-- A host dot_general `bsd,nd→bsn`, read at (b, s, n): the sum over k of L (b, s, k) * R (n, k). -/
theorem dotGeneral_proj {B S D N : Nat} {φ₁ φ₂ : FTy} (d : DotDims ⟨3, ![B, S, D]⟩ ⟨2, ![N, D]⟩ ⟨3, ![B, S, N]⟩)
    (hlc : d.lhsContracting = [2]) (hrc : d.rhsContracting = [1]) (hln : d.lhsNonContracting = [0, 1])
    (hrn : d.rhsNonContracting = [0]) (hlb : d.lhsBatch = []) (hrb : d.rhsBatch = [])
    (prec : Option ContractPrecision) (sched : HostSchedule) (lhs : FVec Ideal ⟨3, ![B, S, D]⟩ φ₁)
    (rhs : FVec Ideal ⟨2, ![N, D]⟩ φ₂) (b : Fin B) (s : Fin S) (n : Fin N) :
    FloatOps.dotGeneral d prec sched lhs rhs (ix3 b s n) = ∑ k : Fin D, lhs (ix3 b s k) * rhs (ix2 n k) := by
  obtain ⟨hr, hs, h⟩ := proj_idx d hlc hrc hln hrn hlb hrb
  refine (Ideal.dotGeneral_apply d prec sched lhs rhs (ix3 b s n)).trans ?_
  rw [← Equiv.sum_comp (contrEquiv1 d D hr hs).symm]
  exact Finset.sum_congr rfl fun k _ => by rw [(h b s n k).1, (h b s n k).2]

/-! ## The scores `bhqd,bhkd→bhqk` -/

theorem scores_idx {B H Q K D : Nat} (d : DotDims ⟨4, ![B, H, Q, D]⟩ ⟨4, ![B, H, K, D]⟩ ⟨4, ![B, H, Q, K]⟩)
    (hlc : d.lhsContracting = [3]) (hrc : d.rhsContracting = [3]) (hln : d.lhsNonContracting = [2])
    (hrn : d.rhsNonContracting = [2]) (hlb : d.lhsBatch = [0, 1]) (hrb : d.rhsBatch = [0, 1]) :
    ∃ (hr : d.contr.rank = 1) (hs : d.contr.size ⟨0, by omega⟩ = D),
      ∀ (b : Fin B) (h : Fin H) (q : Fin Q) (k : Fin K) (e : Fin D),
      d.lhsIdx (ix4 b h q k) ((contrEquiv1 d D hr hs).symm e) = ix4 b h q e ∧
      d.rhsIdx (ix4 b h q k) ((contrEquiv1 d D hr hs).symm e) = ix4 b h k e := by
  obtain ⟨lc, rc, ln, rn, lb, rb, wf⟩ := d
  simp only at hlc hrc hln hrn hlb hrb
  subst hlc hrc hln hrn hlb hrb
  refine ⟨rfl, rfl, fun b h q k e => ⟨?_, ?_⟩⟩
  · funext a
    match a with
    | ⟨0, _⟩ => exact Fin.ext rfl
    | ⟨1, _⟩ => exact Fin.ext rfl
    | ⟨2, _⟩ => exact Fin.ext rfl
    | ⟨3, _⟩ => exact Fin.ext rfl
  · funext a
    match a with
    | ⟨0, _⟩ => exact Fin.ext rfl
    | ⟨1, _⟩ => exact Fin.ext rfl
    | ⟨2, _⟩ => exact Fin.ext rfl
    | ⟨3, _⟩ => exact Fin.ext rfl

/-- A host dot_general `bhqd,bhkd→bhqk`, read at (b, h, q, k): the sum over e of L (b, h, q, e) * R (b, h, k, e). -/
theorem dotGeneral_scores {B H Q K D : Nat} {φ₁ φ₂ : FTy}
    (d : DotDims ⟨4, ![B, H, Q, D]⟩ ⟨4, ![B, H, K, D]⟩ ⟨4, ![B, H, Q, K]⟩)
    (hlc : d.lhsContracting = [3]) (hrc : d.rhsContracting = [3]) (hln : d.lhsNonContracting = [2])
    (hrn : d.rhsNonContracting = [2]) (hlb : d.lhsBatch = [0, 1]) (hrb : d.rhsBatch = [0, 1])
    (prec : Option ContractPrecision) (sched : HostSchedule) (lhs : FVec Ideal ⟨4, ![B, H, Q, D]⟩ φ₁)
    (rhs : FVec Ideal ⟨4, ![B, H, K, D]⟩ φ₂) (b : Fin B) (h : Fin H) (q : Fin Q) (k : Fin K) :
    FloatOps.dotGeneral d prec sched lhs rhs (ix4 b h q k) = ∑ e : Fin D, lhs (ix4 b h q e) * rhs (ix4 b h k e) := by
  obtain ⟨hr, hs, hx⟩ := scores_idx d hlc hrc hln hrn hlb hrb
  refine (Ideal.dotGeneral_apply d prec sched lhs rhs (ix4 b h q k)).trans ?_
  rw [← Equiv.sum_comp (contrEquiv1 d D hr hs).symm]
  exact Finset.sum_congr rfl fun e _ => by rw [(hx b h q k e).1, (hx b h q k e).2]

/-! ## The weighted values `bhqk,bhkd→bhqd` -/

theorem values_idx {B H Q K D : Nat} (d : DotDims ⟨4, ![B, H, Q, K]⟩ ⟨4, ![B, H, K, D]⟩ ⟨4, ![B, H, Q, D]⟩)
    (hlc : d.lhsContracting = [3]) (hrc : d.rhsContracting = [2]) (hln : d.lhsNonContracting = [2])
    (hrn : d.rhsNonContracting = [3]) (hlb : d.lhsBatch = [0, 1]) (hrb : d.rhsBatch = [0, 1]) :
    ∃ (hr : d.contr.rank = 1) (hs : d.contr.size ⟨0, by omega⟩ = K),
      ∀ (b : Fin B) (h : Fin H) (q : Fin Q) (e : Fin D) (k : Fin K),
      d.lhsIdx (ix4 b h q e) ((contrEquiv1 d K hr hs).symm k) = ix4 b h q k ∧
      d.rhsIdx (ix4 b h q e) ((contrEquiv1 d K hr hs).symm k) = ix4 b h k e := by
  obtain ⟨lc, rc, ln, rn, lb, rb, wf⟩ := d
  simp only at hlc hrc hln hrn hlb hrb
  subst hlc hrc hln hrn hlb hrb
  refine ⟨rfl, rfl, fun b h q e k => ⟨?_, ?_⟩⟩
  · funext a
    match a with
    | ⟨0, _⟩ => exact Fin.ext rfl
    | ⟨1, _⟩ => exact Fin.ext rfl
    | ⟨2, _⟩ => exact Fin.ext rfl
    | ⟨3, _⟩ => exact Fin.ext rfl
  · funext a
    match a with
    | ⟨0, _⟩ => exact Fin.ext rfl
    | ⟨1, _⟩ => exact Fin.ext rfl
    | ⟨2, _⟩ => exact Fin.ext rfl
    | ⟨3, _⟩ => exact Fin.ext rfl

/-- A host dot_general `bhqk,bhkd→bhqd`, read at (b, h, q, e): the sum over k of L (b, h, q, k) * R (b, h, k, e). -/
theorem dotGeneral_values {B H Q K D : Nat} {φ₁ φ₂ : FTy}
    (d : DotDims ⟨4, ![B, H, Q, K]⟩ ⟨4, ![B, H, K, D]⟩ ⟨4, ![B, H, Q, D]⟩)
    (hlc : d.lhsContracting = [3]) (hrc : d.rhsContracting = [2]) (hln : d.lhsNonContracting = [2])
    (hrn : d.rhsNonContracting = [3]) (hlb : d.lhsBatch = [0, 1]) (hrb : d.rhsBatch = [0, 1])
    (prec : Option ContractPrecision) (sched : HostSchedule) (lhs : FVec Ideal ⟨4, ![B, H, Q, K]⟩ φ₁)
    (rhs : FVec Ideal ⟨4, ![B, H, K, D]⟩ φ₂) (b : Fin B) (h : Fin H) (q : Fin Q) (e : Fin D) :
    FloatOps.dotGeneral d prec sched lhs rhs (ix4 b h q e) = ∑ k : Fin K, lhs (ix4 b h q k) * rhs (ix4 b h k e) := by
  obtain ⟨hr, hs, hx⟩ := values_idx d hlc hrc hln hrn hlb hrb
  refine (Ideal.dotGeneral_apply d prec sched lhs rhs (ix4 b h q e)).trans ?_
  rw [← Equiv.sum_comp (contrEquiv1 d K hr hs).symm]
  exact Finset.sum_congr rfl fun k _ => by rw [(hx b h q e k).1, (hx b h q e k).2]

/-! ## The same, spelled as programs print them (`matmul`, `Host.dotGeneral`): the forms a rewrite finds -/

theorem matmul_trhs {A K B : Nat} {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    matmul d prec lhs rhs (constant ⟨2, ![A, B]⟩ .f32 0x00000000#32) (ix2 p q) = ∑ k : Fin K, lhs (ix2 p k) * rhs (ix2 q k) :=
  matmul_zero_trhs d hlc hrc hln hrn hlb hrb prec lhs rhs p q

theorem hostDot_trhs {A K B : Nat} {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    Host.dotGeneral d prec lhs rhs (ix2 p q) = ∑ k : Fin K, lhs (ix2 p k) * rhs (ix2 q k) :=
  dotGeneral_trhs d hlc hrc hln hrn hlb hrb prec .single lhs rhs p q

theorem hostDot_proj {B S D N : Nat} {φ₁ φ₂ : FTy} (d : DotDims ⟨3, ![B, S, D]⟩ ⟨2, ![N, D]⟩ ⟨3, ![B, S, N]⟩)
    (hlc : d.lhsContracting = [2]) (hrc : d.rhsContracting = [1]) (hln : d.lhsNonContracting = [0, 1])
    (hrn : d.rhsNonContracting = [0]) (hlb : d.lhsBatch = []) (hrb : d.rhsBatch = [])
    (prec : Option ContractPrecision) (lhs : FVec Ideal ⟨3, ![B, S, D]⟩ φ₁) (rhs : FVec Ideal ⟨2, ![N, D]⟩ φ₂)
    (b : Fin B) (s : Fin S) (n : Fin N) :
    Host.dotGeneral d prec lhs rhs (ix3 b s n) = ∑ k : Fin D, lhs (ix3 b s k) * rhs (ix2 n k) :=
  dotGeneral_proj d hlc hrc hln hrn hlb hrb prec .single lhs rhs b s n

theorem hostDot_scores {B H Q K D : Nat} {φ₁ φ₂ : FTy}
    (d : DotDims ⟨4, ![B, H, Q, D]⟩ ⟨4, ![B, H, K, D]⟩ ⟨4, ![B, H, Q, K]⟩)
    (hlc : d.lhsContracting = [3]) (hrc : d.rhsContracting = [3]) (hln : d.lhsNonContracting = [2])
    (hrn : d.rhsNonContracting = [2]) (hlb : d.lhsBatch = [0, 1]) (hrb : d.rhsBatch = [0, 1])
    (prec : Option ContractPrecision) (lhs : FVec Ideal ⟨4, ![B, H, Q, D]⟩ φ₁) (rhs : FVec Ideal ⟨4, ![B, H, K, D]⟩ φ₂)
    (b : Fin B) (h : Fin H) (q : Fin Q) (k : Fin K) :
    Host.dotGeneral d prec lhs rhs (ix4 b h q k) = ∑ e : Fin D, lhs (ix4 b h q e) * rhs (ix4 b h k e) :=
  dotGeneral_scores d hlc hrc hln hrn hlb hrb prec .single lhs rhs b h q k

theorem hostDot_values {B H Q K D : Nat} {φ₁ φ₂ : FTy}
    (d : DotDims ⟨4, ![B, H, Q, K]⟩ ⟨4, ![B, H, K, D]⟩ ⟨4, ![B, H, Q, D]⟩)
    (hlc : d.lhsContracting = [3]) (hrc : d.rhsContracting = [2]) (hln : d.lhsNonContracting = [2])
    (hrn : d.rhsNonContracting = [3]) (hlb : d.lhsBatch = [0, 1]) (hrb : d.rhsBatch = [0, 1])
    (prec : Option ContractPrecision) (lhs : FVec Ideal ⟨4, ![B, H, Q, K]⟩ φ₁) (rhs : FVec Ideal ⟨4, ![B, H, K, D]⟩ φ₂)
    (b : Fin B) (h : Fin H) (q : Fin Q) (e : Fin D) :
    Host.dotGeneral d prec lhs rhs (ix4 b h q e) = ∑ k : Fin K, lhs (ix4 b h q k) * rhs (ix4 b h k e) :=
  dotGeneral_values d hlc hrc hln hrn hlb hrb prec .single lhs rhs b h q e

end Cert.Lib.AttentionDots

end
-- ==== Proof.LogitsPayload.lean ====
/-
  The value one grid point of the logits region stores, read at one entry.

  The body takes a block of 2560 embedding rows (each of 256 entries) and the 1024 query rows.  Every embedding row is
  divided by the larger of its Euclidean norm — the square root of the plain sum of its 256 squares — and a fixed small
  positive constant; the block stored is the product of the query rows with the transposed normalised rows.  So the entry
  at (p, q) is the sum over k of query (p, k) times the normalised embedding row q at k.  At the extended reals the two
  format changes are the identity and the product into the zero accumulator is the plain finite sum.
-/
import proofs.«120951_j23605140259147_2_alg».proof.Proof.Gen.KernelIdeal.Skeleton
import proofs.«120951_j23605140259147_2_alg».proof.Proof.LibLastAxis
import proofs.«120951_j23605140259147_2_alg».proof.Proof.LibKeepdimsColumn
import proofs.«120951_j23605140259147_2_alg».proof.Proof.LibAttentionDots
import Idealize.ShloMosaic.Lib.ValueIdx
import Idealize.ShloMosaic.Lib.Pipeline.Value

noncomputable section

open scoped BigOperators

namespace Cert.Bridge.Logits

open Idealize.ShloMosaic Idealize.ShloMosaic.ValueIdx
open Cert.KernelIdeal Cert.KernelIdeal.Gen

/-- The divisor of row q, read at any entry (q, k) of the block it is spread over: the larger of the row's Euclidean
    norm and the constant. -/
theorem divisor_apply (x0 : FVec Ideal S2560x256 .f32) (q : Fin 2560) (k : Fin 256) :
    broadcastTo S2560x256
        (maximumf
          (sqrt (shapeCast S2560x1
            (multiReduction .add [1] S2560 (mulf x0 x0) 0x00000000#32 reduces_S2560x256_S2560 (.inl rfl) rfl)
            shapeCasts_S2560_S2560x1))
          (broadcast S2560x1 (Scalar.ofBits (F := Ideal) .f32 0x2B8CBCCC#32)))
        broadcasts_S2560x1_S2560x256 (ix2 q k)
      = max (Ideal.sqrt (∑ k' : Fin 256, x0 (ix2 q k') * x0 (ix2 q k'))) (Ideal.ofBits .f32 0x2B8CBCCC#32) := by
  refine (Cert.Lib.KeepdimsColumn.colToMat_apply _ broadcasts_S2560x1_S2560x256 q k).trans ?_
  refine congrArg (fun z => max (Ideal.sqrt z) (Ideal.ofBits .f32 0x2B8CBCCC#32)) ?_
  refine (Cert.Lib.KeepdimsColumn.vecToCol_apply _ shapeCasts_S2560_S2560x1 q (0 : Fin 1)).trans ?_
  exact Cert.Lib.LastAxis.laneSum_last2 (mulf x0 x0) 0x00000000#32 reduces_S2560x256_S2560 (.inl rfl) rfl q

/-- The stored block at (p, q): the sum over k of query (p, k) times embedding (q, k) over the row's divisor. -/
theorem payload_apply (x0 : FVec Ideal S2560x256 .f32) (x11 : FVec Ideal S1024x256 .f32) (p : Fin 1024) (q : Fin 2560) :
    k3_pay1 (F := Ideal) x0 x11 (ix2 p q)
      = ∑ k : Fin 256, x11 (ix2 p k) *
          Ideal.div (x0 (ix2 q k))
            (max (Ideal.sqrt (∑ k' : Fin 256, x0 (ix2 q k') * x0 (ix2 q k'))) (Ideal.ofBits .f32 0x2B8CBCCC#32)) := by
  unfold k3_pay1
  simp only [shapeCast_self]
  refine (Cert.Lib.AttentionDots.matmul_trhs dot_S1024x256_S2560x256_S1024x2560_1_1_0_0_n_n rfl rfl rfl rfl rfl rfl none _ _ p q).trans ?_
  refine Finset.sum_congr rfl fun k _ => ?_
  refine congrArg (fun z => x11 (ix2 p k) * Ideal.div (x0 (ix2 q k)) z) ?_
  exact divisor_apply x0 q k

end Cert.Bridge.Logits

end
-- ==== Proof.LogitsValue.lean ====
/-
  From the blocks of the logits region to the whole array of logits.

  The region walks 40 grid points.  At point t it reads all 1024 query rows, reads embedding rows 2560·t … 2560·t + 2559 of
  the zero-padded table, and writes back columns 2560·t … of the [1024, 100000] result: 2560 columns at the first 39
  points and, because 100000 = 39·2560 + 160, only the first 160 columns of the block at the last point — the rest of
  that block overhangs the array and is never written.  Entry (p, j) of the result therefore depends only on query row p
  and on embedding row j: it is the sum over k of query (p, k) times the normalised embedding row j at k.  Column j is
  written by point j / 2560, and these points cover every column, so the array ends holding that function everywhere.
-/
import proofs.«120951_j23605140259147_2_alg».proof.Proof.Gen.KernelIdeal.Frame
import proofs.«120951_j23605140259147_2_alg».proof.Proof.LogitsPayload
import Idealize.ShloMosaic.Lib.ValueIdx
import Idealize.ShloMosaic.Lib.Pipeline.Value

noncomputable section

open scoped BigOperators

namespace Cert.Bridge.Logits

open Idealize.ShloMosaic Idealize.ShloMosaic.TcCoe Idealize.ShloMosaic.ValueIdx Idealize.SL.Sem
open Idealize.ShloMosaic.Pipeline (Dat)
open Cert.KernelIdeal Cert.KernelIdeal.Gen

/-! ## The result as one function of the two input arrays -/

/-- Entry (p, j) of the logits: the sum over k of query (p, k) times embedding (j, k) over the larger of row j's
    Euclidean norm and the constant.  The embedding table is the zero-padded one, so row j is its row j. -/
def entry (HS : S1024x256.Idx → EReal) (BP : S102400x256.Idx → EReal) (p : Fin 1024) (j : Fin 100000) : EReal :=
  ∑ k : Fin 256, HS (ix2 p k) *
    Ideal.div (BP (ix2 (⟨j.val, by omega⟩ : Fin 102400) k))
      (max (Ideal.sqrt (∑ k' : Fin 256, BP (ix2 (⟨j.val, by omega⟩ : Fin 102400) k') * BP (ix2 (⟨j.val, by omega⟩ : Fin 102400) k')))
        (Ideal.ofBits .f32 0x2B8CBCCC#32))

/-- The whole [1024, 100000] array of logits. -/
def logitsOf (HS : S1024x256.Idx → EReal) (BP : S102400x256.Idx → EReal) : S1024x100000.Idx → EReal :=
  fun i => entry HS BP ⟨(i 0).val, idx2_lt0 i⟩ ⟨(i 1).val, idx2_lt1 i⟩

/-- The entry, written out. -/
theorem entry_eq (HS : S1024x256.Idx → EReal) (BP : S102400x256.Idx → EReal) (p : Fin 1024) (j : Fin 100000) :
    entry HS BP p j
      = ∑ k : Fin 256, HS (ix2 p k) *
          Ideal.div (BP (ix2 (⟨j.val, by omega⟩ : Fin 102400) k))
            (max (Ideal.sqrt (∑ k' : Fin 256,
                BP (ix2 (⟨j.val, by omega⟩ : Fin 102400) k') * BP (ix2 (⟨j.val, by omega⟩ : Fin 102400) k')))
              (Ideal.ofBits .f32 0x2B8CBCCC#32)) := rfl

/-- A stored block's entry (pb, q) is the array's entry (p, j) as soon as the block's query row pb is the array's row p
    and the block's embedding row q is the table's row j. -/
theorem entry_of_block (HS : S1024x256.Idx → EReal) (BP : S102400x256.Idx → EReal)
    (x0 : FVec Ideal S2560x256 .f32) (x11 : FVec Ideal S1024x256 .f32)
    (pb p : Fin 1024) (q : Fin 2560) (j : Fin 100000) (r : Fin 102400) (hj : r.val = j.val)
    (h11 : ∀ k : Fin 256, x11 (ix2 pb k) = HS (ix2 p k)) (h0 : ∀ k : Fin 256, x0 (ix2 q k) = BP (ix2 r k)) :
    k3_pay1 (F := Ideal) x0 x11 (ix2 pb q) = entry HS BP p j := by
  have er : (⟨j.val, by omega⟩ : Fin 102400) = r := Fin.ext hj.symm
  rw [payload_apply]
  unfold entry
  rw [er]
  simp only [h11, h0]

/-! ## The index maps over the grid -/

theorem zeros2 : (![0, 0] : Fin 2 → Nat) = fun _ => 0 := funext fun a => by fin_cases a <;> rfl

/-- Decided once over the 40 points: the query window is always block (0, 0); the embedding window is row block t; the
    result window is column block t, all 1024 rows of it, and min 2560 (100000 - 2560·t) of its columns. -/
theorem index_facts : ∀ t : Fin cfg3.N,
    win3_0.index t (0 : Fin 2) = 0 ∧ win3_0.index t (1 : Fin 2) = 0
    ∧ win3_1.index t (0 : Fin 2) = t.val ∧ win3_1.index t (1 : Fin 2) = 0
    ∧ win3_2.index t (0 : Fin 2) = 0 ∧ win3_2.index t (1 : Fin 2) = t.val
    ∧ win3_2.xsize (grid3.coords t) (0 : Fin 2) = 1024
    ∧ win3_2.xsize (grid3.coords t) (1 : Fin 2) = min 2560 (100000 - t.val * 2560) :=
  (by decide +kernel : ∀ t : Fin grid3.N, _)

section Region

variable (V : (c : Dev nD) → (b : Ref sig .tc) → Buf (Elt Ideal) ((c : Thread nD τ).loc b))

/-- The query window's block at any point is the query array. -/
theorem queryBlock_apply (c : Dev nD) (t : Fin cfg3.N) (x : S1024x256.Idx) (i : S1024x256.Idx)
    (h0 : (i 0).val = (x 0).val) (h1 : (i 1).val = (x 1).val) :
    (iblk3 V c 0 t : FVec Ideal S1024x256 .f32) x = (V c main_v99 : S1024x256.Idx → EReal) i := by
  obtain ⟨e0, e1, -⟩ := index_facts t
  unfold iblk3
  rw [View.read_apply]
  show (V c main_v99 : S1024x256.Idx → EReal) _ = V c main_v99 i
  refine congrArg (V c main_v99 : S1024x256.Idx → EReal) ?_
  funext a
  apply Fin.ext
  match a with
  | ⟨0, _⟩ => show win3_0.index t (0 : Fin 2) * 1024 + 1 * (x 0).val = (i 0).val; rw [e0, h0]; omega
  | ⟨1, _⟩ => show win3_0.index t (1 : Fin 2) * 256 + 1 * (x 1).val = (i 1).val; rw [e1, h1]; omega

/-- The embedding window's block at point t is rows 2560·t … 2560·t + 2559 of the padded table. -/
theorem tableBlock_apply (c : Dev nD) (t : Fin cfg3.N) (x : S2560x256.Idx) (i : S102400x256.Idx)
    (h0 : (i 0).val = t.val * 2560 + (x 0).val) (h1 : (i 1).val = (x 1).val) :
    (iblk3 V c 1 t : FVec Ideal S2560x256 .f32) x = (V c main_v100 : S102400x256.Idx → EReal) i := by
  obtain ⟨-, -, e0, e1, -⟩ := index_facts t
  unfold iblk3
  rw [View.read_apply]
  show (V c main_v100 : S102400x256.Idx → EReal) _ = V c main_v100 i
  refine congrArg (V c main_v100 : S102400x256.Idx → EReal) ?_
  funext a
  apply Fin.ext
  match a with
  | ⟨0, _⟩ => show win3_1.index t (0 : Fin 2) * 2560 + 1 * (x 0).val = (i 0).val; rw [e0, h0]; omega
  | ⟨1, _⟩ => show win3_1.index t (1 : Fin 2) * 256 + 1 * (x 1).val = (i 1).val; rw [e1, h1]; omega

/-! ## What a point writes back -/

/-- Point t writes back its block of the logits: the part of the stored block inside the array, entry by entry. -/
theorem flushed_eq (c : Dev nD) (t : Fin cfg3.N) :
    (dat3 (F := Ideal) V c).flushed 2 t
      = ((cfg3.win 2).blk t).view.read (Elt Ideal) (logitsOf (V c main_v99) (V c main_v100)) := by
  show (cfg3.win 2).cut (grid3.coords t) ((dat3 (F := Ideal) V c).after 2 t) = _
  rw [after3_2]
  unfold out3_2
  rw [View.canon_unit_zero zeros2]
  simp only [View.ld_unit_zero (S := S2560x256) zeros2, View.ld_unit_zero (S := S1024x256) zeros2]
  obtain ⟨-, -, -, -, e0, e1, s0, s1⟩ := index_facts t
  have hN : cfg3.N = 40 := N_3
  have htlt : t.val < 40 := hN ▸ t.isLt
  funext y
  rw [View.read_apply]
  have hy0 : (y 0).val < 1024 := lt_of_lt_of_eq (y 0).isLt s0
  have hy1 : (y 1).val < min 2560 (100000 - t.val * 2560) := lt_of_lt_of_eq (y 1).isLt s1
  have hq : (y 1).val < 2560 := by omega
  have hx : (cfg3.win 2).xinj (grid3.coords t) y = ix2 (⟨(y 0).val, hy0⟩ : Fin 1024) (⟨(y 1).val, hq⟩ : Fin 2560) := by
    funext a
    match a with
    | ⟨0, _⟩ => exact Fin.ext rfl
    | ⟨1, _⟩ => exact Fin.ext rfl
  show k3_pay1 (F := Ideal) (iblk3 V c 1 t) (iblk3 V c 0 t) ((cfg3.win 2).xinj (grid3.coords t) y)
      = logitsOf (V c main_v99) (V c main_v100) (((cfg3.win 2).blk t).view.emb y)
  rw [hx]
  have hc0 : ((((cfg3.win 2).blk t).view.emb y) 0).val = win3_2.index t (0 : Fin 2) * 1024 + 1 * (y 0).val := rfl
  have hc1 : ((((cfg3.win 2).blk t).view.emb y) 1).val = win3_2.index t (1 : Fin 2) * 2560 + 1 * (y 1).val := rfl
  unfold logitsOf
  refine entry_of_block (V c main_v99) (V c main_v100) (iblk3 V c 1 t) (iblk3 V c 0 t)
    ⟨(y 0).val, hy0⟩ _ ⟨(y 1).val, hq⟩ _ ⟨t.val * 2560 + (y 1).val, by omega⟩ ?_ (fun k => ?_) (fun k => ?_)
  · show t.val * 2560 + (y 1).val = ((((cfg3.win 2).blk t).view.emb y) 1).val
    rw [hc1, e1]; omega
  · refine queryBlock_apply V c t _ _ ?_ rfl
    show ((((cfg3.win 2).blk t).view.emb y) 0).val = (y 0).val
    rw [hc0, e0]; omega
  · exact tableBlock_apply V c t _ _ rfl rfl

/-! ## The cover -/

/-- An entry of the array lies in point t's block iff, on each axis, its coordinate is among those the block keeps
    inside the array. -/
theorem mem_block (t : Fin cfg3.N) (i : S1024x100000.Idx) :
    i ∈ ((cfg3.win 2).blk t).view.set ↔ ∀ a : Fin 2, win3_2.index t a * S1024x2560.size a ≤ (i a).val
      ∧ (i a).val < win3_2.index t a * S1024x2560.size a + win3_2.xsize (grid3.coords t) a := by
  show i ∈ ((View.whole main_v101).slice (win3_2.rect t)).set ↔ _
  rw [View.set_slice_whole, Rect.mem_set_unit]
  exact Iff.rfl

/-- Column j is written by point j / 2560. -/
theorem covered (i : S1024x100000.Idx) :
    ∃ t : Fin cfg3.N, (cfg3.win 2).flush t = true ∧ i ∈ ((cfg3.win 2).blk t).view.set := by
  have hN : cfg3.N = 40 := N_3
  have hi0 : (i 0).val < 1024 := idx2_lt0 i
  have hi1 : (i 1).val < 100000 := idx2_lt1 i
  have ht : (i 1).val / 2560 < cfg3.N := by rw [hN]; omega
  refine ⟨⟨(i 1).val / 2560, ht⟩, flush3_2 _, ?_⟩
  obtain ⟨-, -, -, -, e0, e1, s0, s1⟩ := index_facts ⟨(i 1).val / 2560, ht⟩
  have e1' : win3_2.index ⟨(i 1).val / 2560, ht⟩ (1 : Fin 2) = (i 1).val / 2560 := e1
  have s1' : win3_2.xsize (grid3.coords ⟨(i 1).val / 2560, ht⟩) (1 : Fin 2) = min 2560 (100000 - (i 1).val / 2560 * 2560) := s1
  rw [mem_block]
  intro a
  match a with
  | ⟨0, _⟩ =>
    show win3_2.index ⟨(i 1).val / 2560, ht⟩ (0 : Fin 2) * 1024 ≤ (i 0).val
      ∧ (i 0).val < win3_2.index ⟨(i 1).val / 2560, ht⟩ (0 : Fin 2) * 1024 + win3_2.xsize (grid3.coords ⟨(i 1).val / 2560, ht⟩) (0 : Fin 2)
    rw [e0, s0]; omega
  | ⟨1, _⟩ =>
    show win3_2.index ⟨(i 1).val / 2560, ht⟩ (1 : Fin 2) * 2560 ≤ (i 1).val
      ∧ (i 1).val < win3_2.index ⟨(i 1).val / 2560, ht⟩ (1 : Fin 2) * 2560 + win3_2.xsize (grid3.coords ⟨(i 1).val / 2560, ht⟩) (1 : Fin 2)
    rw [e1', s1']; omega

/-! ## The array the region leaves -/

/-- The region leaves the whole array of logits. -/
theorem array_eq (c : Dev nD) :
    (dat3 (F := Ideal) V c).arrAt 2 cfg3.N = logitsOf (V c main_v99) (V c main_v100) :=
  (dat3 (F := Ideal) V c).arrAt_eq_of_cover 2 (logitsOf (V c main_v99) (V c main_v100)) (fun t _ => flushed_eq V c t) covered

/-- Entry (p, j) of what the region leaves. -/
theorem logits_value' (c : Dev nD) (p : Fin 1024) (j : Fin 100000) :
    (dat3 (F := Ideal) V c).arrAt 2 cfg3.N (ix2 p j) = entry (V c main_v99) (V c main_v100) p j := by
  rw [array_eq]
  rfl

/-- Entry (p, j) of what the region leaves, written out over the two input arrays. -/
theorem logits_value (c : Dev nD) (p : Fin 1024) (j : Fin 100000)
    (HS : S1024x256.Idx → EReal) (BP : S102400x256.Idx → EReal) (hHS : HS = V c main_v99) (hBP : BP = V c main_v100) :
    (dat3 (F := Ideal) V c).arrAt 2 cfg3.N (ix2 p j)
      = (∑ k : Fin 256, HS (ix2 p k) *
          Ideal.div (BP (ix2 (⟨j.val, by omega⟩ : Fin 102400) k))
            (max (Ideal.sqrt (∑ k' : Fin 256,
                BP (ix2 (⟨j.val, by omega⟩ : Fin 102400) k') * BP (ix2 (⟨j.val, by omega⟩ : Fin 102400) k')))
              (Ideal.ofBits .f32 0x2B8CBCCC#32)) : EReal) := by
  subst hHS hBP
  exact logits_value' V c p j

end Region

end Cert.Bridge.Logits

end
-- ==== Proof.RefLogits.lean ====
/-
  The reference's scaled cosine logits read at an entry (p, j): the quotient by the clamped temperature of the inner
  product of row p of the normalised pooled state with row j of the block embeddings, each embedding row divided by
  the larger of its Euclidean norm and the small constant. Every stage is read through its index lemma; the pooled,
  normalised state stays an opaque array.
-/
import proofs.«120951_j23605140259147_2_alg».proof.Proof.RefReadP

noncomputable section

open scoped BigOperators

namespace Cert.Bridge.RefLogits

open Cert.ReferenceIdeal Cert.ReferenceIdeal.ReadP Idealize.ShloMosaic Idealize.ShloMosaic.ValueIdx

/-- Entry (p, j) of the reference's logits. -/
theorem ref_logits (x0 : (⟨S200000x128, .f32⟩ : BufTy).Contents (Elt Ideal)) (x1 : (⟨S2x800000, .i32⟩ : BufTy).Contents (Elt Ideal)) (x2 : (⟨S200000, .i32⟩ : BufTy).Contents (Elt Ideal)) (x3 : (⟨S100000x256, .f32⟩ : BufTy).Contents (Elt Ideal)) (x5 : (⟨S128x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x15 : (⟨S_, .f32⟩ : BufTy).Contents (Elt Ideal))
    (p : Fin 1024) (j : Fin 100000) :
    val_main_v112 (F := Ideal) x0 x1 x2 x3 x5 x6 x7 x8 x9 x10 x15 (ix2 p j)
      = Ideal.div (∑ k : Fin 256, val_main_v102 (F := Ideal) x0 x1 x2 x5 x6 x7 x8 x9 x10 (ix2 p k)
            * Ideal.div (x3 (ix2 j k)) (max (Ideal.sqrt (Ideal.ofBits .f32 0x00000000#32 + ∑ k' : Fin 256, x3 (ix2 j k') * x3 (ix2 j k')))
                (Ideal.ofBits .f32 0x2B8CBCCC#32)))
          (max (x15 ix0) (Ideal.ofBits .f32 0x38D1B717#32)) := by
  have e1 : ∀ k : Fin 256, lidx_main_v110 (ix2 p j) k = ix2 p k := fun k =>
    funext fun a => Fin.ext (by match a with | ⟨0, _⟩ => rfl | ⟨1, _⟩ => rfl)
  have e2 : ∀ k : Fin 256, idx_main_v109 (ridx_main_v110 (ix2 p j) k) = ix2 j k := fun k =>
    funext fun a => Fin.ext (by match a with | ⟨0, _⟩ => rfl | ⟨1, _⟩ => rfl)
  have e3 : ∀ k k' : Fin 256, idx_main_call5_v1 (idx_main_call5_v2 (idx_main_v106 (ix2 j k))) k' = ix2 j k' := fun k k' =>
    funext fun a => Fin.ext (by match a with | ⟨0, _⟩ => rfl | ⟨1, _⟩ => rfl)
  have e4 : idx_main_v111 (ix2 p j) = ix0 := funext fun a => a.elim0
  rw [val_main_v112_apply, val_main_v110_apply, val_main_v111_apply, val_main_v108_apply, val_main_cst_22_apply, e4]
  simp only [e1, val_main_v109_apply, e2, val_main_v107_apply, val_main_v106_apply, val_main_v105_apply, val_main_v103_apply,
    val_main_call5_v2_apply, val_main_call5_v1_apply, val_main_call5_cst_apply, val_main_call5_v0_apply, e3,
    val_main_v104_apply, val_main_cst_21_apply,
    Ideal.hostDivf_def, Ideal.maximumf_def, Ideal.mulf_def, Ideal.ofBits_def, Ideal.hostUnary_sqrt_def]

end Cert.Bridge.RefLogits

end
-- ==== Proof.TempLaw.lean ====
/-
  Dividing by a temperature that is bounded below by a positive real number.

  Let T be an extended real with c ≤ T for some real c > 0 (T = ⊤ allowed).  Then T ≠ 0, so x / T = x · T⁻¹ for every
  extended real x, and T⁻¹ is a NONNEGATIVE REAL number (⊤⁻¹ = 0).  A nonnegative real factor commutes with every finite
  sum of extended reals, so dividing every left factor of a dot product by T is dividing the dot product by T:
      ∑ k, (a k / T) · b k = (∑ k, a k · b k) / T,
  with no finiteness asked of a or b.  Last, the maximum of any extended real and the f32 number 1e-4 (the word
  0x38D1B717 = 13743895 · 2⁻³⁷) is bounded below by that positive real.
-/
import Idealize.ShloMosaic.PureOps.Ideal
import Idealize.ShloMosaic.PureOps.Ideal.Laws
import proofs.«120951_j23605140259147_2_alg».proof.Proof.ERealScale

noncomputable section

open scoped BigOperators

namespace Cert.Bridge.Temp

open Idealize.ShloMosaic

/-- The inverse of an extended real bounded below by a positive real is a nonnegative real (the inverse of ⊤ is 0). -/
theorem inv_isReal (T : EReal) (hT : ∃ c : ℝ, 0 < c ∧ (c : EReal) ≤ T) : ∃ r : ℝ, 0 ≤ r ∧ T⁻¹ = (r : EReal) := by
  obtain ⟨c, hc, hcT⟩ := hT
  induction T using EReal.rec with
  | bot => exact absurd hcT (not_le.mpr (EReal.bot_lt_coe c))
  | top => exact ⟨0, le_rfl, by rw [EReal.inv_top, EReal.coe_zero]⟩
  | coe t =>
    have ht : c ≤ t := EReal.coe_le_coe_iff.mp hcT
    exact ⟨t⁻¹, inv_nonneg.mpr (by linarith), (EReal.coe_inv t).symm⟩

/-- Such a T is not zero. -/
theorem ne_zero (T : EReal) (hT : ∃ c : ℝ, 0 < c ∧ (c : EReal) ≤ T) : T ≠ 0 := by
  obtain ⟨c, hc, hcT⟩ := hT
  exact ne_of_gt (lt_of_lt_of_le (EReal.coe_pos.mpr hc) hcT)

/-- Dividing by such a T is multiplying by its inverse. -/
theorem div_eq_mul_inv (x T : EReal) (hT : ∃ c : ℝ, 0 < c ∧ (c : EReal) ≤ T) : Ideal.div x T = x * T⁻¹ := by
  unfold Ideal.div
  rw [if_neg (ne_zero T hT)]

/-- DIVIDING THE LEFT FACTORS OF A DOT PRODUCT BY T IS DIVIDING THE DOT PRODUCT BY T. -/
theorem div_sum_comm {ι : Type*} [Fintype ι] (a b : ι → EReal) (T : EReal) (hT : ∃ c : ℝ, 0 < c ∧ (c : EReal) ≤ T) :
    ∑ k, Ideal.div (a k) T * b k = Ideal.div (∑ k, a k * b k) T := by
  obtain ⟨r, hr, hinv⟩ := inv_isReal T hT
  rw [div_eq_mul_inv _ T hT, hinv, Scale.sum_mul_real Finset.univ _ r hr]
  refine Finset.sum_congr rfl fun k _ => ?_
  rw [div_eq_mul_inv _ T hT, hinv, mul_assoc, mul_comm (r : EReal) (b k), ← mul_assoc]

/-- The f32 word 0x38D1B717 is the real number 13743895 · 2⁻³⁷ (the f32 nearest 1e-4). -/
theorem ofBits_temp : Ideal.ofBits .f32 0x38D1B717#32 = (((13743895 : ℝ) * (2 : ℝ) ^ (-37 : Int) : ℝ) : EReal) := by
  have e1 : (BitVec.extractLsb' 31 1 (0x38D1B717#32) == 1#1) = false := by decide
  have e2 : (BitVec.extractLsb' 23 8 (0x38D1B717#32)).toNat = 113 := by decide
  have e3 : (BitVec.extractLsb' 0 23 (0x38D1B717#32)).toNat = 5355287 := by decide
  simp only [Ideal.ofBits, Ideal.ieee, e1, e2, e3]
  norm_num

/-- The maximum of anything and that number is bounded below by a positive real. -/
theorem temp_pos (t : EReal) : ∃ c : ℝ, 0 < c ∧ (c : EReal) ≤ max t (Ideal.ofBits .f32 0x38D1B717#32) := by
  refine ⟨(13743895 : ℝ) * (2 : ℝ) ^ (-37 : Int), by positivity, ?_⟩
  rw [ofBits_temp]
  exact le_max_right _ _

end Cert.Bridge.Temp

end
-- ==== Proof.K5.lean ====
/-
  The fourth region of the idealized kernel program against the reference's scaled cosine logits, entry by entry.
  At (p, j) the region leaves the inner product of row p of its first operand with row j of the padded block
  embeddings normalised by the larger of the row's Euclidean norm and the small constant. Row j < 100000 of the
  padded array is the embeddings' own row j; the first operand is the normalised pooled state divided by the clamped
  temperature T. The reference divides the inner product by T instead. Since T is at least a positive real, 1/T is
  a nonnegative real, which moves across each product and distributes over the finite sum.
-/
import proofs.«120951_j23605140259147_2_alg».proof.Proof.K4
import proofs.«120951_j23605140259147_2_alg».proof.Proof.LogitsValue
import proofs.«120951_j23605140259147_2_alg».proof.Proof.RefLogits
import proofs.«120951_j23605140259147_2_alg».proof.Proof.TempLaw
import Idealize.ShloMosaic.Lib.KernelVsHost
import Idealize.ShloMosaic.PureOps.Ideal.Laws

set_option maxRecDepth 16384

noncomputable section

open scoped BigOperators

namespace Cert.Bridge.K5

open Cert.KernelIdeal Cert.KernelIdeal.Gen Idealize.ShloMosaic Idealize.ShloMosaic.TcCoe Idealize.SL.Sem Idealize.ShloMosaic.StableHlo
open Idealize.ShloMosaic.ValueIdx
open Cert.ReferenceIdeal.ReadP (val_main_v102 val_main_v108 val_main_v112)

variable (m : (ℓ : Loc nD τ sig) → Buf (Elt Ideal) ℓ) (ρ : Dev nD → PrngReg) (c : Dev nD)

/-- Row j < 100000 of the zero-padded block embeddings is the embeddings' own row. -/
theorem padded_row (x : (⟨S100000x256, .f32⟩ : BufTy).Contents (Elt Ideal)) (v : (⟨S_, .f32⟩ : BufTy).Contents (Elt Ideal))
    (j : Fin 100000) (k : Fin 256) :
    pad S102400x256 ![0, 0] ![2400, 0] ![0, 0] x v pads_S100000x256_S102400x256_024000_000 h_S_
      (ix2 (⟨j.val, by omega⟩ : Fin 102400) k) = x (ix2 j k) :=
  pad_apply_of_inside _ _ _ x v pads_S100000x256_S102400x256_024000_000 h_S_ _ (ix2 j k) (fun a => by
    match a with
    | ⟨0, _⟩ => show j.val = 0 + j.val * (0 + 1); omega
    | ⟨1, _⟩ => show k.val = 0 + k.val * (0 + 1); omega)

/-- An entry of the scaled operand: the normalised pooled state's entry over the clamped temperature. -/
theorem scaled_entry (HN : (⟨S1024x256, .f32⟩ : BufTy).Contents (Elt Ideal)) (T : (⟨S_, .f32⟩ : BufTy).Contents (Elt Ideal))
    (p : Fin 1024) (k : Fin 256) :
    Host.divf (F := Ideal) (φ := .f32) HN (broadcastInDim S1024x256 ![] bcast_S_S1024x256 T) (ix2 p k) = Ideal.div (HN (ix2 p k)) (T ix0) := by
  show Ideal.div (HN (ix2 p k)) (broadcastInDim S1024x256 ![] bcast_S_S1024x256 T (ix2 p k)) = _
  rw [broadcastInDim_apply _ bcast_S_S1024x256 T (ix2 p k) ix0 (fun a => a.elim0)]

/-- The first result: the fourth region leaves the reference's block logits. -/
theorem logits_out : W16 m ρ c (Proc.devRef .tc main_v101) = val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg15)) := by
  refine (W16_arr m ρ c 2).trans ?_
  funext i
  obtain ⟨p, j, rfl⟩ : ∃ (p : Fin 1024) (j : Fin 100000), i = ix2 p j := ⟨i 0, i 1, eq_ix2 i⟩
  refine (Cert.Bridge.Logits.logits_value' (V15 m ρ) c p j).trans ?_
  show Cert.Bridge.Logits.entry (W15 m ρ c (Proc.devRef .tc main_v99)) (W15 m ρ c (Proc.devRef .tc main_v100)) p j = _
  rw [K4.scaled, K4.padded, Cert.Bridge.Logits.entry_eq, Cert.Bridge.RefLogits.ref_logits]
  have BP : ∀ k : Fin 256,
      pad S102400x256 ![0, 0] ![2400, 0] ![0, 0] (m ((c : Thread nD τ).loc main_arg3)) (sitofp (F := Ideal) .f32 (constantI S_ 32 0#32))
        pads_S100000x256_S102400x256_024000_000 h_S_ (ix2 (⟨j.val, by omega⟩ : Fin 102400) k)
      = m ((c : Thread nD τ).loc main_arg3) (ix2 j k) := fun k => padded_row _ _ j k
  have HS : ∀ k : Fin 256,
      Host.divf (F := Ideal) (φ := .f32) (val_main_v102 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
        (broadcastInDim S1024x256 ![] bcast_S_S1024x256 (val_main_v108 (F := Ideal) (m ((c : Thread nD τ).loc main_arg15)))) (ix2 p k)
      = Ideal.div (val_main_v102 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 p k)) (val_main_v108 (F := Ideal) (m ((c : Thread nD τ).loc main_arg15)) ix0) :=
    fun k => scaled_entry _ _ p k
  simp only [BP, HS]
  rw [Cert.ReferenceIdeal.ReadP.val_main_v108_apply, Cert.ReferenceIdeal.ReadP.val_main_cst_22_apply]
  simp only [Ideal.maximumf_def, Ideal.ofBits_def]
  rw [Cert.Bridge.Temp.div_sum_comm _ _ _ (Cert.Bridge.Temp.temp_pos _), Ideal.ofBits_zero_f32]
  simp only [zero_add]

end Cert.Bridge.K5

end
-- ==== Proof.RxnSpec.lean ====
/-
  The reaction head as one formula.  For an input row p and an output column q, the head's entry (p, q) is

      (sum over j of  max ((sum over k of X (p, k) * W1 (k, j)) + b1 j) 0  *  W2 (j, q))  +  b2 q :

  a dense layer with bias, the positive part, a second dense layer with bias, all on the extended reals.
-/
import Idealize.ShloMosaic.PureOps.Ideal
import Idealize.ShloMosaic.Lib.ValueIdx

noncomputable section

open scoped BigOperators

namespace Cert.Bridge.Rxn

open Idealize.ShloMosaic Idealize.ShloMosaic.ValueIdx

/-- The hidden layer's entry (p, j): the positive part of row p of X times column j of W1, plus b1 j. -/
def hiddenAt (X : FVec Ideal ⟨2, ![1024, 512]⟩ .f32) (W1 : FVec Ideal ⟨2, ![512, 256]⟩ .f32)
    (b1 : FVec Ideal ⟨1, ![256]⟩ .f32) (p : Fin 1024) (j : Fin 256) : EReal :=
  max ((∑ k : Fin 512, X (ix2 p k) * W1 (ix2 k j)) + b1 (ix1 j)) 0

/-- The head's entry (p, q): row p of the hidden layer times column q of W2, plus b2 q. -/
def rxnAt (X : FVec Ideal ⟨2, ![1024, 512]⟩ .f32) (W1 : FVec Ideal ⟨2, ![512, 256]⟩ .f32)
    (b1 : FVec Ideal ⟨1, ![256]⟩ .f32) (W2 : FVec Ideal ⟨2, ![256, 128]⟩ .f32) (b2 : FVec Ideal ⟨1, ![128]⟩ .f32)
    (p : Fin 1024) (q : Fin 128) : EReal :=
  (∑ j : Fin 256, hiddenAt X W1 b1 p j * W2 (ix2 j q)) + b2 (ix1 q)

end Cert.Bridge.Rxn

end
-- ==== Proof.RxnPayload.lean ====
/-
  The reaction kernel's one store, read at an index.  The body forms X W1 on the matrix unit into a zero
  accumulator, adds the bias b1 spread over the rows, takes the positive part, forms the product with W2 the same
  way and adds b2 spread over the rows.  On the extended reals the changes of float format are the identity, the zero
  word is 0, a matrix product into the zero accumulator is the plain contraction sum, and a vector cast to one row
  and spread over the rows reads, at (p, q), the vector's entry q: so the stored block at (p, q) is the head's
  formula.
-/
import proofs.«120951_j23605140259147_2_alg».proof.Proof.Gen.KernelIdeal.Skeleton
import proofs.«120951_j23605140259147_2_alg».proof.Proof.RxnSpec
import proofs.«120951_j23605140259147_2_alg».proof.Proof.LibPlainDot
import Idealize.ShloMosaic.Lib.ValueLayout

noncomputable section

open scoped BigOperators

namespace Cert.Bridge.Rxn

open Idealize.ShloMosaic Idealize.ShloMosaic.ValueIdx
open Cert.KernelIdeal Cert.KernelIdeal.Gen

/-- The hidden layer as the body computes it: the first product plus the bias rows, then the positive part. -/
def kHidden (X : FVec Ideal S1024x512 .f32) (W1 : FVec Ideal S512x256 .f32) (b1 : FVec Ideal S256 .f32) :
    FVec Ideal S1024x256 .f32 :=
  maximumf
    (addf
      (matmul dot_S1024x512_S512x256_S1024x256_1_0_0_1_n_n none
        (truncf .bf16 (shapeCast S1024x512 X shapeCasts_S1024x512_S1024x512) bitsLt_bf16_f32)
        (truncf .bf16 W1 bitsLt_bf16_f32) (constant S1024x256 .f32 0x00000000#32))
      (broadcastTo S1024x256 (shapeCast S1x256 b1 shapeCasts_S256_S1x256) broadcasts_S1x256_S1024x256))
    (broadcast S1024x256 (Scalar.ofBits .f32 0x00000000#32))

/-- The payload is the second product of the hidden layer, plus the second bias rows. -/
theorem pay_eq (X : FVec Ideal S1024x512 .f32) (W1 : FVec Ideal S512x256 .f32) (b1 : FVec Ideal S256 .f32)
    (W2 : FVec Ideal S256x128 .f32) (b2 : FVec Ideal S128 .f32) :
    k4_pay1 (F := Ideal) X W1 b1 W2 b2
      = addf
          (matmul dot_S1024x256_S256x128_S1024x128_1_0_0_1_n_n none
            (truncf .bf16 (kHidden X W1 b1) bitsLt_bf16_f32) (truncf .bf16 W2 bitsLt_bf16_f32)
            (constant S1024x128 .f32 0x00000000#32))
          (broadcastTo S1024x128 (shapeCast S1x128 b2 shapeCasts_S128_S1x128) broadcasts_S1x128_S1024x128) := rfl

/-- A vector cast to one row and spread over the rows reads, at (p, q), the vector's entry q. -/
theorem biasRows_apply {a b : Nat} (v : FVec Ideal ⟨1, ![b]⟩ .f32) (h : (⟨1, ![b]⟩ : Shape).ShapeCasts ⟨2, ![1, b]⟩)
    (h' : (⟨2, ![1, b]⟩ : Shape).Broadcasts ⟨2, ![a, b]⟩) (p : Fin a) (q : Fin b) :
    broadcastTo (⟨2, ![a, b]⟩ : Shape) (shapeCast (⟨2, ![1, b]⟩ : Shape) v h) h' (ix2 p q) = v (ix1 q) :=
  (broadcastTo_1b_ab_apply _ h' p q).trans (shapeCast_a_1a_apply v h (0 : Fin 1) q)

/-- The hidden layer at (p, j). -/
theorem kHidden_apply (X : FVec Ideal S1024x512 .f32) (W1 : FVec Ideal S512x256 .f32) (b1 : FVec Ideal S256 .f32)
    (p : Fin 1024) (j : Fin 256) : kHidden X W1 b1 (ix2 p j) = hiddenAt X W1 b1 p j := by
  unfold kHidden hiddenAt
  refine (maximumf_apply _ _ (ix2 p j)).trans ?_
  refine congrArg₂ max ((addf_apply _ _ (ix2 p j)).trans (congrArg₂ (· + ·) ?_ ?_)) ?_
  · refine (matmul_zero_plain dot_S1024x512_S512x256_S1024x256_1_0_0_1_n_n rfl rfl rfl rfl rfl rfl none _ _ p j).trans ?_
    refine Finset.sum_congr rfl fun k _ => ?_
    show shapeCast S1024x512 X shapeCasts_S1024x512_S1024x512 (ix2 p k) * W1 (ix2 k j) = _
    rw [shapeCast_self]
  · exact biasRows_apply b1 shapeCasts_S256_S1x256 broadcasts_S1x256_S1024x256 p j
  · exact Ideal.ofBits_zero_f32

/-- THE STORED BLOCK at (p, q) is the head's formula of the five loaded blocks. -/
theorem pay_apply (X : FVec Ideal S1024x512 .f32) (W1 : FVec Ideal S512x256 .f32) (b1 : FVec Ideal S256 .f32)
    (W2 : FVec Ideal S256x128 .f32) (b2 : FVec Ideal S128 .f32) (p : Fin 1024) (q : Fin 128) :
    k4_pay1 (F := Ideal) X W1 b1 W2 b2 (ix2 p q) = rxnAt X W1 b1 W2 b2 p q := by
  refine (congrFun (pay_eq X W1 b1 W2 b2) (ix2 p q)).trans ?_
  unfold rxnAt
  refine (addf_apply _ _ (ix2 p q)).trans (congrArg₂ (· + ·) ?_ ?_)
  · refine (matmul_zero_plain dot_S1024x256_S256x128_S1024x128_1_0_0_1_n_n rfl rfl rfl rfl rfl rfl none _ _ p q).trans ?_
    refine Finset.sum_congr rfl fun j _ => ?_
    show kHidden X W1 b1 (ix2 p j) * W2 (ix2 j q) = _
    rw [kHidden_apply]
  · exact biasRows_apply b2 shapeCasts_S128_S1x128 broadcasts_S1x128_S1024x128 p q

end Cert.Bridge.Rxn

end
-- ==== Proof.RxnRef.lean ====
/-
  The reference's reaction head, read at an index.  The reference forms the same head with host operations: a
  dot_general, the bias spread to one row and then over the rows, the maximum with a spread zero, a second
  dot_general and a second spread bias.  On the extended reals a host dot_general of plain dimension numbers is the
  contraction sum, a vector spread to a row and then over the rows reads, at (p, q), the vector's entry q, and the
  spread zero word is 0: so the reference's term at (p, q) is the head's formula.
-/
import proofs.«120951_j23605140259147_2_alg».proof.Proof.Gen.ReferenceIdeal
import proofs.«120951_j23605140259147_2_alg».proof.Proof.RxnSpec
import proofs.«120951_j23605140259147_2_alg».proof.Proof.LibPlainDot
import proofs.«120951_j23605140259147_2_alg».proof.Proof.LibBroadcastInDim2
import proofs.«120951_j23605140259147_2_alg».proof.Proof.LibSideBySide

noncomputable section

open scoped BigOperators

namespace Cert.Bridge.Rxn

open Idealize.ShloMosaic Idealize.ShloMosaic.ValueIdx Idealize.ShloMosaic.BroadcastInDim2
open Cert.ReferenceIdeal Cert.ReferenceIdeal.Gen

/-- The reference's hidden layer: the first product plus the spread bias, then the maximum with the spread zero. -/
def refHidden (X : FVec Ideal S1024x512 .f32) (W1 : FVec Ideal S512x256 .f32) (b1 : FVec Ideal S256 .f32) :
    FVec Ideal S1024x256 .f32 :=
  maximumf
    (addf (Host.dotGeneral dot_S1024x512_S512x256_S1024x256_1_0_0_1_n_n none X W1)
      (broadcastInDim S1024x256 ![0, 1] bcast_S1x256_S1024x256_0_1 (broadcastInDim S1x256 ![1] bcast_S256_S1x256_1 b1)))
    (broadcastInDim S1024x256 ![] bcast_S_S1024x256 (constant (F := Ideal) S_ .f32 0x00000000#32))

/-- The reference's head as one term of its five operands. -/
def rxnRef (X : FVec Ideal S1024x512 .f32) (W1 : FVec Ideal S512x256 .f32) (b1 : FVec Ideal S256 .f32)
    (W2 : FVec Ideal S256x128 .f32) (b2 : FVec Ideal S128 .f32) : FVec Ideal S1024x128 .f32 :=
  addf (Host.dotGeneral dot_S1024x256_S256x128_S1024x128_1_0_0_1_n_n none (refHidden X W1 b1) W2)
    (broadcastInDim S1024x128 ![0, 1] bcast_S1x128_S1024x128_0_1 (broadcastInDim S1x128 ![1] bcast_S128_S1x128_1 b2))

/-- The term written out in the reference's operations. -/
theorem rxnRef_eq (X : FVec Ideal S1024x512 .f32) (W1 : FVec Ideal S512x256 .f32) (b1 : FVec Ideal S256 .f32)
    (W2 : FVec Ideal S256x128 .f32) (b2 : FVec Ideal S128 .f32) :
    rxnRef X W1 b1 W2 b2
      = addf (Host.dotGeneral dot_S1024x256_S256x128_S1024x128_1_0_0_1_n_n none
            (maximumf
              (addf (Host.dotGeneral dot_S1024x512_S512x256_S1024x256_1_0_0_1_n_n none X W1)
                (broadcastInDim S1024x256 ![0, 1] bcast_S1x256_S1024x256_0_1 (broadcastInDim S1x256 ![1] bcast_S256_S1x256_1 b1)))
              (broadcastInDim S1024x256 ![] bcast_S_S1024x256 (constant (F := Ideal) S_ .f32 0x00000000#32))) W2)
          (broadcastInDim S1024x128 ![0, 1] bcast_S1x128_S1024x128_0_1 (broadcastInDim S1x128 ![1] bcast_S128_S1x128_1 b2)) := rfl

/-- A vector spread to one row and then over the rows reads, at (p, q), the vector's entry q. -/
theorem hostBiasRows_apply {a b : Nat} (v : FVec Ideal ⟨1, ![b]⟩ .f32)
    (h : (⟨1, ![b]⟩ : Shape).BroadcastsInDim ⟨2, ![1, b]⟩ (![1] : Fin 1 → Fin 2))
    (h' : (⟨2, ![1, b]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h'
        (broadcastInDim (⟨2, ![1, b]⟩ : Shape) (![1] : Fin 1 → Fin 2) h v) (ix2 p q) = v (ix1 q) :=
  (rowToMat_apply _ h' p q).trans (vecToRow_apply v h (0 : Fin 1) q)

/-- The reference's hidden layer at (p, j). -/
theorem refHidden_apply (X : FVec Ideal S1024x512 .f32) (W1 : FVec Ideal S512x256 .f32) (b1 : FVec Ideal S256 .f32)
    (p : Fin 1024) (j : Fin 256) : refHidden X W1 b1 (ix2 p j) = hiddenAt X W1 b1 p j := by
  unfold refHidden hiddenAt
  refine (maximumf_apply _ _ (ix2 p j)).trans ?_
  refine congrArg₂ max ((addf_apply _ _ (ix2 p j)).trans (congrArg₂ (· + ·) ?_ ?_)) ?_
  · exact dotGeneral_plain dot_S1024x512_S512x256_S1024x256_1_0_0_1_n_n rfl rfl rfl rfl rfl rfl none .single X W1 p j
  · exact hostBiasRows_apply b1 bcast_S256_S1x256_1 bcast_S1x256_S1024x256_0_1 p j
  · refine (splat_apply bcast_S_S1024x256 _ (ix2 p j)).trans ?_
    exact Ideal.ofBits_zero_f32

/-- THE REFERENCE'S HEAD at (p, q) is the head's formula of its five operands. -/
theorem rxnRef_apply (X : FVec Ideal S1024x512 .f32) (W1 : FVec Ideal S512x256 .f32) (b1 : FVec Ideal S256 .f32)
    (W2 : FVec Ideal S256x128 .f32) (b2 : FVec Ideal S128 .f32) (p : Fin 1024) (q : Fin 128) :
    rxnRef X W1 b1 W2 b2 (ix2 p q) = rxnAt X W1 b1 W2 b2 p q := by
  unfold rxnRef rxnAt
  refine (addf_apply _ _ (ix2 p q)).trans (congrArg₂ (· + ·) ?_ ?_)
  · refine (dotGeneral_plain dot_S1024x256_S256x128_S1024x128_1_0_0_1_n_n rfl rfl rfl rfl rfl rfl none .single
      (refHidden X W1 b1) W2 p q).trans ?_
    refine Finset.sum_congr rfl fun j _ => ?_
    rw [refHidden_apply]
  · exact hostBiasRows_apply b2 bcast_S128_S1x128_1 bcast_S1x128_S1024x128_0_1 p q

end Cert.Bridge.Rxn

end
-- ==== Proof.RxnValue.lean ====
/-
  The array the reaction region leaves.  The region's grid has one point and each of its six windows is its whole
  array: the block a window fetches at that point is the array itself, the body's one store fills the output's
  staging buffer with the head of the five input arrays, and the one write-back covers the whole output array.  So
  after the region the output array holds the head of the five arrays as the region found them, which, entry by
  entry, is the reference's own term for the head.
-/
import proofs.«120951_j23605140259147_2_alg».proof.Proof.Gen.KernelIdeal.Frame
import proofs.«120951_j23605140259147_2_alg».proof.Proof.RxnPayload
import proofs.«120951_j23605140259147_2_alg».proof.Proof.RxnRef
import Idealize.ShloMosaic.Lib.Pipeline.Value

set_option maxRecDepth 16384

noncomputable section

namespace Cert.Bridge.Rxn

open Idealize.ShloMosaic Idealize.ShloMosaic.TcCoe Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The stored block of whole arrays is the reference's term of them: both are the head's formula at every (p, q). -/
theorem pay_eq_ref (X : FVec Ideal S1024x512 .f32) (W1 : FVec Ideal S512x256 .f32) (b1 : FVec Ideal S256 .f32)
    (W2 : FVec Ideal S256x128 .f32) (b2 : FVec Ideal S128 .f32) :
    k4_pay1 (F := Ideal) X W1 b1 W2 b2 = rxnRef X W1 b1 W2 b2 := by
  funext j
  obtain ⟨p, q, rfl⟩ : ∃ (p : Fin 1024) (q : Fin 128), j = ix2 p q := ⟨j 0, j 1, eq_ix2 j⟩
  exact (pay_apply X W1 b1 W2 b2 p q).trans (rxnRef_apply X W1 b1 W2 b2 p q).symm

theorem hz2 : (![0, 0] : Fin 2 → Nat) = fun _ => 0 := funext fun a => by fin_cases a <;> rfl
theorem hz1 : (![0] : Fin 1 → Nat) = fun _ => 0 := funext fun a => by fin_cases a <;> rfl

/-! ## Each window's block at the one point is its whole array -/

theorem off0 (t : Fin cfg4.N) : (fun a => win4_0.index t a * main_v109.ty.shape.size a) = fun _ => 0 :=
  funext fun a => by fin_cases a <;> rfl
theorem off1 (t : Fin cfg4.N) : (fun a => win4_1.index t a * main_arg11.ty.shape.size a) = fun _ => 0 :=
  funext fun a => by fin_cases a <;> rfl
theorem off2 (t : Fin cfg4.N) : (fun a => win4_2.index t a * main_arg12.ty.shape.size a) = fun _ => 0 :=
  funext fun a => by fin_cases a <;> rfl
theorem off3 (t : Fin cfg4.N) : (fun a => win4_3.index t a * main_arg13.ty.shape.size a) = fun _ => 0 :=
  funext fun a => by fin_cases a <;> rfl
theorem off4 (t : Fin cfg4.N) : (fun a => win4_4.index t a * main_arg14.ty.shape.size a) = fun _ => 0 :=
  funext fun a => by fin_cases a <;> rfl
theorem off5 (t : Fin cfg4.N) : (fun a => win4_5.index t a * main_v110.ty.shape.size a) = fun _ => 0 :=
  funext fun a => by fin_cases a <;> rfl

theorem iblk_0 (c : Dev nD) (t : Fin cfg4.N) :
    (iblk4 V c 0 t : S1024x512.Idx → Elt Ideal .f32) = (V c main_v109 : S1024x512.Idx → Elt Ideal .f32) := by
  unfold iblk4
  exact Memref.read_access_unit_zero (Elt Ideal) main_v109 (off0 t) (fun a => by rw [congrFun (off0 t) a]; simp) (V c main_v109)
theorem iblk_1 (c : Dev nD) (t : Fin cfg4.N) :
    (iblk4 V c 1 t : S512x256.Idx → Elt Ideal .f32) = (V c main_arg11 : S512x256.Idx → Elt Ideal .f32) := by
  unfold iblk4
  exact Memref.read_access_unit_zero (Elt Ideal) main_arg11 (off1 t) (fun a => by rw [congrFun (off1 t) a]; simp) (V c main_arg11)
theorem iblk_2 (c : Dev nD) (t : Fin cfg4.N) :
    (iblk4 V c 2 t : S256.Idx → Elt Ideal .f32) = (V c main_arg12 : S256.Idx → Elt Ideal .f32) := by
  unfold iblk4
  exact Memref.read_access_unit_zero (Elt Ideal) main_arg12 (off2 t) (fun a => by rw [congrFun (off2 t) a]; simp) (V c main_arg12)
theorem iblk_3 (c : Dev nD) (t : Fin cfg4.N) :
    (iblk4 V c 3 t : S256x128.Idx → Elt Ideal .f32) = (V c main_arg13 : S256x128.Idx → Elt Ideal .f32) := by
  unfold iblk4
  exact Memref.read_access_unit_zero (Elt Ideal) main_arg13 (off3 t) (fun a => by rw [congrFun (off3 t) a]; simp) (V c main_arg13)
theorem iblk_4 (c : Dev nD) (t : Fin cfg4.N) :
    (iblk4 V c 4 t : S128.Idx → Elt Ideal .f32) = (V c main_arg14 : S128.Idx → Elt Ideal .f32) := by
  unfold iblk4
  exact Memref.read_access_unit_zero (Elt Ideal) main_arg14 (off4 t) (fun a => by rw [congrFun (off4 t) a]; simp) (V c main_arg14)

/-! ## What the one point writes back, and the array after it -/

/-- WHAT THE POINT WRITES BACK is the whole block of the reference's term of the five arrays the region found. -/
theorem rxn_flushed (c : Dev nD) (t : Fin cfg4.N) :
    (dat4 (F := Ideal) V c).flushed 5 t
      = ((cfg4.win 5).blk t).view.read (Elt Ideal)
          (rxnRef (V c main_v109) (V c main_arg11) (V c main_arg12) (V c main_arg13) (V c main_arg14)) := by
  show (cfg4.win 5).cut (grid4.coords t) ((dat4 V c).after 5 t) = _
  rw [after4_5]
  unfold out4_5
  rw [View.canon_unit_zero hz2]
  simp only [View.ld_unit_zero (S := S1024x512) hz2, View.ld_unit_zero (S := S512x256) hz2,
    View.ld_unit_zero (S := S256) hz1, View.ld_unit_zero (S := S256x128) hz2, View.ld_unit_zero (S := S128) hz1]
  rw [iblk_0 V c t, iblk_1 V c t, iblk_2 V c t, iblk_3 V c t, iblk_4 V c t]
  rw [pay_eq_ref]
  exact (Memref.read_access_unit_zero (Elt Ideal) main_v110 (off5 t) (fun a => by rw [congrFun (off5 t) a]; simp) _).symm

/-- THE OUTPUT ARRAY AFTER THE REGION: the reference's head of the five arrays as the region found them. -/
theorem rxn_value_ref (c : Dev nD) :
    (dat4 (F := Ideal) V c).arrAt 5 cfg4.N
      = rxnRef (V c main_v109) (V c main_arg11) (V c main_arg12) (V c main_arg13) (V c main_arg14) :=
  (dat4 V c).arrAt_eq_of_cover 5 _ (fun t _ => rxn_flushed V c t) fun i =>
    ⟨t4_0, flush4_5 t4_0, by
      show i ∈ ((View.whole main_v110).slice (win4_5.rect t4_0)).set
      rw [View.set_slice_whole, Rect.mem_set_unit]
      intro a
      have h0 : (i 0 : Nat) < 1024 := (i 0).isLt
      have h1 : (i 1 : Nat) < 128 := (i 1).isLt
      match a with
      | ⟨0, _⟩ =>
        show win4_5.index t4_0 0 * win4_5.size 0 ≤ (i 0 : Nat)
          ∧ (i 0 : Nat) < win4_5.index t4_0 0 * win4_5.size 0 + win4_5.xsize (grid4.coords t4_0) 0
        rw [show win4_5.index t4_0 0 * win4_5.size 0 = 0 from rfl, show win4_5.xsize (grid4.coords t4_0) 0 = 1024 from rfl]
        omega
      | ⟨1, _⟩ =>
        show win4_5.index t4_0 1 * win4_5.size 1 ≤ (i 1 : Nat)
          ∧ (i 1 : Nat) < win4_5.index t4_0 1 * win4_5.size 1 + win4_5.xsize (grid4.coords t4_0) 1
        rw [show win4_5.index t4_0 1 * win4_5.size 1 = 0 from rfl, show win4_5.xsize (grid4.coords t4_0) 1 = 128 from rfl]
        omega⟩

/-- The same with the reference's term written out in its own operations. -/
theorem rxn_value (c : Dev nD) :
    (dat4 (F := Ideal) V c).arrAt 5 cfg4.N
      = addf (Host.dotGeneral (φ₁ := .f32) (φ₂ := .f32) Cert.ReferenceIdeal.dot_S1024x256_S256x128_S1024x128_1_0_0_1_n_n none
            (maximumf
              (addf (Host.dotGeneral (φ₁ := .f32) (φ₂ := .f32) Cert.ReferenceIdeal.dot_S1024x512_S512x256_S1024x256_1_0_0_1_n_n none
                  (V c main_v109) (V c main_arg11))
                (broadcastInDim Cert.ReferenceIdeal.S1024x256 ![0, 1] Cert.ReferenceIdeal.Gen.bcast_S1x256_S1024x256_0_1
                  (broadcastInDim Cert.ReferenceIdeal.S1x256 ![1] Cert.ReferenceIdeal.Gen.bcast_S256_S1x256_1 (V c main_arg12))))
              (broadcastInDim Cert.ReferenceIdeal.S1024x256 ![] Cert.ReferenceIdeal.Gen.bcast_S_S1024x256
                (constant (F := Ideal) Cert.ReferenceIdeal.S_ .f32 0x00000000#32)))
            (V c main_arg13))
          (broadcastInDim Cert.ReferenceIdeal.S1024x128 ![0, 1] Cert.ReferenceIdeal.Gen.bcast_S1x128_S1024x128_0_1
            (broadcastInDim Cert.ReferenceIdeal.S1x128 ![1] Cert.ReferenceIdeal.Gen.bcast_S128_S1x128_1 (V c main_arg14))) :=
  (rxn_value_ref V c).trans (rxnRef_eq _ _ _ _ _)

end Cert.Bridge.Rxn

end
-- ==== Proof.HeadStretch.lean ====
/-
  The reaction head's input and the head itself, read on both programs.  The head's input is the pooled state and
  the gathered block embeddings laid side by side; the row to gather is the index itself, or the index plus the
  number of rows where it is negative.  The reference forms it by the same operations as the kernel program's last
  host stretch, so one term names both; likewise the reference's last nine operations are the head's term.
-/
import proofs.«120951_j23605140259147_2_alg».proof.Proof.Stretch
import proofs.«120951_j23605140259147_2_alg».proof.Proof.RefReadP
import proofs.«120951_j23605140259147_2_alg».proof.Proof.RxnValue

set_option maxRecDepth 16384

noncomputable section

namespace Cert.Bridge.Rxn

section Reference

open Idealize.ShloMosaic Cert.ReferenceIdeal Cert.ReferenceIdeal.Gen Cert.ReferenceIdeal.ReadP

/-- The head's input as one term: the pooled state beside the rows of the block embeddings the indices name, a
    negative index counted from the end. -/
def HEADIN (P : (⟨S1024x256, .f32⟩ : BufTy).Contents (Elt Ideal)) (x3 : (⟨S100000x256, .f32⟩ : BufTy).Contents (Elt Ideal))
    (x4 : (⟨S1024, .i32⟩ : BufTy).Contents (Elt Ideal)) : (⟨S1024x512, .f32⟩ : BufTy).Contents (Elt Ideal) :=
  concatenate S1024x512 1
    [⟨S1024x256, P⟩,
     ⟨S1024x256, Host.gather gather_S100000x256_S1024x1_S1024x256_1_0_n_n_0_1_1256 x3
        (broadcastInDim S1024x1 ![0] bcast_S1024_S1024x1_0
          (select (cmpi .slt x4 (broadcastInDim S1024 ![] bcast_S_S1024 (constantI S_ 32 0#32)))
            (addi x4 (broadcastInDim S1024 ![] bcast_S_S1024 (constantI S_ 32 100000#32))) x4))⟩]
    concatenates_S1024x256_S1024x256_S1024x512_d1

/-- The reference's head input is that term of its pooled state. -/
theorem headin_ref (x0 : (⟨S200000x128, .f32⟩ : BufTy).Contents (Elt Ideal)) (x1 : (⟨S2x800000, .i32⟩ : BufTy).Contents (Elt Ideal))
    (x2 : (⟨S200000, .i32⟩ : BufTy).Contents (Elt Ideal)) (x3 : (⟨S100000x256, .f32⟩ : BufTy).Contents (Elt Ideal))
    (x4 : (⟨S1024, .i32⟩ : BufTy).Contents (Elt Ideal)) (x5 : (⟨S128x256, .f32⟩ : BufTy).Contents (Elt Ideal))
    (x6 : (⟨S256, .f32⟩ : BufTy).Contents (Elt Ideal)) (x7 : (⟨S256x256, .f32⟩ : BufTy).Contents (Elt Ideal))
    (x8 : (⟨S256, .f32⟩ : BufTy).Contents (Elt Ideal)) (x9 : (⟨S256x256, .f32⟩ : BufTy).Contents (Elt Ideal))
    (x10 : (⟨S256, .f32⟩ : BufTy).Contents (Elt Ideal)) :
    val_main_v120 (F := Ideal) x0 x1 x2 x3 x4 x5 x6 x7 x8 x9 x10
      = HEADIN (val_main_v97 (F := Ideal) x0 x1 x2 x5 x6 x7 x8 x9 x10) x3 x4 := by
  generalize hP : val_main_v97 (F := Ideal) x0 x1 x2 x5 x6 x7 x8 x9 x10 = P
  unfold val_main_v120 val_main_v119 val_main_v118 val_main_v117 val_main_v116 val_main_v115 val_main_c_24 val_main_v114
    val_main_v113 val_main_c_23
  rw [hP]
  rfl

/-- The reference's last nine operations are the head's term of its head input. -/
theorem rxn_ref (x0 : (⟨S200000x128, .f32⟩ : BufTy).Contents (Elt Ideal)) (x1 : (⟨S2x800000, .i32⟩ : BufTy).Contents (Elt Ideal))
    (x2 : (⟨S200000, .i32⟩ : BufTy).Contents (Elt Ideal)) (x3 : (⟨S100000x256, .f32⟩ : BufTy).Contents (Elt Ideal))
    (x4 : (⟨S1024, .i32⟩ : BufTy).Contents (Elt Ideal)) (x5 : (⟨S128x256, .f32⟩ : BufTy).Contents (Elt Ideal))
    (x6 : (⟨S256, .f32⟩ : BufTy).Contents (Elt Ideal)) (x7 : (⟨S256x256, .f32⟩ : BufTy).Contents (Elt Ideal))
    (x8 : (⟨S256, .f32⟩ : BufTy).Contents (Elt Ideal)) (x9 : (⟨S256x256, .f32⟩ : BufTy).Contents (Elt Ideal))
    (x10 : (⟨S256, .f32⟩ : BufTy).Contents (Elt Ideal)) (x11 : (⟨S512x256, .f32⟩ : BufTy).Contents (Elt Ideal))
    (x12 : (⟨S256, .f32⟩ : BufTy).Contents (Elt Ideal)) (x13 : (⟨S256x128, .f32⟩ : BufTy).Contents (Elt Ideal))
    (x14 : (⟨S128, .f32⟩ : BufTy).Contents (Elt Ideal)) :
    val_main_v129 (F := Ideal) x0 x1 x2 x3 x4 x5 x6 x7 x8 x9 x10 x11 x12 x13 x14
      = rxnRef (val_main_v120 (F := Ideal) x0 x1 x2 x3 x4 x5 x6 x7 x8 x9 x10) x11 x12 x13 x14 := by
  generalize hX : val_main_v120 (F := Ideal) x0 x1 x2 x3 x4 x5 x6 x7 x8 x9 x10 = X
  unfold val_main_v129 val_main_v128 val_main_v127 val_main_v126 val_main_v125 val_main_call6_v0 val_main_call6_cst
    val_main_v124 val_main_v123 val_main_v122 val_main_v121
  rw [hX]
  rfl

end Reference

section Kernel

open Cert.KernelIdeal Cert.KernelIdeal.Gen Idealize.ShloMosaic Idealize.ShloMosaic.TcCoe Idealize.SL.Sem Idealize.ShloMosaic.StableHlo

/-- The kernel program's last host stretch leaves that term, of the pooled state and of the two arguments as the
    stretch finds them, in the head's input buffer. -/
theorem headin_stretch (Wx : Valuation τ sig (Elt Ideal)) :
    StableHlo.after hostOps4 Wx (Proc.devRef .tc main_v109)
      = HEADIN (Wx (Proc.devRef .tc main_v91)) (Wx (Proc.devRef .tc main_arg3)) (Wx (Proc.devRef .tc main_arg4)) := by
  after_results
  rfl

end Kernel

end Cert.Bridge.Rxn

end
-- ==== Proof.K6.lean ====
/-
  The reaction head of the idealized kernel program: the pooled state side by side with the selected block
  embeddings (the reference's own gather and concatenation on equal arrays), then the fifth region, whose body is
  the reference's two products with their biases and the rectifier between them. So both results of the kernel
  program are the reference's result stages of the same arguments.
-/
import proofs.«120951_j23605140259147_2_alg».proof.Proof.KWalk
import proofs.«120951_j23605140259147_2_alg».proof.Proof.K4
import proofs.«120951_j23605140259147_2_alg».proof.Proof.K5
import proofs.«120951_j23605140259147_2_alg».proof.Proof.RxnValue
import proofs.«120951_j23605140259147_2_alg».proof.Proof.HeadStretch

set_option maxRecDepth 16384

noncomputable section

namespace Cert.Bridge.K6

open Cert.KernelIdeal Cert.KernelIdeal.Gen Idealize.ShloMosaic Idealize.ShloMosaic.TcCoe Idealize.SL.Sem Idealize.ShloMosaic.StableHlo
open Cert.ReferenceIdeal.ReadP (val_main_v97 val_main_v112 val_main_v120 val_main_v129)

variable (m : (ℓ : Loc nD τ sig) → Buf (Elt Ideal) ℓ) (ρ : Dev nD → PrngReg) (c : Dev nD)

set_option maxHeartbeats 8000000 in
theorem w16_arg3 : W16 m ρ c (Proc.devRef .tc main_arg3) = m ((c : Thread nD τ).loc main_arg3) := by walk_back
set_option maxHeartbeats 8000000 in
theorem w16_arg4 : W16 m ρ c (Proc.devRef .tc main_arg4) = m ((c : Thread nD τ).loc main_arg4) := by walk_back
set_option maxHeartbeats 8000000 in
theorem w17_arg11 : W17 m ρ c (Proc.devRef .tc main_arg11) = m ((c : Thread nD τ).loc main_arg11) := by walk_back
set_option maxHeartbeats 8000000 in
theorem w17_arg12 : W17 m ρ c (Proc.devRef .tc main_arg12) = m ((c : Thread nD τ).loc main_arg12) := by walk_back
set_option maxHeartbeats 8000000 in
theorem w17_arg13 : W17 m ρ c (Proc.devRef .tc main_arg13) = m ((c : Thread nD τ).loc main_arg13) := by walk_back
set_option maxHeartbeats 8000000 in
theorem w17_arg14 : W17 m ρ c (Proc.devRef .tc main_arg14) = m ((c : Thread nD τ).loc main_arg14) := by walk_back

set_option maxHeartbeats 8000000 in
/-- The reaction head's input is the reference's stage. -/
theorem head_in : W17 m ρ c (Proc.devRef .tc main_v109) = val_main_v120 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps4 (W16 m ρ c) (Proc.devRef .tc main_v109) = _
  rw [Cert.Bridge.Rxn.headin_stretch (W16 m ρ c), K4.pooled_kept, w16_arg3, w16_arg4]
  exact (Cert.Bridge.Rxn.headin_ref _ _ _ _ _ _ _ _ _ _ _).symm

/-- The second result: the reaction logits are the reference's. -/
theorem out1 : W18 m ρ c (Proc.devRef .tc main_v110) = val_main_v129 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W18_arr m ρ c 5).trans ((Cert.Bridge.Rxn.rxn_value_ref (V17 m ρ) c).trans ?_)
  show Cert.Bridge.Rxn.rxnRef (W17 m ρ c (Proc.devRef .tc main_v109)) (W17 m ρ c (Proc.devRef .tc main_arg11))
    (W17 m ρ c (Proc.devRef .tc main_arg12)) (W17 m ρ c (Proc.devRef .tc main_arg13)) (W17 m ρ c (Proc.devRef .tc main_arg14)) = _
  rw [head_in, w17_arg11, w17_arg12, w17_arg13, w17_arg14]
  exact (Cert.Bridge.Rxn.rxn_ref _ _ _ _ _ _ _ _ _ _ _ _ _ _ _).symm

set_option maxHeartbeats 8000000 in
/-- The first result: the block logits, as the fourth region left them, are the reference's. -/
theorem out0 : W18 m ρ c (Proc.devRef .tc main_v101) = val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg15)) := by
  rw [W18_of_ne m ρ c main_v101 (by decide)]
  have h : W17 m ρ c (Proc.devRef .tc main_v101) = W16 m ρ c (Proc.devRef .tc main_v101) := by
    show StableHlo.after hostOps4 (W16 m ρ c) (Proc.devRef .tc main_v101) = _
    generalize W16 m ρ c = Wx
    after_results
  rw [h, K5.logits_out]

end Cert.Bridge.K6

end
-- ==== Proof.lean ====
/-
  The certificate of a three-layer graph-convolution encoder with mean pooling, scaled cosine logits against a table
  of block embeddings, and a two-layer reaction head: the Pallas kernel program against its jnp reference, over the
  extended reals.

  The three frames: the two kernel programs' are the generated frame certificates; the reference has no kernel and its
  frame is its run with the results dropped. The idealization rewrote nothing, so preserves is trivial.

  The value claim. The kernel program's run ends with its two results at the last segment boundary's contents (KRun).
  Walking that fold back to the launch memory (K1 to K6), every intermediate array is the reference's stage of the same
  arguments: the degree normalisation and the index vectors are computed by the same operations; each dense region
  leaves the matrix product the reference computes on the host (DenseValue0/1/2); each graph-convolution layer, which
  the kernel writes as scale-rows, gather, scatter-add, scale-rows and the reference as gather, scale-by-edge-norm,
  scatter-add, is the same function because the normalisation is a nonnegative real (LayerLaw, DinvFacts); the pool and
  the row normalisation are shared; the logits region divides by the clamped temperature before the inner product
  and the reference after it, equal because one over the clamped temperature is a nonnegative real (LogitsValue,
  RefLogits, TempLaw, K5); the reaction head's region is the reference's two products, biases and rectifier
  (RxnValue). No finiteness of the inputs is used.
-/
import proofs.«120951_j23605140259147_2_alg».proof.Defs
import proofs.«120951_j23605140259147_2_alg».proof.Proof.Gen.Kernel
import proofs.«120951_j23605140259147_2_alg».proof.Proof.Gen.Kernel.Skeleton
import proofs.«120951_j23605140259147_2_alg».proof.Proof.Gen.Kernel.Launch
import proofs.«120951_j23605140259147_2_alg».proof.Proof.Gen.Kernel.Points
import proofs.«120951_j23605140259147_2_alg».proof.Proof.Gen.Kernel.Frame
import proofs.«120951_j23605140259147_2_alg».proof.Proof.Gen.KernelIdeal
import proofs.«120951_j23605140259147_2_alg».proof.Proof.Gen.KernelIdeal.Skeleton
import proofs.«120951_j23605140259147_2_alg».proof.Proof.Gen.KernelIdeal.Launch
import proofs.«120951_j23605140259147_2_alg».proof.Proof.Gen.KernelIdeal.Points
import proofs.«120951_j23605140259147_2_alg».proof.Proof.Gen.KernelIdeal.Frame
import proofs.«120951_j23605140259147_2_alg».proof.Proof.Gen.ReferenceIdeal
import proofs.«120951_j23605140259147_2_alg».proof.Proof.Gen.Pre_finite_inputs
import proofs.«120951_j23605140259147_2_alg».proof.Proof.RefReadP
import proofs.«120951_j23605140259147_2_alg».proof.Proof.KRun
import proofs.«120951_j23605140259147_2_alg».proof.Proof.K6
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The ideal pass rewrote no operation. -/
theorem preserves : Cert.preserves_Kernel_KernelIdeal := trivial

/-- Both programs, from memories that agree on the arguments, end with the reference's two result stages of those
    arguments: the kernel program by the walk back through its segments, the reference by its run read back. -/
theorem algebraic : Cert.algebraic_KernelIdeal_ReferenceIdeal := by
  intro m ρ m' ρ' _ hagree
  refine ⟨fun c => Cert.KernelIdeal.Gen.W18 m ρ c (Proc.devRef .tc Cert.KernelIdeal.main_v101),
    fun c => Cert.KernelIdeal.Gen.W18 m ρ c (Proc.devRef .tc Cert.KernelIdeal.main_v110),
    Cert.Bridge.KRun.run_named (F := Ideal) m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · rw [Cert.ReferenceIdeal.ReadP.val_main_v112_eq, (hagree c).1, (hagree c).2.1, (hagree c).2.2.1, (hagree c).2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.2.2.2.2]
    exact (Cert.Bridge.K6.out0 m ρ c).symm
  · rw [Cert.ReferenceIdeal.ReadP.val_main_v129_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1]
    exact (Cert.Bridge.K6.out1 m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
